-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S256 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S50000x256 .f32) (main_arg1 : IVec S2x800000 32) (main_arg2 : IVec S50000 32) (main_arg3 : FVec F S256x256 .f32) (main_arg4 : FVec F S256 .f32) (main_arg5 : FVec F S256 .f32) (main_arg6 : FVec F S256 .f32) (main_arg7 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S5000x256 : Shape := ⟨2, ![5000, 256]⟩
abbrev S_ : Shape := ⟨0, ![]⟩
abbrev S850000x1 : Shape := ⟨2, ![850000, 1]⟩
abbrev S850000x256 : Shape := ⟨2, ![850000, 256]⟩
abbrev S1x1 : Shape := ⟨2, ![1, 1]⟩
abbrev S1x256 : Shape := ⟨2, ![1, 256]⟩
abbrev S1x5000x256 : Shape := ⟨3, ![1, 5000, 256]⟩
abbrev S1x1x1 : Shape := ⟨3, ![1, 1, 1]⟩

abbrev nBuf : Space → Nat
  | .hbm => 76
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S50000x256, .f32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x256, .f32⟩
  | .hbm, ⟨51, _⟩ => ⟨S850000x1, .f32⟩
  | .hbm, ⟨52, _⟩ => ⟨S850000x256, .f32⟩
  | .hbm, ⟨53, _⟩ => ⟨S850000x256, .f32⟩
  | .hbm, ⟨54, _⟩ => ⟨S_, .f32⟩
  | .hbm, ⟨55, _⟩ => ⟨S50000x256, .f32⟩
  | .hbm, ⟨56, _⟩ => ⟨S850000x1, .i32⟩
  | .hbm, ⟨57, _⟩ => ⟨S50000x256, .f32⟩
  | .hbm, ⟨58, _⟩ => ⟨S1x1, .f32⟩
  | .hbm, ⟨59, _⟩ => ⟨S1x1, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S1x1, .f32⟩
  | .hbm, ⟨74, _⟩ => ⟨S1x1, .f32⟩
  | .hbm, ⟨75, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S5000x256, .f32⟩
  | .local _ .vmem, ⟨13, _⟩ => ⟨S5000x256, .f32⟩
  | .local _ .vmem, ⟨14, _⟩ => ⟨S256, .f32⟩
  | .local _ .vmem, ⟨15, _⟩ => ⟨S256, .f32⟩
  | .local _ .vmem, ⟨16, _⟩ => ⟨S256, .f32⟩
  | .local _ .vmem, ⟨17, _⟩ => ⟨S1, .f32⟩
  | .local _ .vmem, ⟨18, _⟩ => ⟨S1x1, .f32⟩
  | .local _ .vmem, ⟨19, _⟩ => ⟨S1x1, .f32⟩
  | .local _ .vmem, ⟨20, _⟩ => ⟨S5000x256, .f32⟩
  | .local _ .vmem, ⟨21, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_12 : BitVec 32 := 0#32
  let v32 : BitVec 1 := Scalar.cmpi .ne v31 c0_i32_12
  v32

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S5000x256_S5000x256 : S5000x256.ShapeCasts S5000x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  shapeCasts_S5000x256_S1x5000x256 : S5000x256.ShapeCasts S1x5000x256
  reduces_S1x5000x256_S1 : S1x5000x256.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  shapeCasts_S_S1x1 : S_.ShapeCasts S1x1
  broadcasts_S1x1_S5000x256 : S1x1.Broadcasts S5000x256
  inb_S1_S1_0 : ∀ a, (![0] : Fin 1 → Nat) a + S1.size a ≤ S1.size a
  h_S1 : 0 < S1.numel
  inpos_S1_p0 : ∀ a, (![0] : Fin 1 → Nat) a < S1.size a
  dot_S5000x256_S256x256_S5000x256_1_0_0_1_n_n_wf : DotDims.WF S5000x256 S256x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256.size a ≤ S256.size a
  hwx2_1 : ∀ i : grid2.Coords, EltTy.bits .f32 = 32 ∨ (Rect.block (s := S256) S256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x256.size a ≤ S50000x256.size a
  hwx2_7 : ∀ i : grid2.Coords, EltTy.bits .f32 = 32 ∨ (Rect.block (s := S50000x256) S5000x256.size (cc2_transform_7 i) (hinb2_7 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41_0) S1x1.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41_1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v40) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v53) S5000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S50000x256, .f32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x256, .f32⟩
  | .hbm, ⟨51, _⟩ => ⟨S850000x1, .f32⟩
  | .hbm, ⟨52, _⟩ => ⟨S850000x256, .f32⟩
  | .hbm, ⟨53, _⟩ => ⟨S850000x256, .f32⟩
  | .hbm, ⟨54, _⟩ => ⟨S_, .f32⟩
  | .hbm, ⟨55, _⟩ => ⟨S50000x256, .f32⟩
  | .hbm, ⟨56, _⟩ => ⟨S850000x1, .i32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S50000x256, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S50000x256, .f32⟩
  | .hbm, ⟨76, _⟩ => ⟨S50000x256, .f32⟩
  | .hbm, ⟨77, _⟩ => ⟨S1x256, .f32⟩
  | .hbm, ⟨78, _⟩ => ⟨S50000x256, .f32⟩
  | .hbm, ⟨79, _⟩ => ⟨S50000x256, .f32⟩
  | .hbm, ⟨80, _⟩ => ⟨S1x256, .f32⟩
  | .hbm, ⟨81, _⟩ => ⟨S50000x256, .f32⟩
  | .hbm, ⟨82, _⟩ => ⟨S50000x256, .f32⟩
  | .hbm, ⟨83, _⟩ => ⟨S_, .f32⟩
  | .hbm, ⟨84, _⟩ => ⟨S50000x256, .f32⟩
  | .hbm, ⟨85, _⟩ => ⟨S50000x256, .i1⟩
  | .hbm, ⟨86, _⟩ => ⟨S1x1, .f32⟩
  | .hbm, ⟨87, _⟩ => ⟨S50000x256, .f32⟩
  | .hbm, ⟨88, _⟩ => ⟨S50000x256, .f32⟩
  | .hbm, ⟨89, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S_d0_1 : S50000x256.ReducesTo [0, 1] S_
  h_S_ : 0 < S_.numel
  bcast_S1_S1x1_1 : S1.BroadcastsInDim S1x1 (![1] : Fin 1 → Fin S1x1.rank)
  bcast_S1x1_S50000x256_0_1 : S1x1.BroadcastsInDim S50000x256 (![0, 1] : Fin 2 → Fin S50000x256.rank)
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.Bits.RunCond.lean ====
/-
  The run of the word-level kernel program with EVERY unscoped buffer named at the end.

  @main is six items: three stretches of host operations and, between them, the three kernel regions (the dense
  product x·W, the two global sums of the layer normalisation, the normalisation itself). Between two items a
  core's unscoped buffers hold the launch contents pushed through the host stretches, with the arrays a region
  writes replaced by what that region leaves (`outs`). Given one segment record per region, entered from the
  contents before it and left at the contents after it, every weakly fair execution terminates without a fault
  and the final memory holds each unscoped buffer at the last boundary's contents `V6`: in particular every
  argument array as launched and the result array `main_v53` at `outs 6 main_v53`.
-/
import proofs.«148545_j10282151707323_1_alg».proof.Proof.GenP.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

set_option backward.isDefEq.respectTransparency.types false in
/-- The six items of @main run in order from the launch memory `m`; the final memory of every core holds each
    unscoped buffer at the contents after the last item. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V6 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, hpre1 c, hpost1 c, hpre2 c, (hpost2 c).trans (sep_mono .rfl (hE3 c))⟩)
    (hinit := ?_) (QY := fun c s => ∀ b ∈ Pipeline.ucRefs τ sig, s.mem (((c : Thread nD τ)).1, b) = V6 m outs c b)
    (hfin := fun c s' => ?_) (hQ := fun _ h => h)
  · -- at the launch the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end the held buffers are read against the final state
    unfold StableHlo.held
    iintro ⟨Hh, HSI⟩
    imodintro
    iapply (pointsTo_read_all (Pipeline.ucRefs τ sig) (fun b => (((c : Thread nD τ)).1, b)) (V6 m outs c) s')
    isplitl [Hh] <;> iassumption

end Cert.Kernel.Hand

end
-- ==== Proof.Bits.Region0.lean ====
/- REGION 0: the pipelined matrix product x · W, one 5000-row block of x per grid point against the
   whole of W. For buffer contents V at the region's entry: each window's block at a point, what the
   body leaves in the output window's buffer as a function of the two input blocks, the pipeline's proof
   data over the untouched-rest invariant, and the body's obligation at every point. -/
import proofs.«148545_j10282151707323_1_alg».proof.Proof.Gen.Kernel.Skeleton
import proofs.«148545_j10282151707323_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it: rows 5000·t … 5000·t+4999
    of x (window 0) and of the product (window 2), the whole of W (window 1). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of the x window holds the point's row block at every point, for any proof data whose array
    is V's and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The buffer of the W window holds W at every point although it is fetched at the first only: its block
    index never moves, so what the first point fetched is every later point's block. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S5000x256 := Rect.unit (s := S5000x256) ![0, 0] S5000x256.size inb_S5000x256_S5000x256_0_0
abbrev r0_w : Rect S256x256 := Rect.unit (s := S256x256) ![0, 0] S256x256.size inb_S256x256_S256x256_0_0

/-! ## What the body leaves in the output window's buffer -/

/-- The output buffer after the body, from the two input blocks: one store of the whole block, the product of
    the x block and W (both rounded to bf16, accumulated in f32 from zero). -/
def out0_2 (x0 : Vec F S5000x256 .f32) (x1 : Vec F S256x256 .f32) : Vec F S5000x256 .f32 :=
  View.canon [⟨r0_x, k0_pay1 (View.ld x0 r0_x) (View.ld x1 r0_w)⟩]

/-- The one store covers the buffer. -/
theorem cover0_2 (p0 : Vec F S5000x256 .f32) (y : S5000x256.Idx) :
    ∃ pc ∈ ([⟨r0_x, p0⟩] : List (View.Piece (Elt F) S5000x256 .f32)), y ∈ pc.1.set :=
  View.cover_of_tiled [⟨r0_x, p0⟩] S5000x256.size (by rfl) y

/-! ## The body's triple -/

set_option maxHeartbeats 1000000 in
/-- The kernel body on whole staging memrefs — the inputs' reading x0, x1, the output's holding anything —
    runs to the continuation with the inputs' as they were and the output's at out0_2 x0 x1. The body reads the
    output buffer before overwriting all of it; what it read is not used. -/
theorem sound_kernel0 (c : Dev nD) (E : Set ℕ) (i : grid0.Coords)
    (arg1 : Memref sig .tc .vmem S5000x256 .f32) (harg1 : arg1.IsWhole)
    (arg2 : Memref sig .tc .vmem S256x256 .f32) (harg2 : arg2.IsWhole)
    (arg3 : Memref sig .tc .vmem S5000x256 .f32) (harg3 : arg3.IsWhole)
    (x0 : Vec F S5000x256 .f32) (x1 : Vec F S256x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core c: the arrays as the region finds them; after the body at point t
    each input's buffer at its block and the output's at out0_2 of the input blocks; the invariant that of a body
    touching nothing but its windows; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- The three windows conjoined one by one. -/
theorem bigSepW0 {M : Type} [URA M] (Φ : Fin 3 → sProp M) :
    bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so sound_kernel0 applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSepW0, bigSepW0]
  exact sound_body0 V c t

end Cert.Kernel.Hand

end
-- ==== Proof.Bits.Region1Run.lean ====
import proofs.«148545_j10282151707323_1_alg».proof.Proof.Gen.Kernel.Skeleton
import proofs.«148545_j10282151707323_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The statistics kernel on whole buffers

The kernel body reads a block `x` of rows and the bias `b`, and keeps two one-element accumulators `S`, `Q`:
at the first grid point it zeroes them; at every point it adds `∑ (x + b)` to `S` and `∑ (x + b)²` to `Q`; at the
last point it copies them to its two one-element results. Three cases by the grid point. -/

/-- The first branch's condition: the grid coordinate is zero. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- The last branch's condition: the grid coordinate is nine. -/
abbrev cond1_1 (i : grid1.Coords) : Prop := k1_cond2 i = 1#1
/-- It holds at point 9 only. -/
theorem hcond1_1 : ∀ t : Fin cfg1.N, cond1_1 (grid1.coords t) ↔ t.val = 9 :=
  (by decide +kernel : ∀ t : Fin grid1.N, cond1_1 (grid1.coords t) ↔ t.val = 9)

/-! ## Where the result windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the body stores nothing into the result windows, and the pipeline does not write them back. -/
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
/-- At the last point the body stores into both. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The memrefs the pipeline passes -/

abbrev ms1_0 (t : Fin cfg1.N) : Memref sig .tc .vmem S5000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The two accumulators: whole scoped buffers of the kernel's own. -/
abbrev scM1_0 : Memref sig .tc .vmem S1x1 .f32 := Memref.whole cc1_scratch0
abbrev scM1_1 : Memref sig .tc .vmem S1x1 .f32 := Memref.whole cc1_scratch1

/-! ## Whole-buffer loads and stores -/

theorem hz1 : (![0] : Fin 1 → Nat) = fun _ => 0 := funext fun a => by fin_cases a <;> rfl
theorem hz2 : (![0, 0] : Fin 2 → Nat) = fun _ => 0 := funext fun a => by fin_cases a <;> rfl

/-- A load of a whole buffer through the full rectangle reads its contents. -/
theorem readAt_full {S : Shape} {e : EltTy} {m : Memref sig .tc .vmem S e} (h : m.IsWhole) {off : Fin S.rank → Nat}
    (hoff : off = fun _ => 0) (inb : ∀ a, off a + S.size a ≤ S.size a) (X : S.Idx → Elt F e) :
    View.readAt (Elt F) m.view (Rect.unit off S.size inb).toLoadRect (h.unread X) = X := by
  rw [View.readAt_eq_ld, h.read_unread]; exact View.ld_unit_zero hoff inb X

/-- After a store through the full rectangle, whatever came before, the buffer reads the stored value. -/
theorem read_writes_full {S : Shape} {e : EltTy} (v : View sig .tc .vmem S e) (f : v.ty.Contents (Elt F)) {off : Fin S.rank → Nat}
    (hoff : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hoff inb y⟩),
    View.canon_cons_unit_zero hoff inb]

/-! ## The three runs -/

set_option maxHeartbeats 1000000 in
/-- At the first grid point: whatever the accumulators held, the body zeroes them and adds the block's sums; the result
    buffers are not touched. -/
theorem kernelRun1_first (c : Dev nD) (E : Set ℕ) (i : grid1.Coords)
    (arg1 : Memref sig .tc .vmem S5000x256 .f32) (harg1 : arg1.IsWhole) (arg2 : Memref sig .tc .vmem S256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : cond1_0 i) (hc1 : ¬cond1_1 i)
    (x0 : Vec F S5000x256 .f32) (x1 : Vec F S256 .f32) (xi2 xi3 : Vec F S1x1 .f32) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xi3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare (k1_pay4 x0 x1 k1_pay1) ∗ owns (c : Thread nD τ) arg6 fullShare (k1_pay5 x0 x1 k1_pay2)) -∗ K ⟨⟩))
      ⊢ wp frame (wpE (defs₀ (F := F)) Variants.none c none) E (cc1__ln_stats_kernel i arg1 harg1 arg2 harg2 arg3 harg3 arg4 harg4 arg5 harg5 arg6 harg6) K := by
  simp only [cc1__ln_stats_kernel_eq_skeleton]; unfold cc1__ln_stats_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg1.eq_unread hf0; obtain rfl := harg2.eq_unread hf1
  obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    rw [read_writes_full _ _ hz2, readAt_full harg1 hz2, readAt_full harg2 hz1]
    sl_unfold_words
    rw [View.readCov_unit_zero _ hz2]
  · iexists _; isplitr; swap; · iexact HS1
    ipureintro
    rw [read_writes_full _ _ hz2, readAt_full harg1 hz2, readAt_full harg2 hz1]
    sl_unfold_words
    rw [View.readCov_unit_zero _ hz2]

set_option maxHeartbeats 1000000 in
/-- At a point neither first nor last: the body adds the block's sums to the accumulators; the result buffers are not
    touched. -/
theorem kernelRun1_mid (c : Dev nD) (E : Set ℕ) (i : grid1.Coords)
    (arg1 : Memref sig .tc .vmem S5000x256 .f32) (harg1 : arg1.IsWhole) (arg2 : Memref sig .tc .vmem S256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : ¬cond1_0 i) (hc1 : ¬cond1_1 i)
    (x0 : Vec F S5000x256 .f32) (x1 : Vec F S256 .f32) (xi2 xi3 xs0 xs1 : Vec F S1x1 .f32) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xi3
        ∗ owns (c : Thread nD τ) arg5 fullShare xs0 ∗ owns (c : Thread nD τ) arg6 fullShare xs1
        ∗ (iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare (k1_pay4 x0 x1 xs0) ∗ owns (c : Thread nD τ) arg6 fullShare (k1_pay5 x0 x1 xs1)) -∗ K ⟨⟩))
      ⊢ wp frame (wpE (defs₀ (F := F)) Variants.none c none) E (cc1__ln_stats_kernel i arg1 harg1 arg2 harg2 arg3 harg3 arg4 harg4 arg5 harg5 arg6 harg6) K := by
  simp only [cc1__ln_stats_kernel_eq_skeleton]; unfold cc1__ln_stats_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1
  obtain rfl := harg3.eq_unread hf2; obtain rfl := harg4.eq_unread hf3
  obtain rfl := harg5.eq_unread hfs0; obtain rfl := harg6.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    rw [read_writes_full _ _ hz2, readAt_full harg1 hz2, readAt_full harg2 hz1, readAt_full harg5 hz2]
  · iexists _; isplitr; swap; · iexact HS1
    ipureintro
    rw [read_writes_full _ _ hz2, readAt_full harg1 hz2, readAt_full harg2 hz1, readAt_full harg6 hz2]

set_option maxHeartbeats 1000000 in
/-- At the last grid point: the body adds the block's sums and copies both accumulators to the result buffers. -/
theorem kernelRun1_last (c : Dev nD) (E : Set ℕ) (i : grid1.Coords)
    (arg1 : Memref sig .tc .vmem S5000x256 .f32) (harg1 : arg1.IsWhole) (arg2 : Memref sig .tc .vmem S256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : ¬cond1_0 i) (hc1 : cond1_1 i)
    (x0 : Vec F S5000x256 .f32) (x1 : Vec F S256 .f32) (xs0 xs1 : Vec F S1x1 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ owns (c : Thread nD τ) arg5 fullShare xs0 ∗ owns (c : Thread nD τ) arg6 fullShare xs1
        ∗ (iprop(owns (c : Thread nD τ) arg1 fullShare x0 ∗ owns (c : Thread nD τ) arg2 fullShare x1 ∗ owns (c : Thread nD τ) arg3 fullShare (k1_pay4 x0 x1 xs0) ∗ owns (c : Thread nD τ) arg4 fullShare (k1_pay5 x0 x1 xs1)
            ∗ owns (c : Thread nD τ) arg5 fullShare (k1_pay4 x0 x1 xs0) ∗ owns (c : Thread nD τ) arg6 fullShare (k1_pay5 x0 x1 xs1)) -∗ K ⟨⟩))
      ⊢ wp frame (wpE (defs₀ (F := F)) Variants.none c none) E (cc1__ln_stats_kernel i arg1 harg1 arg2 harg2 arg3 harg3 arg4 harg4 arg5 harg5 arg6 harg6) K := by
  simp only [cc1__ln_stats_kernel_eq_skeleton]; unfold cc1__ln_stats_kernel_skel
  unfold owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
  obtain rfl := harg1.eq_unread hf0; obtain rfl := harg2.eq_unread hf1
  obtain rfl := harg5.eq_unread hfs0; obtain rfl := harg6.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [read_writes_full _ _ hz2]
    sl_unfold_words
    rw [View.readCov_unit_zero _ hz2, readAt_full harg1 hz2, readAt_full harg2 hz1, readAt_full harg5 hz2]
  isplitl [H3]
  · iexists _; isplitr; swap; · iexact H3
    ipureintro
    rw [read_writes_full _ _ hz2]
    sl_unfold_words
    rw [View.readCov_unit_zero _ hz2, readAt_full harg1 hz2, readAt_full harg2 hz1, readAt_full harg6 hz2]
  isplitl [HS0]
  · iexists _; isplitr; swap; · iexact HS0
    ipureintro
    sl_unfold_words
    rw [read_writes_full _ _ hz2, readAt_full harg1 hz2, readAt_full harg2 hz1, readAt_full harg5 hz2]
  · iexists _; isplitr; swap; · iexact HS1
    ipureintro
    sl_unfold_words
    rw [read_writes_full _ _ hz2, readAt_full harg1 hz2, readAt_full harg2 hz1, readAt_full harg6 hz2]

end Cert.Kernel.Hand

end
-- ==== Proof.Bits.Region1.lean ====
import proofs.«148545_j10282151707323_1_alg».proof.Proof.GenP.Kernel.Launch
import proofs.«148545_j10282151707323_1_alg».proof.Proof.Gen.Kernel.Skeleton
import proofs.«148545_j10282151707323_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«148545_j10282151707323_1_alg».proof.Proof.Bits.Region1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1

-- the buffer contents of the core when the statistics kernel is entered
variable (V : (c : Dev nD) → (b : Ref sig .tc) → Buf (Elt F) ((c : Thread nD τ).loc b))

/-! ## The blocks the kernel reads -/

/-- Block `t` of window `w`, read off the window's array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body finds in the input buffers -/

/-- The row block's buffer holds block `t` at point `t`, for any proof data over these arrays whose body leaves it in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias buffer holds the bias at every point, though fetched at the first only. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The running sums

The kernel keeps two one-element accumulators: the sum of `x + b` over all rows seen so far, and the sum of
`(x + b)²`. The first grid point starts both from zero; every point adds its block's contribution. -/

/-- The sum accumulator after `n` grid points: zero, then each point adds the sum over its block of `x + b`. -/
def accS (c : Dev nD) : ℕ → Vec F S1x1 .f32
  | 0 => k1_pay1
  | n + 1 => if h : n < cfg1.N then k1_pay4 (iblk1 V c 0 ⟨n, h⟩) (iblk1 V c 1 ⟨n, h⟩) (accS c n) else accS c n

/-- The sum-of-squares accumulator after `n` grid points. -/
def accQ (c : Dev nD) : ℕ → Vec F S1x1 .f32
  | 0 => k1_pay2
  | n + 1 => if h : n < cfg1.N then k1_pay5 (iblk1 V c 0 ⟨n, h⟩) (iblk1 V c 1 ⟨n, h⟩) (accQ c n) else accQ c n

theorem accS_succ (c : Dev nD) (t : Fin cfg1.N) :
    accS V c (t.val + 1) = k1_pay4 (iblk1 V c 0 t) (iblk1 V c 1 t) (accS V c t.val) := by
  rw [accS, dif_pos t.isLt]

theorem accQ_succ (c : Dev nD) (t : Fin cfg1.N) :
    accQ V c (t.val + 1) = k1_pay5 (iblk1 V c 0 t) (iblk1 V c 1 t) (accQ V c t.val) := by
  rw [accQ, dif_pos t.isLt]

/-! ## The invariant between grid points -/

/-- The staging buffers of the other two kernels, each whole at some contents: the part of the core's scoped memory
    this kernel never touches, in two groups (those listed before its accumulators and those listed after). -/
def restLo (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))
def restHi (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f))

/-- Before grid point `t`: the untouched scoped buffers, the generator register at some state, and the two
    accumulators owned whole — at anything before the first point, at the running sums afterwards. -/
def Phi1 (c : Dev nD) (t : Fin (cfg1.N + 1)) : sProp 𝕄 :=
  if t.val = 0 then
    iprop(restLo c ∗ restHi c ∗ (∃ r, prngReg c r) ∗ (∃ d, owns (c : Thread nD τ) scM1_0 fullShare d) ∗ (∃ d, owns (c : Thread nD τ) scM1_1 fullShare d))
  else
    iprop(restLo c ∗ restHi c ∗ (∃ r, prngReg c r) ∗ owns (c : Thread nD τ) scM1_0 fullShare (accS V c t.val) ∗ owns (c : Thread nD τ) scM1_1 fullShare (accQ V c t.val))

/-! ## The proof data -/

/-- The arrays as the kernel finds them; after the body each input buffer still holds its block; the two result
    buffers hold the final sums where the body stores them (the last point; elsewhere the body leaves them alone and the
    field is not read); the invariant `Phi1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => accS V c 10
    | ⟨3, _⟩ => accQ V c 10
  Φ t := Phi1 V c t
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accS V c 10 := by dsimp only [dat1]
theorem after1_3 (c : Dev nD) (t : Fin cfg1.N) : (dat1 V c).after 3 t = accQ V c 10 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem Phi1_first (c : Dev nD) (t : Fin (cfg1.N + 1)) (h : t.val = 0) :
    Phi1 V c t = iprop(restLo c ∗ restHi c ∗ (∃ r, prngReg c r) ∗ (∃ d, owns (c : Thread nD τ) scM1_0 fullShare d) ∗ (∃ d, owns (c : Thread nD τ) scM1_1 fullShare d)) := by
  unfold Phi1; rw [if_pos h]

theorem Phi1_later (c : Dev nD) (t : Fin (cfg1.N + 1)) (h : t.val ≠ 0) :
    Phi1 V c t = iprop(restLo c ∗ restHi c ∗ (∃ r, prngReg c r) ∗ owns (c : Thread nD τ) scM1_0 fullShare (accS V c t.val) ∗ owns (c : Thread nD τ) scM1_1 fullShare (accQ V c t.val)) := by
  unfold Phi1; rw [if_neg h]

set_option maxHeartbeats 4000000 in
/-- The body at any point: at the first it zeroes the accumulators and adds; in the middle it adds; at the last it adds and
    copies the sums out. The result buffers are handed back untouched except at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).Φ t.castSucc = Phi1 V c t.castSucc from rfl, show (dat1 V c).Φ t.succ = Phi1 V c t.succ from rfl]
  rw [Phi1_later V c t.succ (Nat.succ_ne_zero _), show t.succ.val = t.val + 1 from rfl, accS_succ, accQ_succ]
  have hN : t.val < 10 := lt_of_lt_of_eq t.isLt (show cfg1.N = 10 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1),
      Dat.leavesExact_idle (dat1 V c) 3 t (idleAt1_3 t hc1) (noFlush1_3 t hc1)]
    rw [Phi1_first V c t.castSucc h0]
    rw [show accS V c t.val = k1_pay1 from by rw [h0]; rfl, show accQ V c t.val = k1_pay2 from by rw [h0]; rfl]
    iintro ⟨⟨HL, HH, Hg, ⟨%ds0, HS0⟩, ⟨%ds1, HS1⟩⟩, Ho, ⟨%d0, H0⟩, ⟨%d1, H1⟩, ⟨%d2, H2⟩, ⟨%d3, H3⟩⟩
    iapply (kernelRun1_first c Set.univ (grid1.coords t) _ _ _ _ _ _ _ _ _ _ _ _ hc0 hc1 (iblk1 V c 0 t) (iblk1 V c 1 t) _ _ _)
    isplitl [H0]; · iexact H0
    isplitl [H1]; · iexact H1
    isplitl [H2]; · iexact H2
    isplitl [H3]; · iexact H3
    isplitl [HS0]; · iexists _; iexact HS0
    isplitl [HS1]; · iexists _; iexact HS1
    iintro ⟨H0, H1, H2, H3, HS0, HS1⟩
    isplitl [HL HH Hg HS0 HS1]
    · isplitl [HL]; · iexact HL
      isplitl [HH]; · iexact HH
      isplitl [Hg]; · iexact Hg
      isplitl [HS0]; · iexact HS0
      iexact HS1
    isplitl [Ho]; · iexact Ho
    isplitl [H0]; · iexact H0
    isplitl [H1]; · iexact H1
    isplitl [H2]; · iexists _; iexact H2
    iexists _; iexact H3
  · have hc0 : ¬cond1_0 (grid1.coords t) := fun h => h0 ((hcond1_0 t).mp h)
    rw [Phi1_later V c t.castSucc h0, show t.castSucc.val = t.val from rfl]
    by_cases h9 : t.val = 9
    · have hc1 : cond1_1 (grid1.coords t) := (hcond1_1 t).mpr h9
      rw [show (dat1 V c).leavesExact 2 t = owns (c : Thread nD τ) (ms1_2 t) fullShare ((dat1 V c).after 2 t) from by
        unfold Dat.leavesExact; rw [liveAt1_2 t hc1], after1_2]
      rw [show (dat1 V c).leavesExact 3 t = owns (c : Thread nD τ) (ms1_3 t) fullShare ((dat1 V c).after 3 t) from by
        unfold Dat.leavesExact; rw [liveAt1_3 t hc1], after1_3]
      rw [show accS V c 10 = accS V c (t.val + 1) from by rw [h9], show accQ V c 10 = accQ V c (t.val + 1) from by rw [h9],
        accS_succ, accQ_succ]
      iintro ⟨⟨HL, HH, Hg, HS0, HS1⟩, Ho, ⟨%d0, H0⟩, ⟨%d1, H1⟩, ⟨%d2, H2⟩, ⟨%d3, H3⟩⟩
      iapply (kernelRun1_last c Set.univ (grid1.coords t) _ _ _ _ _ _ _ _ _ _ _ _ hc0 hc1 (iblk1 V c 0 t) (iblk1 V c 1 t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HL HH Hg HS0 HS1]
      · isplitl [HL]; · iexact HL
        isplitl [HH]; · iexact HH
        isplitl [Hg]; · iexact Hg
        isplitl [HS0]; · iexact HS0
        iexact HS1
      isplitl [Ho]; · iexact Ho
      isplitl [H0]; · iexact H0
      isplitl [H1]; · iexact H1
      isplitl [H2]; · iexact H2
      iexact H3
    · have hc1 : ¬cond1_1 (grid1.coords t) := fun h => h9 ((hcond1_1 t).mp h)
      rw [Dat.leavesExact_idle (dat1 V c) 2 t (idleAt1_2 t hc1) (noFlush1_2 t hc1),
        Dat.leavesExact_idle (dat1 V c) 3 t (idleAt1_3 t hc1) (noFlush1_3 t hc1)]
      iintro ⟨⟨HL, HH, Hg, HS0, HS1⟩, Ho, ⟨%d0, H0⟩, ⟨%d1, H1⟩, ⟨%d2, H2⟩, ⟨%d3, H3⟩⟩
      iapply (kernelRun1_mid c Set.univ (grid1.coords t) _ _ _ _ _ _ _ _ _ _ _ _ hc0 hc1 (iblk1 V c 0 t) (iblk1 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HL HH Hg HS0 HS1]
      · isplitl [HL]; · iexact HL
        isplitl [HH]; · iexact HH
        isplitl [Hg]; · iexact Hg
        isplitl [HS0]; · iexact HS0
        iexact HS1
      isplitl [Ho]; · iexact Ho
      isplitl [H0]; · iexact H0
      isplitl [H1]; · iexact H1
      isplitl [H2]; · iexists _; iexact H2
      iexists _; iexact H3

/-- The body obligation at every grid point. -/
theorem body_obligation1 (c : Dev nD) : BodyObligation (dat1 (F := F) V c) (defs₀ (F := F)) Variants.none () Set.univ := fun t => by
  rw [bigSep_W1, bigSep_W1]
  exact sound_body1 V c t

/-! ## Entering and leaving -/

/-- The scoped memory this kernel does not stage, with its two accumulators singled out as owned memrefs. -/
theorem scopedRest1_split (c : Dev nD) :
    (Pipeline.scopedRest (Ix := Unit) (Name := ℕ) (U := Pipeline.UD sig nD τ) (Lvl := ℕ) (Val := Elt F) spec1 c : sProp 𝕄)
      = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f)) := by
  rw [scopedRest1_eq]; simp only [scM1_0, scM1_1, owns_whole]; rfl

/-- What the launch hands the kernel is the invariant before the first point. -/
theorem Phi1_in (c : Dev nD) : iprop((∃ r, prngReg c r) ∗ (Pipeline.scopedRest spec1 c : sProp 𝕄)) ⊢ (dat1 V c).Φ 0 := by
  rw [show (dat1 V c).Φ 0 = Phi1 V c 0 from rfl, Phi1_first V c 0 rfl, scopedRest1_split]
  unfold restLo restHi
  iintro ⟨Hg, A1, A2, A3, A4, A5, S0, S1, B1, B2, B3, B4, B5, B6, B7, B8, B9, B10⟩
  isplitl [A1 A2 A3 A4 A5]
  · isplitl [A1]; · iexact A1
    isplitl [A2]; · iexact A2
    isplitl [A3]; · iexact A3
    isplitl [A4]; · iexact A4
    iexact A5
  isplitl [B1 B2 B3 B4 B5 B6 B7 B8 B9 B10]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact B10
  isplitl [Hg]; · iexact Hg
  isplitl [S0]; · iexact S0
  iexact S1

/-- After the last point the invariant gives the scoped rest back, the sums in the accumulators forgotten. -/
theorem Phi1_out (c : Dev nD) : (dat1 V c).Φ (Fin.last cfg1.N) ⊢ iprop((∃ r, prngReg c r) ∗ (Pipeline.scopedRest spec1 c : sProp 𝕄)) := by
  rw [show (dat1 V c).Φ (Fin.last cfg1.N) = Phi1 V c (Fin.last cfg1.N) from rfl,
    Phi1_later V c (Fin.last cfg1.N) (by rw [Fin.val_last]; have : cfg1.N = 10 := N_1; omega), scopedRest1_split]
  unfold restLo restHi
  iintro ⟨⟨A1, A2, A3, A4, A5⟩, ⟨B1, B2, B3, B4, B5, B6, B7, B8, B9, B10⟩, Hg, S0, S1⟩
  isplitl [Hg]; · iexact Hg
  isplitl [A1]; · iexact A1
  isplitl [A2]; · iexact A2
  isplitl [A3]; · iexact A3
  isplitl [A4]; · iexact A4
  isplitl [A5]; · iexact A5
  isplitl [S0]; · iexists _; iexact S0
  isplitl [S1]; · iexists _; iexact S1
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact B10

end Region1

end Cert.Kernel.Hand

end
-- ==== Proof.Bits.Region2.lean ====
/- REGION 2: the pipelined normalisation and activation, one 5000-row block per grid point:
   y = ((h + b − μ) · ρ) · γ + β, then y where y ≥ 0 and a · y elsewhere, with b, γ, β row vectors of 256,
   a one slope, μ and ρ the 1×1 mean and reciprocal deviation. For buffer contents V at the region's entry:
   each window's block at a point, what the body leaves in the output window's buffer as a function of the
   seven input blocks, the pipeline's proof data over the untouched-rest invariant, and the body's obligation
   at every point. -/
import proofs.«148545_j10282151707323_1_alg».proof.Proof.Gen.Kernel.Skeleton
import proofs.«148545_j10282151707323_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it: rows 5000·t … 5000·t+4999 of the
    activations (window 0) and of the result (window 7); the whole of each parameter array (windows 1 … 6). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The buffer of the activation window holds the point's row block at every point, for any proof data whose array is V's and whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The buffer of the bias window holds the bias vector at every point although it is fetched at the first only: its block index never moves. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same of the scale vector (window 2). -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The same of the shift vector (window 3). -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The same of the one-element slope vector (window 4). -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The same of the 1×1 mean (window 5). -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The same of the 1×1 reciprocal deviation (window 6). -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_a : Rect S5000x256 := Rect.unit (s := S5000x256) ![0, 0] S5000x256.size inb_S5000x256_S5000x256_0_0
abbrev r2_v : Rect S256 := Rect.unit (s := S256) ![0] S256.size inb_S256_S256_0
abbrev r2_s : Rect S1 := Rect.unit (s := S1) ![0] S1.size inb_S1_S1_0
abbrev r2_m : Rect S1x1 := Rect.unit (s := S1x1) ![0, 0] S1x1.size inb_S1x1_S1x1_0_0

/-! ## What the body leaves in the output window's buffer -/

/-- The output buffer after the body, from the seven input blocks in window order (activations, bias, scale,
    shift, slope, mean, reciprocal deviation): one store of the whole block. The payload takes them in the order
    the body reads them: activations, bias, mean, reciprocal deviation, scale, shift, slope. -/
def out2_7 (x0 : Vec F S5000x256 .f32) (x1 : Vec F S256 .f32) (x2 : Vec F S256 .f32) (x3 : Vec F S256 .f32)
    (x4 : Vec F S1 .f32) (x5 : Vec F S1x1 .f32) (x6 : Vec F S1x1 .f32) : Vec F S5000x256 .f32 :=
  View.canon [⟨r2_a, k2_pay1 (View.ld x0 r2_a) (View.ld x1 r2_v) (View.ld x5 r2_m) (View.ld x6 r2_m)
    (View.ld x2 r2_v) (View.ld x3 r2_v) (View.ld x4 r2_s)⟩]

/-- The one store covers the buffer. -/
theorem cover2_7 (p0 : Vec F S5000x256 .f32) (y : S5000x256.Idx) :
    ∃ pc ∈ ([⟨r2_a, p0⟩] : List (View.Piece (Elt F) S5000x256 .f32)), y ∈ pc.1.set :=
  View.cover_of_tiled [⟨r2_a, p0⟩] S5000x256.size (by rfl) y

/-! ## The body's triple -/

set_option maxHeartbeats 1000000 in
/-- The kernel body on whole staging memrefs — the inputs' reading x0 … x6, the output's holding anything —
    runs to the continuation with the inputs' as they were and the output's at out2_7 of them. The body reads the
    output buffer before overwriting all of it; what it read is not used. -/
theorem sound_kernel2 (c : Dev nD) (E : Set ℕ) (i : grid2.Coords)
    (arg1 : Memref sig .tc .vmem S5000x256 .f32) (harg1 : arg1.IsWhole)
    (arg2 : Memref sig .tc .vmem S256 .f32) (harg2 : arg2.IsWhole)
    (arg3 : Memref sig .tc .vmem S256 .f32) (harg3 : arg3.IsWhole)
    (arg4 : Memref sig .tc .vmem S256 .f32) (harg4 : arg4.IsWhole)
    (arg5 : Memref sig .tc .vmem S1 .f32) (harg5 : arg5.IsWhole)
    (arg6 : Memref sig .tc .vmem S1x1 .f32) (harg6 : arg6.IsWhole)
    (arg7 : Memref sig .tc .vmem S1x1 .f32) (harg7 : arg7.IsWhole)
    (arg8 : Memref sig .tc .vmem S5000x256 .f32) (harg8 : arg8.IsWhole)
    (x0 : Vec F S5000x256 .f32) (x1 : Vec F S256 .f32) (x2 : Vec F S256 .f32) (x3 : Vec F S256 .f32)
    (x4 : Vec F S1 .f32) (x5 : Vec F S1x1 .f32) (x6 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E
          (cc2__ln_apply_kernel i arg1 harg1 arg2 harg2 arg3 harg3 arg4 harg4 arg5 harg5 arg6 harg6 arg7 harg7 arg8 harg8) K := by
  simp only [cc2__ln_apply_kernel_eq_skeleton]; unfold cc2__ln_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of the region on core c: the arrays as the region finds them; after the body at point t
    each input's buffer at its block and the output's at out2_7 of the input blocks; the invariant that of a body
    touching nothing but its windows; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- The eight windows conjoined one by one. -/
theorem bigSepW2 {M : Type} [URA M] (Φ : Fin 8 → sProp M) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' buffers hold their blocks, so sound_kernel2 applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSepW2, bigSepW2]
  exact sound_body2 V c t

end Cert.Kernel.Hand

end
-- ==== Proof.Bits.Regs.lean ====
/-
  The three kernel regions as segments of @main, and the contents they leave.

  What a region leaves in the arrays it writes is what its pipeline's write-backs leave: the dense product in
  `main_v7`, the two global sums in `main_v41_0` / `main_v41_1`, the normalised activations in `main_v53`. Each is
  defined from the contents the region is entered from, and those from the region before: the definitions go in
  order, a later one reading the earlier ones through the host stretch between them.
-/
import proofs.«148545_j10282151707323_1_alg».proof.Proof.Bits.RunCond
import proofs.«148545_j10282151707323_1_alg».proof.Proof.Bits.Region0
import proofs.«148545_j10282151707323_1_alg».proof.Proof.Bits.Region1
import proofs.«148545_j10282151707323_1_alg».proof.Proof.Bits.Region2
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-! ## The contents the regions leave, in order -/

/-- A buffer's launch contents: what stands wherever no region's result is read. -/
abbrev launchAt (r : Ref sig .tc) (c : Dev nD) : Buf (Elt F) ((c : Thread nD τ).loc r) := m ((c : Thread nD τ).loc r)

/-- The contents region 0 (the dense product) is entered from. -/
abbrev B1 (c : Dev nD) (b : Ref sig .tc) : Buf (Elt F) ((c : Thread nD τ).loc b) := V1 m c b

/-- What region 0 leaves in `main_v7`: the write-backs of its output window, every block. -/
def left0 (c : Dev nD) : Buf (Elt F) ((c : Thread nD τ).loc main_v7) := (dat0 (B1 m) c).arrAt 2 cfg0.N

def outs2 : (r : Ref sig .tc) → (c : Dev nD) → Buf (Elt F) ((c : Thread nD τ).loc r) :=
  Function.update (launchAt m) main_v7 (left0 m)

/-- The contents region 1 (the two global sums) is entered from. -/
abbrev B3 (c : Dev nD) (b : Ref sig .tc) : Buf (Elt F) ((c : Thread nD τ).loc b) := V3 m (fun _ => outs2 m) c b

/-- What region 1 leaves in its two one-element results. -/
def left1s (c : Dev nD) : Buf (Elt F) ((c : Thread nD τ).loc main_v41_0) := (dat1 (B3 m) c).arrAt 2 cfg1.N
def left1q (c : Dev nD) : Buf (Elt F) ((c : Thread nD τ).loc main_v41_1) := (dat1 (B3 m) c).arrAt 3 cfg1.N

def outs4 : (r : Ref sig .tc) → (c : Dev nD) → Buf (Elt F) ((c : Thread nD τ).loc r) :=
  Function.update (Function.update (launchAt m) main_v41_0 (left1s m)) main_v41_1 (left1q m)

/-- The contents region 2 (the normalisation) is entered from. -/
abbrev B5 (c : Dev nD) (b : Ref sig .tc) : Buf (Elt F) ((c : Thread nD τ).loc b) :=
  V5 m (fun J => match J with | 2 => outs2 m | _ => outs4 m) c b

/-- What region 2 leaves in the result array. -/
def left2 (c : Dev nD) : Buf (Elt F) ((c : Thread nD τ).loc main_v53) := (dat2 (B5 m) c).arrAt 7 cfg2.N

def outs6 : (r : Ref sig .tc) → (c : Dev nD) → Buf (Elt F) ((c : Thread nD τ).loc r) :=
  Function.update (launchAt m) main_v53 (left2 m)

/-- The contents the regions leave, by the item after which they are read. -/
def outs : Outs (F := F) := fun J => match J with | 2 => outs2 m | 4 => outs4 m | _ => outs6 m

theorem outs_2_v7 (c : Dev nD) : outs m 2 main_v7 c = left0 m c := by
  show outs2 m main_v7 c = _; unfold outs2; rw [Function.update_self]
theorem outs_4_s (c : Dev nD) : outs m 4 main_v41_0 c = left1s m c := by
  show outs4 m main_v41_0 c = _; unfold outs4
  rw [Function.update_of_ne (by decide : main_v41_0 ≠ main_v41_1), Function.update_self]
theorem outs_4_q (c : Dev nD) : outs m 4 main_v41_1 c = left1q m c := by
  show outs4 m main_v41_1 c = _; unfold outs4; rw [Function.update_self]
theorem outs_6_v53 (c : Dev nD) : outs m 6 main_v53 c = left2 m c := by
  show outs6 m main_v53 c = _; unfold outs6; rw [Function.update_self]

/-- The boundary contents read only the results of the regions before them. -/
theorem V3_outs (c : Dev nD) (b : Ref sig .tc) : V3 m (outs m) c b = B3 m c b := rfl
theorem V5_outs (c : Dev nD) (b : Ref sig .tc) : V5 m (outs m) c b = B5 m c b := rfl

/-! ## The proof data family and what rides beside the buffers -/

/-- Every pipeline's proof data, each at its region's entry contents. -/
def pdats : (p : Fin 3) → (c : Dev nD) → Dat τ (Elt F) Unit ℕ (Pipeline.UD sig nD τ) ℕ (cfgs p) c
  | ⟨0, _⟩ => fun c => dat0 (B1 m) c
  | ⟨1, _⟩ => fun c => dat1 (B3 m) c
  | ⟨2, _⟩ => fun c => dat2 (B5 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state and its dues, none. -/
abbrev R (c : Dev nD) : sProp 𝕄 := iprop((∃ r, prngReg c r) ∗ ∃ W, owes (c : Thread nD τ) (0 : CellTallies nD τ sig Unit) W)

/-! ## Region 0 -/

/-- After region 0 each of its arrays holds what the pipeline leaves: the two inputs as entered, the product array
    its write-backs. -/
theorem hF0 (c : Dev nD) (w : Fin cfg0.W) : (pdats m 0 c).arrAt w cfg0.N = V2 m (outs m) c (Pipeline.arrRef spec0 w) := by
  match w with
  | ⟨0, _⟩ => exact (((dat0 (B1 m) c).arrAt_in 0 rfl _).trans (A_eq0 (B1 m) c 0)).trans (V2_of m (outs m) c main_arg0 (by decide)).symm
  | ⟨1, _⟩ => exact (((dat0 (B1 m) c).arrAt_in 1 rfl _).trans (A_eq0 (B1 m) c 1)).trans (V2_of m (outs m) c main_arg3 (by decide)).symm
  | ⟨2, _⟩ =>
    show left0 m c = V2 m (outs m) c main_v7
    rw [← outs_2_v7]; unfold V2; rw [Function.update_self]
theorem hrest0 (c : Dev nD) : ∀ b : Ref sig .tc, b ∉ Finset.univ.image (Pipeline.arrRef spec0) → V2 m (outs m) c b = V1 m c b :=
  fun b hb => V2_of m (outs m) c b (by
    intro h; rw [List.mem_singleton] at h; subst h
    exact hb (Finset.mem_image.mpr ⟨2, Finset.mem_univ _, rfl⟩))

set_option backward.isDefEq.respectTransparency.types false in
/-- Region 0 over the thread state: entered from every unscoped buffer at the contents after the first host
    stretch, left at those with `main_v7` replaced. Its arrays are split out of the unscoped buffers and put back at
    the exit contents; the generator register goes into the pipeline's invariant and comes out; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (B1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- After region 1 its input arrays are as entered and its two one-element results hold the accumulated sums. -/
theorem hF1 (c : Dev nD) (w : Fin cfg1.W) : (pdats m 1 c).arrAt w cfg1.N = V4 m (outs m) c (Pipeline.arrRef spec1 w) := by
  match w with
  | ⟨0, _⟩ => exact (((dat1 (B3 m) c).arrAt_in 0 rfl _).trans (A_eq1 (B3 m) c 0)).trans ((V3_outs m c main_v40).symm.trans (V4_of m (outs m) c main_v40 (by decide)).symm)
  | ⟨1, _⟩ => exact (((dat1 (B3 m) c).arrAt_in 1 rfl _).trans (A_eq1 (B3 m) c 1)).trans ((V3_outs m c main_arg4).symm.trans (V4_of m (outs m) c main_arg4 (by decide)).symm)
  | ⟨2, _⟩ =>
    show left1s m c = V4 m (outs m) c main_v41_0
    rw [← outs_4_s]; unfold V4
    rw [Function.update_of_ne (StableHlo.devRef_ne_of_ne (by decide : main_v41_0 ≠ main_v41_1)), Function.update_self]
  | ⟨3, _⟩ =>
    show left1q m c = V4 m (outs m) c main_v41_1
    rw [← outs_4_q]; unfold V4; rw [Function.update_self]
theorem hrest1 (c : Dev nD) : ∀ b : Ref sig .tc, b ∉ Finset.univ.image (Pipeline.arrRef spec1) → V4 m (outs m) c b = B3 m c b :=
  fun b hb => (V3_outs m c b) ▸ V4_of m (outs m) c b (by
    intro h
    rcases List.mem_cons.mp h with h | h
    · subst h; exact hb (Finset.mem_image.mpr ⟨2, Finset.mem_univ _, rfl⟩)
    · rw [List.mem_singleton] at h; subst h; exact hb (Finset.mem_image.mpr ⟨3, Finset.mem_univ _, rfl⟩))

set_option backward.isDefEq.respectTransparency.types false in
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (B3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B3 m c) fun _ => rfl
    rw [Pipeline.unscopedBufs_held, show V3 m (fun _ => outs2 m) c = V3 m (outs m) c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (B3 m) c).Φ 0 from rfl]
    iintro ⟨Hp, -, Hr⟩
    iapply (Phi1_in (B3 m) c)
    isplitl [Hp]; · iexact Hp
    iexact Hr
  hout c := by
    rw [Pipeline.ownSems0_none, show (pdats m 1 c).Φ (Fin.last _) = (dat1 (B3 m) c).Φ (Fin.last cfg1.N) from rfl]
    iintro H
    ihave H' := (Phi1_out (B3 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (B3 m c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- An input window of region 2: its array is as entered, and no later item writes it. -/
theorem hF2_in (c : Dev nD) (w : Fin cfg2.W) (hin : (cfg2.win w).isOut = false)
    (hne : Pipeline.arrRef spec2 w ∉ ([main_v53] : List (Ref sig .tc))) :
    (pdats m 2 c).arrAt w cfg2.N = V6 m (outs m) c (Pipeline.arrRef spec2 w) :=
  ((dat2 (B5 m) c).arrAt_in w hin _).trans
    ((A_eq2 (B5 m) c w).trans ((V5_outs m c _).symm.trans (V6_of m (outs m) c _ hne).symm))

/-- After region 2 its seven input arrays are as entered and the result array holds its write-backs. -/
theorem hF2 (c : Dev nD) (w : Fin cfg2.W) : (pdats m 2 c).arrAt w cfg2.N = V6 m (outs m) c (Pipeline.arrRef spec2 w) := by
  match w with
  | ⟨0, _⟩ => exact hF2_in m c 0 rfl (by decide)
  | ⟨1, _⟩ => exact hF2_in m c 1 rfl (by decide)
  | ⟨2, _⟩ => exact hF2_in m c 2 rfl (by decide)
  | ⟨3, _⟩ => exact hF2_in m c 3 rfl (by decide)
  | ⟨4, _⟩ => exact hF2_in m c 4 rfl (by decide)
  | ⟨5, _⟩ => exact hF2_in m c 5 rfl (by decide)
  | ⟨6, _⟩ => exact hF2_in m c 6 rfl (by decide)
  | ⟨7, _⟩ =>
    show left2 m c = V6 m (outs m) c main_v53
    rw [← outs_6_v53]; unfold V6; rw [Function.update_self]
theorem hrest2 (c : Dev nD) : ∀ b : Ref sig .tc, b ∉ Finset.univ.image (Pipeline.arrRef spec2) → V6 m (outs m) c b = B5 m c b :=
  fun b hb => (V6_of m (outs m) c b (by
    intro h; rw [List.mem_singleton] at h; subst h
    exact hb (Finset.mem_image.mpr ⟨7, Finset.mem_univ _, rfl⟩))).trans (V5_outs m c b)

set_option backward.isDefEq.respectTransparency.types false in
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B5 m) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (B5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B5 m c) fun _ => rfl
    rw [Pipeline.unscopedBufs_held, show V5 m (fun J => match J with | 2 => outs2 m | _ => outs4 m) c = V5 m (outs m) c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (B5 m c) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

set_option maxHeartbeats 2000000 in
set_option backward.isDefEq.respectTransparency.types false in
/-- Every weakly fair execution of the kernel program from `m` terminates without a fault, and the final memory of
    every core holds each unscoped buffer at the contents after the last region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) :=
  run_cond m embL () 𝒱₀ L lv (fun _ _ => rfl) ρ (outs m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (by
      have hc : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄) ⊢ R (F := F) c := fun c => by
        iintro ⟨-, HO, -, Hp, -⟩
        isplitl [Hp]; · iexists _; iexact Hp
        iexists ∅; iexact HO
      iintro ⟨H, -⟩
      imodintro
      have hb : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
          ⊢ (bigSep Finset.univ (fun c : Dev nD => R (F := F) c) : sProp 𝕄) := bigSep_mono fun c _ => hc c
      ihave H' := hb $$ H
      iexact H')
    (fun c => by iintro ⟨-, HO⟩; iexact HO)
    (reg0 m) (fun _ => .rfl) (fun _ => .rfl)
    (reg1 m) (fun _ => .rfl) (fun _ => .rfl)
    (reg2 m) (fun _ => .rfl) (fun _ => .rfl)

/-! ## The two readings of the run -/

/-- An unscoped TensorCore reference is among those held between the items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- After the last region the result array holds region 2's write-backs. -/
theorem V6_result (c : Dev nD) : V6 m (outs m) c main_v53 = left2 m c := by
  rw [← outs_6_v53]; unfold V6; rw [Function.update_self]

/-- The kernel program runs to the end without a fault and leaves every argument array as launched: no host
    operation writes an argument and no region has one among the arrays it writes. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c),
     (h c _ (mem_uc main_arg7 (by decide))).trans (V6_main_arg7 m (outs m) c)⟩) (run_all m ρ)

/-- The same run with the result array named: it ends holding what the normalisation region's write-backs leave. -/
theorem run_result : θ_run defs (onTc (τ := τ) (main (F := F))) ⟨m, fun _ => 0, ρ⟩ (fun r => ∀ c : Dev nD,
      r.2.mem ((c.tc : Thread nD τ).loc main_v53) = left2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v53 (by decide))).trans (V6_result m c),
     (h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c),
     (h c _ (mem_uc main_arg7 (by decide))).trans (V6_main_arg7 m (outs m) c)⟩) (run_all m ρ)

end Cert.Kernel.Hand

end
-- ==== Proof.Ideal.RunCond.lean ====
/-
  The run of the idealized kernel program with EVERY unscoped buffer named at the end.

  @main is six items: three stretches of host operations and, between them, the three kernel regions (the dense
  product x·W, the two global sums of the layer normalisation, the normalisation itself). Between two items a
  core's unscoped buffers hold the launch contents pushed through the host stretches, with the arrays a region
  writes replaced by what that region leaves (`outs`). Given one segment record per region, entered from the
  contents before it and left at the contents after it, every weakly fair execution terminates without a fault
  and the final memory holds each unscoped buffer at the last boundary's contents `V6`: in particular every
  argument array as launched and the result array `main_v53` at `outs 6 main_v53`.
-/
import proofs.«148545_j10282151707323_1_alg».proof.Proof.GenP.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

set_option backward.isDefEq.respectTransparency.types false in
/-- The six items of @main run in order from the launch memory `m`; the final memory of every core holds each
    unscoped buffer at the contents after the last item. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V6 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, hpre1 c, hpost1 c, hpre2 c, (hpost2 c).trans (sep_mono .rfl (hE3 c))⟩)
    (hinit := ?_) (QY := fun c s => ∀ b ∈ Pipeline.ucRefs τ sig, s.mem (((c : Thread nD τ)).1, b) = V6 m outs c b)
    (hfin := fun c s' => ?_) (hQ := fun _ h => h)
  · -- at the launch the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end the held buffers are read against the final state
    unfold StableHlo.held
    iintro ⟨Hh, HSI⟩
    imodintro
    iapply (pointsTo_read_all (Pipeline.ucRefs τ sig) (fun b => (((c : Thread nD τ)).1, b)) (V6 m outs c) s')
    isplitl [Hh] <;> iassumption

end Cert.KernelIdeal.Hand

end
-- ==== Proof.Ideal.Region0.lean ====
/- REGION 0: the pipelined matrix product x · W, one 5000-row block of x per grid point against the
   whole of W. For buffer contents V at the region's entry: each window's block at a point, what the
   body leaves in the output window's buffer as a function of the two input blocks, the pipeline's proof
   data over the untouched-rest invariant, and the body's obligation at every point. -/
import proofs.«148545_j10282151707323_1_alg».proof.Proof.Gen.KernelIdeal.Skeleton
import proofs.«148545_j10282151707323_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it: rows 5000·t … 5000·t+4999
    of x (window 0) and of the product (window 2), the whole of W (window 1). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of the x window holds the point's row block at every point, for any proof data whose array
    is V's and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The buffer of the W window holds W at every point although it is fetched at the first only: its block
    index never moves, so what the first point fetched is every later point's block. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S5000x256 := Rect.unit (s := S5000x256) ![0, 0] S5000x256.size inb_S5000x256_S5000x256_0_0
abbrev r0_w : Rect S256x256 := Rect.unit (s := S256x256) ![0, 0] S256x256.size inb_S256x256_S256x256_0_0

/-! ## What the body leaves in the output window's buffer -/

/-- The output buffer after the body, from the two input blocks: one store of the whole block, the product of
    the x block and W (both rounded to bf16, accumulated in f32 from zero). -/
def out0_2 (x0 : Vec F S5000x256 .f32) (x1 : Vec F S256x256 .f32) : Vec F S5000x256 .f32 :=
  View.canon [⟨r0_x, k0_pay1 (View.ld x0 r0_x) (View.ld x1 r0_w)⟩]

/-- The one store covers the buffer. -/
theorem cover0_2 (p0 : Vec F S5000x256 .f32) (y : S5000x256.Idx) :
    ∃ pc ∈ ([⟨r0_x, p0⟩] : List (View.Piece (Elt F) S5000x256 .f32)), y ∈ pc.1.set :=
  View.cover_of_tiled [⟨r0_x, p0⟩] S5000x256.size (by rfl) y

/-! ## The body's triple -/

set_option maxHeartbeats 1000000 in
/-- The kernel body on whole staging memrefs — the inputs' reading x0, x1, the output's holding anything —
    runs to the continuation with the inputs' as they were and the output's at out0_2 x0 x1. The body reads the
    output buffer before overwriting all of it; what it read is not used. -/
theorem sound_kernel0 (c : Dev nD) (E : Set ℕ) (i : grid0.Coords)
    (arg1 : Memref sig .tc .vmem S5000x256 .f32) (harg1 : arg1.IsWhole)
    (arg2 : Memref sig .tc .vmem S256x256 .f32) (harg2 : arg2.IsWhole)
    (arg3 : Memref sig .tc .vmem S5000x256 .f32) (harg3 : arg3.IsWhole)
    (x0 : Vec F S5000x256 .f32) (x1 : Vec F S256x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core c: the arrays as the region finds them; after the body at point t
    each input's buffer at its block and the output's at out0_2 of the input blocks; the invariant that of a body
    touching nothing but its windows; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- The three windows conjoined one by one. -/
theorem bigSepW0 {M : Type} [URA M] (Φ : Fin 3 → sProp M) :
    bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so sound_kernel0 applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSepW0, bigSepW0]
  exact sound_body0 V c t

end Cert.KernelIdeal.Hand

end
-- ==== Proof.Ideal.Region1Run.lean ====
import proofs.«148545_j10282151707323_1_alg».proof.Proof.Gen.KernelIdeal.Skeleton
import proofs.«148545_j10282151707323_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The statistics kernel on whole buffers

The kernel body reads a block `x` of rows and the bias `b`, and keeps two one-element accumulators `S`, `Q`:
at the first grid point it zeroes them; at every point it adds `∑ (x + b)` to `S` and `∑ (x + b)²` to `Q`; at the
last point it copies them to its two one-element results. Three cases by the grid point. -/

/-- The first branch's condition: the grid coordinate is zero. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- The last branch's condition: the grid coordinate is nine. -/
abbrev cond1_1 (i : grid1.Coords) : Prop := k1_cond2 i = 1#1
/-- It holds at point 9 only. -/
theorem hcond1_1 : ∀ t : Fin cfg1.N, cond1_1 (grid1.coords t) ↔ t.val = 9 :=
  (by decide +kernel : ∀ t : Fin grid1.N, cond1_1 (grid1.coords t) ↔ t.val = 9)

/-! ## Where the result windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the body stores nothing into the result windows, and the pipeline does not write them back. -/
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
/-- At the last point the body stores into both. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The memrefs the pipeline passes -/

abbrev ms1_0 (t : Fin cfg1.N) : Memref sig .tc .vmem S5000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The two accumulators: whole scoped buffers of the kernel's own. -/
abbrev scM1_0 : Memref sig .tc .vmem S1x1 .f32 := Memref.whole cc1_scratch0
abbrev scM1_1 : Memref sig .tc .vmem S1x1 .f32 := Memref.whole cc1_scratch1

/-! ## Whole-buffer loads and stores -/

theorem hz1 : (![0] : Fin 1 → Nat) = fun _ => 0 := funext fun a => by fin_cases a <;> rfl
theorem hz2 : (![0, 0] : Fin 2 → Nat) = fun _ => 0 := funext fun a => by fin_cases a <;> rfl

/-- A load of a whole buffer through the full rectangle reads its contents. -/
theorem readAt_full {S : Shape} {e : EltTy} {m : Memref sig .tc .vmem S e} (h : m.IsWhole) {off : Fin S.rank → Nat}
    (hoff : off = fun _ => 0) (inb : ∀ a, off a + S.size a ≤ S.size a) (X : S.Idx → Elt F e) :
    View.readAt (Elt F) m.view (Rect.unit off S.size inb).toLoadRect (h.unread X) = X := by
  rw [View.readAt_eq_ld, h.read_unread]; exact View.ld_unit_zero hoff inb X

/-- After a store through the full rectangle, whatever came before, the buffer reads the stored value. -/
theorem read_writes_full {S : Shape} {e : EltTy} (v : View sig .tc .vmem S e) (f : v.ty.Contents (Elt F)) {off : Fin S.rank → Nat}
    (hoff : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hoff inb y⟩),
    View.canon_cons_unit_zero hoff inb]

/-! ## The three runs -/

set_option maxHeartbeats 1000000 in
/-- At the first grid point: whatever the accumulators held, the body zeroes them and adds the block's sums; the result
    buffers are not touched. -/
theorem kernelRun1_first (c : Dev nD) (E : Set ℕ) (i : grid1.Coords)
    (arg1 : Memref sig .tc .vmem S5000x256 .f32) (harg1 : arg1.IsWhole) (arg2 : Memref sig .tc .vmem S256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : cond1_0 i) (hc1 : ¬cond1_1 i)
    (x0 : Vec F S5000x256 .f32) (x1 : Vec F S256 .f32) (xi2 xi3 : Vec F S1x1 .f32) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xi3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare (k1_pay4 x0 x1 k1_pay1) ∗ owns (c : Thread nD τ) arg6 fullShare (k1_pay5 x0 x1 k1_pay2)) -∗ K ⟨⟩))
      ⊢ wp frame (wpE (defs₀ (F := F)) Variants.none c none) E (cc1__ln_stats_kernel i arg1 harg1 arg2 harg2 arg3 harg3 arg4 harg4 arg5 harg5 arg6 harg6) K := by
  simp only [cc1__ln_stats_kernel_eq_skeleton]; unfold cc1__ln_stats_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg1.eq_unread hf0; obtain rfl := harg2.eq_unread hf1
  obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    rw [read_writes_full _ _ hz2, readAt_full harg1 hz2, readAt_full harg2 hz1]
    sl_unfold_words
    rw [View.readCov_unit_zero _ hz2]
  · iexists _; isplitr; swap; · iexact HS1
    ipureintro
    rw [read_writes_full _ _ hz2, readAt_full harg1 hz2, readAt_full harg2 hz1]
    sl_unfold_words
    rw [View.readCov_unit_zero _ hz2]

set_option maxHeartbeats 1000000 in
/-- At a point neither first nor last: the body adds the block's sums to the accumulators; the result buffers are not
    touched. -/
theorem kernelRun1_mid (c : Dev nD) (E : Set ℕ) (i : grid1.Coords)
    (arg1 : Memref sig .tc .vmem S5000x256 .f32) (harg1 : arg1.IsWhole) (arg2 : Memref sig .tc .vmem S256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : ¬cond1_0 i) (hc1 : ¬cond1_1 i)
    (x0 : Vec F S5000x256 .f32) (x1 : Vec F S256 .f32) (xi2 xi3 xs0 xs1 : Vec F S1x1 .f32) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xi3
        ∗ owns (c : Thread nD τ) arg5 fullShare xs0 ∗ owns (c : Thread nD τ) arg6 fullShare xs1
        ∗ (iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare (k1_pay4 x0 x1 xs0) ∗ owns (c : Thread nD τ) arg6 fullShare (k1_pay5 x0 x1 xs1)) -∗ K ⟨⟩))
      ⊢ wp frame (wpE (defs₀ (F := F)) Variants.none c none) E (cc1__ln_stats_kernel i arg1 harg1 arg2 harg2 arg3 harg3 arg4 harg4 arg5 harg5 arg6 harg6) K := by
  simp only [cc1__ln_stats_kernel_eq_skeleton]; unfold cc1__ln_stats_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1
  obtain rfl := harg3.eq_unread hf2; obtain rfl := harg4.eq_unread hf3
  obtain rfl := harg5.eq_unread hfs0; obtain rfl := harg6.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    rw [read_writes_full _ _ hz2, readAt_full harg1 hz2, readAt_full harg2 hz1, readAt_full harg5 hz2]
  · iexists _; isplitr; swap; · iexact HS1
    ipureintro
    rw [read_writes_full _ _ hz2, readAt_full harg1 hz2, readAt_full harg2 hz1, readAt_full harg6 hz2]

set_option maxHeartbeats 1000000 in
/-- At the last grid point: the body adds the block's sums and copies both accumulators to the result buffers. -/
theorem kernelRun1_last (c : Dev nD) (E : Set ℕ) (i : grid1.Coords)
    (arg1 : Memref sig .tc .vmem S5000x256 .f32) (harg1 : arg1.IsWhole) (arg2 : Memref sig .tc .vmem S256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : ¬cond1_0 i) (hc1 : cond1_1 i)
    (x0 : Vec F S5000x256 .f32) (x1 : Vec F S256 .f32) (xs0 xs1 : Vec F S1x1 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ owns (c : Thread nD τ) arg5 fullShare xs0 ∗ owns (c : Thread nD τ) arg6 fullShare xs1
        ∗ (iprop(owns (c : Thread nD τ) arg1 fullShare x0 ∗ owns (c : Thread nD τ) arg2 fullShare x1 ∗ owns (c : Thread nD τ) arg3 fullShare (k1_pay4 x0 x1 xs0) ∗ owns (c : Thread nD τ) arg4 fullShare (k1_pay5 x0 x1 xs1)
            ∗ owns (c : Thread nD τ) arg5 fullShare (k1_pay4 x0 x1 xs0) ∗ owns (c : Thread nD τ) arg6 fullShare (k1_pay5 x0 x1 xs1)) -∗ K ⟨⟩))
      ⊢ wp frame (wpE (defs₀ (F := F)) Variants.none c none) E (cc1__ln_stats_kernel i arg1 harg1 arg2 harg2 arg3 harg3 arg4 harg4 arg5 harg5 arg6 harg6) K := by
  simp only [cc1__ln_stats_kernel_eq_skeleton]; unfold cc1__ln_stats_kernel_skel
  unfold owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
  obtain rfl := harg1.eq_unread hf0; obtain rfl := harg2.eq_unread hf1
  obtain rfl := harg5.eq_unread hfs0; obtain rfl := harg6.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [read_writes_full _ _ hz2]
    sl_unfold_words
    rw [View.readCov_unit_zero _ hz2, readAt_full harg1 hz2, readAt_full harg2 hz1, readAt_full harg5 hz2]
  isplitl [H3]
  · iexists _; isplitr; swap; · iexact H3
    ipureintro
    rw [read_writes_full _ _ hz2]
    sl_unfold_words
    rw [View.readCov_unit_zero _ hz2, readAt_full harg1 hz2, readAt_full harg2 hz1, readAt_full harg6 hz2]
  isplitl [HS0]
  · iexists _; isplitr; swap; · iexact HS0
    ipureintro
    sl_unfold_words
    rw [read_writes_full _ _ hz2, readAt_full harg1 hz2, readAt_full harg2 hz1, readAt_full harg5 hz2]
  · iexists _; isplitr; swap; · iexact HS1
    ipureintro
    sl_unfold_words
    rw [read_writes_full _ _ hz2, readAt_full harg1 hz2, readAt_full harg2 hz1, readAt_full harg6 hz2]

end Cert.KernelIdeal.Hand

end
-- ==== Proof.Ideal.Region1.lean ====
import proofs.«148545_j10282151707323_1_alg».proof.Proof.GenP.KernelIdeal.Launch
import proofs.«148545_j10282151707323_1_alg».proof.Proof.Gen.KernelIdeal.Skeleton
import proofs.«148545_j10282151707323_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«148545_j10282151707323_1_alg».proof.Proof.Ideal.Region1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1

-- the buffer contents of the core when the statistics kernel is entered
variable (V : (c : Dev nD) → (b : Ref sig .tc) → Buf (Elt F) ((c : Thread nD τ).loc b))

/-! ## The blocks the kernel reads -/

/-- Block `t` of window `w`, read off the window's array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body finds in the input buffers -/

/-- The row block's buffer holds block `t` at point `t`, for any proof data over these arrays whose body leaves it in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias buffer holds the bias at every point, though fetched at the first only. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The running sums

The kernel keeps two one-element accumulators: the sum of `x + b` over all rows seen so far, and the sum of
`(x + b)²`. The first grid point starts both from zero; every point adds its block's contribution. -/

/-- The sum accumulator after `n` grid points: zero, then each point adds the sum over its block of `x + b`. -/
def accS (c : Dev nD) : ℕ → Vec F S1x1 .f32
  | 0 => k1_pay1
  | n + 1 => if h : n < cfg1.N then k1_pay4 (iblk1 V c 0 ⟨n, h⟩) (iblk1 V c 1 ⟨n, h⟩) (accS c n) else accS c n

/-- The sum-of-squares accumulator after `n` grid points. -/
def accQ (c : Dev nD) : ℕ → Vec F S1x1 .f32
  | 0 => k1_pay2
  | n + 1 => if h : n < cfg1.N then k1_pay5 (iblk1 V c 0 ⟨n, h⟩) (iblk1 V c 1 ⟨n, h⟩) (accQ c n) else accQ c n

theorem accS_succ (c : Dev nD) (t : Fin cfg1.N) :
    accS V c (t.val + 1) = k1_pay4 (iblk1 V c 0 t) (iblk1 V c 1 t) (accS V c t.val) := by
  rw [accS, dif_pos t.isLt]

theorem accQ_succ (c : Dev nD) (t : Fin cfg1.N) :
    accQ V c (t.val + 1) = k1_pay5 (iblk1 V c 0 t) (iblk1 V c 1 t) (accQ V c t.val) := by
  rw [accQ, dif_pos t.isLt]

/-! ## The invariant between grid points -/

/-- The staging buffers of the other two kernels, each whole at some contents: the part of the core's scoped memory
    this kernel never touches, in two groups (those listed before its accumulators and those listed after). -/
def restLo (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))
def restHi (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f))

/-- Before grid point `t`: the untouched scoped buffers, the generator register at some state, and the two
    accumulators owned whole — at anything before the first point, at the running sums afterwards. -/
def Phi1 (c : Dev nD) (t : Fin (cfg1.N + 1)) : sProp 𝕄 :=
  if t.val = 0 then
    iprop(restLo c ∗ restHi c ∗ (∃ r, prngReg c r) ∗ (∃ d, owns (c : Thread nD τ) scM1_0 fullShare d) ∗ (∃ d, owns (c : Thread nD τ) scM1_1 fullShare d))
  else
    iprop(restLo c ∗ restHi c ∗ (∃ r, prngReg c r) ∗ owns (c : Thread nD τ) scM1_0 fullShare (accS V c t.val) ∗ owns (c : Thread nD τ) scM1_1 fullShare (accQ V c t.val))

/-! ## The proof data -/

/-- The arrays as the kernel finds them; after the body each input buffer still holds its block; the two result
    buffers hold the final sums where the body stores them (the last point; elsewhere the body leaves them alone and the
    field is not read); the invariant `Phi1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => accS V c 10
    | ⟨3, _⟩ => accQ V c 10
  Φ t := Phi1 V c t
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accS V c 10 := by dsimp only [dat1]
theorem after1_3 (c : Dev nD) (t : Fin cfg1.N) : (dat1 V c).after 3 t = accQ V c 10 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem Phi1_first (c : Dev nD) (t : Fin (cfg1.N + 1)) (h : t.val = 0) :
    Phi1 V c t = iprop(restLo c ∗ restHi c ∗ (∃ r, prngReg c r) ∗ (∃ d, owns (c : Thread nD τ) scM1_0 fullShare d) ∗ (∃ d, owns (c : Thread nD τ) scM1_1 fullShare d)) := by
  unfold Phi1; rw [if_pos h]

theorem Phi1_later (c : Dev nD) (t : Fin (cfg1.N + 1)) (h : t.val ≠ 0) :
    Phi1 V c t = iprop(restLo c ∗ restHi c ∗ (∃ r, prngReg c r) ∗ owns (c : Thread nD τ) scM1_0 fullShare (accS V c t.val) ∗ owns (c : Thread nD τ) scM1_1 fullShare (accQ V c t.val)) := by
  unfold Phi1; rw [if_neg h]

set_option maxHeartbeats 4000000 in
/-- The body at any point: at the first it zeroes the accumulators and adds; in the middle it adds; at the last it adds and
    copies the sums out. The result buffers are handed back untouched except at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).Φ t.castSucc = Phi1 V c t.castSucc from rfl, show (dat1 V c).Φ t.succ = Phi1 V c t.succ from rfl]
  rw [Phi1_later V c t.succ (Nat.succ_ne_zero _), show t.succ.val = t.val + 1 from rfl, accS_succ, accQ_succ]
  have hN : t.val < 10 := lt_of_lt_of_eq t.isLt (show cfg1.N = 10 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1),
      Dat.leavesExact_idle (dat1 V c) 3 t (idleAt1_3 t hc1) (noFlush1_3 t hc1)]
    rw [Phi1_first V c t.castSucc h0]
    rw [show accS V c t.val = k1_pay1 from by rw [h0]; rfl, show accQ V c t.val = k1_pay2 from by rw [h0]; rfl]
    iintro ⟨⟨HL, HH, Hg, ⟨%ds0, HS0⟩, ⟨%ds1, HS1⟩⟩, Ho, ⟨%d0, H0⟩, ⟨%d1, H1⟩, ⟨%d2, H2⟩, ⟨%d3, H3⟩⟩
    iapply (kernelRun1_first c Set.univ (grid1.coords t) _ _ _ _ _ _ _ _ _ _ _ _ hc0 hc1 (iblk1 V c 0 t) (iblk1 V c 1 t) _ _ _)
    isplitl [H0]; · iexact H0
    isplitl [H1]; · iexact H1
    isplitl [H2]; · iexact H2
    isplitl [H3]; · iexact H3
    isplitl [HS0]; · iexists _; iexact HS0
    isplitl [HS1]; · iexists _; iexact HS1
    iintro ⟨H0, H1, H2, H3, HS0, HS1⟩
    isplitl [HL HH Hg HS0 HS1]
    · isplitl [HL]; · iexact HL
      isplitl [HH]; · iexact HH
      isplitl [Hg]; · iexact Hg
      isplitl [HS0]; · iexact HS0
      iexact HS1
    isplitl [Ho]; · iexact Ho
    isplitl [H0]; · iexact H0
    isplitl [H1]; · iexact H1
    isplitl [H2]; · iexists _; iexact H2
    iexists _; iexact H3
  · have hc0 : ¬cond1_0 (grid1.coords t) := fun h => h0 ((hcond1_0 t).mp h)
    rw [Phi1_later V c t.castSucc h0, show t.castSucc.val = t.val from rfl]
    by_cases h9 : t.val = 9
    · have hc1 : cond1_1 (grid1.coords t) := (hcond1_1 t).mpr h9
      rw [show (dat1 V c).leavesExact 2 t = owns (c : Thread nD τ) (ms1_2 t) fullShare ((dat1 V c).after 2 t) from by
        unfold Dat.leavesExact; rw [liveAt1_2 t hc1], after1_2]
      rw [show (dat1 V c).leavesExact 3 t = owns (c : Thread nD τ) (ms1_3 t) fullShare ((dat1 V c).after 3 t) from by
        unfold Dat.leavesExact; rw [liveAt1_3 t hc1], after1_3]
      rw [show accS V c 10 = accS V c (t.val + 1) from by rw [h9], show accQ V c 10 = accQ V c (t.val + 1) from by rw [h9],
        accS_succ, accQ_succ]
      iintro ⟨⟨HL, HH, Hg, HS0, HS1⟩, Ho, ⟨%d0, H0⟩, ⟨%d1, H1⟩, ⟨%d2, H2⟩, ⟨%d3, H3⟩⟩
      iapply (kernelRun1_last c Set.univ (grid1.coords t) _ _ _ _ _ _ _ _ _ _ _ _ hc0 hc1 (iblk1 V c 0 t) (iblk1 V c 1 t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HL HH Hg HS0 HS1]
      · isplitl [HL]; · iexact HL
        isplitl [HH]; · iexact HH
        isplitl [Hg]; · iexact Hg
        isplitl [HS0]; · iexact HS0
        iexact HS1
      isplitl [Ho]; · iexact Ho
      isplitl [H0]; · iexact H0
      isplitl [H1]; · iexact H1
      isplitl [H2]; · iexact H2
      iexact H3
    · have hc1 : ¬cond1_1 (grid1.coords t) := fun h => h9 ((hcond1_1 t).mp h)
      rw [Dat.leavesExact_idle (dat1 V c) 2 t (idleAt1_2 t hc1) (noFlush1_2 t hc1),
        Dat.leavesExact_idle (dat1 V c) 3 t (idleAt1_3 t hc1) (noFlush1_3 t hc1)]
      iintro ⟨⟨HL, HH, Hg, HS0, HS1⟩, Ho, ⟨%d0, H0⟩, ⟨%d1, H1⟩, ⟨%d2, H2⟩, ⟨%d3, H3⟩⟩
      iapply (kernelRun1_mid c Set.univ (grid1.coords t) _ _ _ _ _ _ _ _ _ _ _ _ hc0 hc1 (iblk1 V c 0 t) (iblk1 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HL HH Hg HS0 HS1]
      · isplitl [HL]; · iexact HL
        isplitl [HH]; · iexact HH
        isplitl [Hg]; · iexact Hg
        isplitl [HS0]; · iexact HS0
        iexact HS1
      isplitl [Ho]; · iexact Ho
      isplitl [H0]; · iexact H0
      isplitl [H1]; · iexact H1
      isplitl [H2]; · iexists _; iexact H2
      iexists _; iexact H3

/-- The body obligation at every grid point. -/
theorem body_obligation1 (c : Dev nD) : BodyObligation (dat1 (F := F) V c) (defs₀ (F := F)) Variants.none () Set.univ := fun t => by
  rw [bigSep_W1, bigSep_W1]
  exact sound_body1 V c t

/-! ## Entering and leaving -/

/-- The scoped memory this kernel does not stage, with its two accumulators singled out as owned memrefs. -/
theorem scopedRest1_split (c : Dev nD) :
    (Pipeline.scopedRest (Ix := Unit) (Name := ℕ) (U := Pipeline.UD sig nD τ) (Lvl := ℕ) (Val := Elt F) spec1 c : sProp 𝕄)
      = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f)) := by
  rw [scopedRest1_eq]; simp only [scM1_0, scM1_1, owns_whole]; rfl

/-- What the launch hands the kernel is the invariant before the first point. -/
theorem Phi1_in (c : Dev nD) : iprop((∃ r, prngReg c r) ∗ (Pipeline.scopedRest spec1 c : sProp 𝕄)) ⊢ (dat1 V c).Φ 0 := by
  rw [show (dat1 V c).Φ 0 = Phi1 V c 0 from rfl, Phi1_first V c 0 rfl, scopedRest1_split]
  unfold restLo restHi
  iintro ⟨Hg, A1, A2, A3, A4, A5, S0, S1, B1, B2, B3, B4, B5, B6, B7, B8, B9, B10⟩
  isplitl [A1 A2 A3 A4 A5]
  · isplitl [A1]; · iexact A1
    isplitl [A2]; · iexact A2
    isplitl [A3]; · iexact A3
    isplitl [A4]; · iexact A4
    iexact A5
  isplitl [B1 B2 B3 B4 B5 B6 B7 B8 B9 B10]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact B10
  isplitl [Hg]; · iexact Hg
  isplitl [S0]; · iexact S0
  iexact S1

/-- After the last point the invariant gives the scoped rest back, the sums in the accumulators forgotten. -/
theorem Phi1_out (c : Dev nD) : (dat1 V c).Φ (Fin.last cfg1.N) ⊢ iprop((∃ r, prngReg c r) ∗ (Pipeline.scopedRest spec1 c : sProp 𝕄)) := by
  rw [show (dat1 V c).Φ (Fin.last cfg1.N) = Phi1 V c (Fin.last cfg1.N) from rfl,
    Phi1_later V c (Fin.last cfg1.N) (by rw [Fin.val_last]; have : cfg1.N = 10 := N_1; omega), scopedRest1_split]
  unfold restLo restHi
  iintro ⟨⟨A1, A2, A3, A4, A5⟩, ⟨B1, B2, B3, B4, B5, B6, B7, B8, B9, B10⟩, Hg, S0, S1⟩
  isplitl [Hg]; · iexact Hg
  isplitl [A1]; · iexact A1
  isplitl [A2]; · iexact A2
  isplitl [A3]; · iexact A3
  isplitl [A4]; · iexact A4
  isplitl [A5]; · iexact A5
  isplitl [S0]; · iexists _; iexact S0
  isplitl [S1]; · iexists _; iexact S1
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact B10

end Region1

end Cert.KernelIdeal.Hand

end
-- ==== Proof.Ideal.Region2.lean ====
/- REGION 2: the pipelined normalisation and activation, one 5000-row block per grid point:
   y = ((h + b − μ) · ρ) · γ + β, then y where y ≥ 0 and a · y elsewhere, with b, γ, β row vectors of 256,
   a one slope, μ and ρ the 1×1 mean and reciprocal deviation. For buffer contents V at the region's entry:
   each window's block at a point, what the body leaves in the output window's buffer as a function of the
   seven input blocks, the pipeline's proof data over the untouched-rest invariant, and the body's obligation
   at every point. -/
import proofs.«148545_j10282151707323_1_alg».proof.Proof.Gen.KernelIdeal.Skeleton
import proofs.«148545_j10282151707323_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it: rows 5000·t … 5000·t+4999 of the
    activations (window 0) and of the result (window 7); the whole of each parameter array (windows 1 … 6). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The buffer of the activation window holds the point's row block at every point, for any proof data whose array is V's and whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The buffer of the bias window holds the bias vector at every point although it is fetched at the first only: its block index never moves. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same of the scale vector (window 2). -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The same of the shift vector (window 3). -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The same of the one-element slope vector (window 4). -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The same of the 1×1 mean (window 5). -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The same of the 1×1 reciprocal deviation (window 6). -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_a : Rect S5000x256 := Rect.unit (s := S5000x256) ![0, 0] S5000x256.size inb_S5000x256_S5000x256_0_0
abbrev r2_v : Rect S256 := Rect.unit (s := S256) ![0] S256.size inb_S256_S256_0
abbrev r2_s : Rect S1 := Rect.unit (s := S1) ![0] S1.size inb_S1_S1_0
abbrev r2_m : Rect S1x1 := Rect.unit (s := S1x1) ![0, 0] S1x1.size inb_S1x1_S1x1_0_0

/-! ## What the body leaves in the output window's buffer -/

/-- The output buffer after the body, from the seven input blocks in window order (activations, bias, scale,
    shift, slope, mean, reciprocal deviation): one store of the whole block. The payload takes them in the order
    the body reads them: activations, bias, mean, reciprocal deviation, scale, shift, slope. -/
def out2_7 (x0 : Vec F S5000x256 .f32) (x1 : Vec F S256 .f32) (x2 : Vec F S256 .f32) (x3 : Vec F S256 .f32)
    (x4 : Vec F S1 .f32) (x5 : Vec F S1x1 .f32) (x6 : Vec F S1x1 .f32) : Vec F S5000x256 .f32 :=
  View.canon [⟨r2_a, k2_pay1 (View.ld x0 r2_a) (View.ld x1 r2_v) (View.ld x5 r2_m) (View.ld x6 r2_m)
    (View.ld x2 r2_v) (View.ld x3 r2_v) (View.ld x4 r2_s)⟩]

/-- The one store covers the buffer. -/
theorem cover2_7 (p0 : Vec F S5000x256 .f32) (y : S5000x256.Idx) :
    ∃ pc ∈ ([⟨r2_a, p0⟩] : List (View.Piece (Elt F) S5000x256 .f32)), y ∈ pc.1.set :=
  View.cover_of_tiled [⟨r2_a, p0⟩] S5000x256.size (by rfl) y

/-! ## The body's triple -/

set_option maxHeartbeats 1000000 in
/-- The kernel body on whole staging memrefs — the inputs' reading x0 … x6, the output's holding anything —
    runs to the continuation with the inputs' as they were and the output's at out2_7 of them. The body reads the
    output buffer before overwriting all of it; what it read is not used. -/
theorem sound_kernel2 (c : Dev nD) (E : Set ℕ) (i : grid2.Coords)
    (arg1 : Memref sig .tc .vmem S5000x256 .f32) (harg1 : arg1.IsWhole)
    (arg2 : Memref sig .tc .vmem S256 .f32) (harg2 : arg2.IsWhole)
    (arg3 : Memref sig .tc .vmem S256 .f32) (harg3 : arg3.IsWhole)
    (arg4 : Memref sig .tc .vmem S256 .f32) (harg4 : arg4.IsWhole)
    (arg5 : Memref sig .tc .vmem S1 .f32) (harg5 : arg5.IsWhole)
    (arg6 : Memref sig .tc .vmem S1x1 .f32) (harg6 : arg6.IsWhole)
    (arg7 : Memref sig .tc .vmem S1x1 .f32) (harg7 : arg7.IsWhole)
    (arg8 : Memref sig .tc .vmem S5000x256 .f32) (harg8 : arg8.IsWhole)
    (x0 : Vec F S5000x256 .f32) (x1 : Vec F S256 .f32) (x2 : Vec F S256 .f32) (x3 : Vec F S256 .f32)
    (x4 : Vec F S1 .f32) (x5 : Vec F S1x1 .f32) (x6 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E
          (cc2__ln_apply_kernel i arg1 harg1 arg2 harg2 arg3 harg3 arg4 harg4 arg5 harg5 arg6 harg6 arg7 harg7 arg8 harg8) K := by
  simp only [cc2__ln_apply_kernel_eq_skeleton]; unfold cc2__ln_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of the region on core c: the arrays as the region finds them; after the body at point t
    each input's buffer at its block and the output's at out2_7 of the input blocks; the invariant that of a body
    touching nothing but its windows; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- The eight windows conjoined one by one. -/
theorem bigSepW2 {M : Type} [URA M] (Φ : Fin 8 → sProp M) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' buffers hold their blocks, so sound_kernel2 applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSepW2, bigSepW2]
  exact sound_body2 V c t

end Cert.KernelIdeal.Hand

end
-- ==== Proof.Ideal.Regs.lean ====
/-
  The three kernel regions as segments of @main, and the contents they leave.

  What a region leaves in the arrays it writes is what its pipeline's write-backs leave: the dense product in
  `main_v7`, the two global sums in `main_v41_0` / `main_v41_1`, the normalised activations in `main_v53`. Each is
  defined from the contents the region is entered from, and those from the region before: the definitions go in
  order, a later one reading the earlier ones through the host stretch between them.
-/
import proofs.«148545_j10282151707323_1_alg».proof.Proof.Ideal.RunCond
import proofs.«148545_j10282151707323_1_alg».proof.Proof.Ideal.Region0
import proofs.«148545_j10282151707323_1_alg».proof.Proof.Ideal.Region1
import proofs.«148545_j10282151707323_1_alg».proof.Proof.Ideal.Region2
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-! ## The contents the regions leave, in order -/

/-- A buffer's launch contents: what stands wherever no region's result is read. -/
abbrev launchAt (r : Ref sig .tc) (c : Dev nD) : Buf (Elt F) ((c : Thread nD τ).loc r) := m ((c : Thread nD τ).loc r)

/-- The contents region 0 (the dense product) is entered from. -/
abbrev B1 (c : Dev nD) (b : Ref sig .tc) : Buf (Elt F) ((c : Thread nD τ).loc b) := V1 m c b

/-- What region 0 leaves in `main_v7`: the write-backs of its output window, every block. -/
def left0 (c : Dev nD) : Buf (Elt F) ((c : Thread nD τ).loc main_v7) := (dat0 (B1 m) c).arrAt 2 cfg0.N

def outs2 : (r : Ref sig .tc) → (c : Dev nD) → Buf (Elt F) ((c : Thread nD τ).loc r) :=
  Function.update (launchAt m) main_v7 (left0 m)

/-- The contents region 1 (the two global sums) is entered from. -/
abbrev B3 (c : Dev nD) (b : Ref sig .tc) : Buf (Elt F) ((c : Thread nD τ).loc b) := V3 m (fun _ => outs2 m) c b

/-- What region 1 leaves in its two one-element results. -/
def left1s (c : Dev nD) : Buf (Elt F) ((c : Thread nD τ).loc main_v41_0) := (dat1 (B3 m) c).arrAt 2 cfg1.N
def left1q (c : Dev nD) : Buf (Elt F) ((c : Thread nD τ).loc main_v41_1) := (dat1 (B3 m) c).arrAt 3 cfg1.N

def outs4 : (r : Ref sig .tc) → (c : Dev nD) → Buf (Elt F) ((c : Thread nD τ).loc r) :=
  Function.update (Function.update (launchAt m) main_v41_0 (left1s m)) main_v41_1 (left1q m)

/-- The contents region 2 (the normalisation) is entered from. -/
abbrev B5 (c : Dev nD) (b : Ref sig .tc) : Buf (Elt F) ((c : Thread nD τ).loc b) :=
  V5 m (fun J => match J with | 2 => outs2 m | _ => outs4 m) c b

/-- What region 2 leaves in the result array. -/
def left2 (c : Dev nD) : Buf (Elt F) ((c : Thread nD τ).loc main_v53) := (dat2 (B5 m) c).arrAt 7 cfg2.N

def outs6 : (r : Ref sig .tc) → (c : Dev nD) → Buf (Elt F) ((c : Thread nD τ).loc r) :=
  Function.update (launchAt m) main_v53 (left2 m)

/-- The contents the regions leave, by the item after which they are read. -/
def outs : Outs (F := F) := fun J => match J with | 2 => outs2 m | 4 => outs4 m | _ => outs6 m

theorem outs_2_v7 (c : Dev nD) : outs m 2 main_v7 c = left0 m c := by
  show outs2 m main_v7 c = _; unfold outs2; rw [Function.update_self]
theorem outs_4_s (c : Dev nD) : outs m 4 main_v41_0 c = left1s m c := by
  show outs4 m main_v41_0 c = _; unfold outs4
  rw [Function.update_of_ne (by decide : main_v41_0 ≠ main_v41_1), Function.update_self]
theorem outs_4_q (c : Dev nD) : outs m 4 main_v41_1 c = left1q m c := by
  show outs4 m main_v41_1 c = _; unfold outs4; rw [Function.update_self]
theorem outs_6_v53 (c : Dev nD) : outs m 6 main_v53 c = left2 m c := by
  show outs6 m main_v53 c = _; unfold outs6; rw [Function.update_self]

/-- The boundary contents read only the results of the regions before them. -/
theorem V3_outs (c : Dev nD) (b : Ref sig .tc) : V3 m (outs m) c b = B3 m c b := rfl
theorem V5_outs (c : Dev nD) (b : Ref sig .tc) : V5 m (outs m) c b = B5 m c b := rfl

/-! ## The proof data family and what rides beside the buffers -/

/-- Every pipeline's proof data, each at its region's entry contents. -/
def pdats : (p : Fin 3) → (c : Dev nD) → Dat τ (Elt F) Unit ℕ (Pipeline.UD sig nD τ) ℕ (cfgs p) c
  | ⟨0, _⟩ => fun c => dat0 (B1 m) c
  | ⟨1, _⟩ => fun c => dat1 (B3 m) c
  | ⟨2, _⟩ => fun c => dat2 (B5 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state and its dues, none. -/
abbrev R (c : Dev nD) : sProp 𝕄 := iprop((∃ r, prngReg c r) ∗ ∃ W, owes (c : Thread nD τ) (0 : CellTallies nD τ sig Unit) W)

/-! ## Region 0 -/

/-- After region 0 each of its arrays holds what the pipeline leaves: the two inputs as entered, the product array
    its write-backs. -/
theorem hF0 (c : Dev nD) (w : Fin cfg0.W) : (pdats m 0 c).arrAt w cfg0.N = V2 m (outs m) c (Pipeline.arrRef spec0 w) := by
  match w with
  | ⟨0, _⟩ => exact (((dat0 (B1 m) c).arrAt_in 0 rfl _).trans (A_eq0 (B1 m) c 0)).trans (V2_of m (outs m) c main_arg0 (by decide)).symm
  | ⟨1, _⟩ => exact (((dat0 (B1 m) c).arrAt_in 1 rfl _).trans (A_eq0 (B1 m) c 1)).trans (V2_of m (outs m) c main_arg3 (by decide)).symm
  | ⟨2, _⟩ =>
    show left0 m c = V2 m (outs m) c main_v7
    rw [← outs_2_v7]; unfold V2; rw [Function.update_self]
theorem hrest0 (c : Dev nD) : ∀ b : Ref sig .tc, b ∉ Finset.univ.image (Pipeline.arrRef spec0) → V2 m (outs m) c b = V1 m c b :=
  fun b hb => V2_of m (outs m) c b (by
    intro h; rw [List.mem_singleton] at h; subst h
    exact hb (Finset.mem_image.mpr ⟨2, Finset.mem_univ _, rfl⟩))

set_option backward.isDefEq.respectTransparency.types false in
/-- Region 0 over the thread state: entered from every unscoped buffer at the contents after the first host
    stretch, left at those with `main_v7` replaced. Its arrays are split out of the unscoped buffers and put back at
    the exit contents; the generator register goes into the pipeline's invariant and comes out; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (B1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- After region 1 its input arrays are as entered and its two one-element results hold the accumulated sums. -/
theorem hF1 (c : Dev nD) (w : Fin cfg1.W) : (pdats m 1 c).arrAt w cfg1.N = V4 m (outs m) c (Pipeline.arrRef spec1 w) := by
  match w with
  | ⟨0, _⟩ => exact (((dat1 (B3 m) c).arrAt_in 0 rfl _).trans (A_eq1 (B3 m) c 0)).trans ((V3_outs m c main_v40).symm.trans (V4_of m (outs m) c main_v40 (by decide)).symm)
  | ⟨1, _⟩ => exact (((dat1 (B3 m) c).arrAt_in 1 rfl _).trans (A_eq1 (B3 m) c 1)).trans ((V3_outs m c main_arg4).symm.trans (V4_of m (outs m) c main_arg4 (by decide)).symm)
  | ⟨2, _⟩ =>
    show left1s m c = V4 m (outs m) c main_v41_0
    rw [← outs_4_s]; unfold V4
    rw [Function.update_of_ne (StableHlo.devRef_ne_of_ne (by decide : main_v41_0 ≠ main_v41_1)), Function.update_self]
  | ⟨3, _⟩ =>
    show left1q m c = V4 m (outs m) c main_v41_1
    rw [← outs_4_q]; unfold V4; rw [Function.update_self]
theorem hrest1 (c : Dev nD) : ∀ b : Ref sig .tc, b ∉ Finset.univ.image (Pipeline.arrRef spec1) → V4 m (outs m) c b = B3 m c b :=
  fun b hb => (V3_outs m c b) ▸ V4_of m (outs m) c b (by
    intro h
    rcases List.mem_cons.mp h with h | h
    · subst h; exact hb (Finset.mem_image.mpr ⟨2, Finset.mem_univ _, rfl⟩)
    · rw [List.mem_singleton] at h; subst h; exact hb (Finset.mem_image.mpr ⟨3, Finset.mem_univ _, rfl⟩))

set_option backward.isDefEq.respectTransparency.types false in
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (B3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B3 m c) fun _ => rfl
    rw [Pipeline.unscopedBufs_held, show V3 m (fun _ => outs2 m) c = V3 m (outs m) c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (B3 m) c).Φ 0 from rfl]
    iintro ⟨Hp, -, Hr⟩
    iapply (Phi1_in (B3 m) c)
    isplitl [Hp]; · iexact Hp
    iexact Hr
  hout c := by
    rw [Pipeline.ownSems0_none, show (pdats m 1 c).Φ (Fin.last _) = (dat1 (B3 m) c).Φ (Fin.last cfg1.N) from rfl]
    iintro H
    ihave H' := (Phi1_out (B3 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (B3 m c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- An input window of region 2: its array is as entered, and no later item writes it. -/
theorem hF2_in (c : Dev nD) (w : Fin cfg2.W) (hin : (cfg2.win w).isOut = false)
    (hne : Pipeline.arrRef spec2 w ∉ ([main_v53] : List (Ref sig .tc))) :
    (pdats m 2 c).arrAt w cfg2.N = V6 m (outs m) c (Pipeline.arrRef spec2 w) :=
  ((dat2 (B5 m) c).arrAt_in w hin _).trans
    ((A_eq2 (B5 m) c w).trans ((V5_outs m c _).symm.trans (V6_of m (outs m) c _ hne).symm))

/-- After region 2 its seven input arrays are as entered and the result array holds its write-backs. -/
theorem hF2 (c : Dev nD) (w : Fin cfg2.W) : (pdats m 2 c).arrAt w cfg2.N = V6 m (outs m) c (Pipeline.arrRef spec2 w) := by
  match w with
  | ⟨0, _⟩ => exact hF2_in m c 0 rfl (by decide)
  | ⟨1, _⟩ => exact hF2_in m c 1 rfl (by decide)
  | ⟨2, _⟩ => exact hF2_in m c 2 rfl (by decide)
  | ⟨3, _⟩ => exact hF2_in m c 3 rfl (by decide)
  | ⟨4, _⟩ => exact hF2_in m c 4 rfl (by decide)
  | ⟨5, _⟩ => exact hF2_in m c 5 rfl (by decide)
  | ⟨6, _⟩ => exact hF2_in m c 6 rfl (by decide)
  | ⟨7, _⟩ =>
    show left2 m c = V6 m (outs m) c main_v53
    rw [← outs_6_v53]; unfold V6; rw [Function.update_self]
theorem hrest2 (c : Dev nD) : ∀ b : Ref sig .tc, b ∉ Finset.univ.image (Pipeline.arrRef spec2) → V6 m (outs m) c b = B5 m c b :=
  fun b hb => (V6_of m (outs m) c b (by
    intro h; rw [List.mem_singleton] at h; subst h
    exact hb (Finset.mem_image.mpr ⟨7, Finset.mem_univ _, rfl⟩))).trans (V5_outs m c b)

set_option backward.isDefEq.respectTransparency.types false in
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B5 m) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (B5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B5 m c) fun _ => rfl
    rw [Pipeline.unscopedBufs_held, show V5 m (fun J => match J with | 2 => outs2 m | _ => outs4 m) c = V5 m (outs m) c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (B5 m c) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

set_option maxHeartbeats 2000000 in
set_option backward.isDefEq.respectTransparency.types false in
/-- Every weakly fair execution of the kernel program from `m` terminates without a fault, and the final memory of
    every core holds each unscoped buffer at the contents after the last region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) :=
  run_cond m embL () 𝒱₀ L lv (fun _ _ => rfl) ρ (outs m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (by
      have hc : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄) ⊢ R (F := F) c := fun c => by
        iintro ⟨-, HO, -, Hp, -⟩
        isplitl [Hp]; · iexists _; iexact Hp
        iexists ∅; iexact HO
      iintro ⟨H, -⟩
      imodintro
      have hb : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
          ⊢ (bigSep Finset.univ (fun c : Dev nD => R (F := F) c) : sProp 𝕄) := bigSep_mono fun c _ => hc c
      ihave H' := hb $$ H
      iexact H')
    (fun c => by iintro ⟨-, HO⟩; iexact HO)
    (reg0 m) (fun _ => .rfl) (fun _ => .rfl)
    (reg1 m) (fun _ => .rfl) (fun _ => .rfl)
    (reg2 m) (fun _ => .rfl) (fun _ => .rfl)

/-! ## The two readings of the run -/

/-- An unscoped TensorCore reference is among those held between the items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- After the last region the result array holds region 2's write-backs. -/
theorem V6_result (c : Dev nD) : V6 m (outs m) c main_v53 = left2 m c := by
  rw [← outs_6_v53]; unfold V6; rw [Function.update_self]

/-- The kernel program runs to the end without a fault and leaves every argument array as launched: no host
    operation writes an argument and no region has one among the arrays it writes. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c),
     (h c _ (mem_uc main_arg7 (by decide))).trans (V6_main_arg7 m (outs m) c)⟩) (run_all m ρ)

/-- The same run with the result array named: it ends holding what the normalisation region's write-backs leave. -/
theorem run_result : θ_run defs (onTc (τ := τ) (main (F := F))) ⟨m, fun _ => 0, ρ⟩ (fun r => ∀ c : Dev nD,
      r.2.mem ((c.tc : Thread nD τ).loc main_v53) = left2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v53 (by decide))).trans (V6_result m c),
     (h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c),
     (h c _ (mem_uc main_arg7 (by decide))).trans (V6_main_arg7 m (outs m) c)⟩) (run_all m ρ)

end Cert.KernelIdeal.Hand

end
-- ==== Proof.Ideal.RefFrame.lean ====
/-
  The reference program runs to the end and leaves its argument arrays as launched: it is a straight line of host
  operations, each writing a buffer of its own, so its run is the operations composed and no argument is written.
-/
import proofs.«148545_j10282151707323_1_alg».proof.Defs
import proofs.«148545_j10282151707323_1_alg».proof.Proof.Gen.ReferenceIdeal
import proofs.«148545_j10282151707323_1_alg».proof.Proof.Gen.ReferenceIdeal.Read
import proofs.«148545_j10282151707323_1_alg».proof.Proof.Gen.Pre_finite_inputs

noncomputable section

namespace Cert.Proof.Reference

open Idealize.ShloMosaic Idealize.SL.Sem

/-- Every weakly fair execution of the reference terminates without a fault with the arguments unchanged: the
    generated run with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

end Cert.Proof.Reference

end
-- ==== Proof.Ideal.HostStages.lean ====
/-
  What the host stretches between the kernel regions compute.

  The stretch after the dense product is the graph aggregation: degrees by a scatter-add of ones over the
  destination list extended by the self loops, their inverse square roots gathered at both ends of every edge, the
  rows of the product gathered at the sources, scaled, and scatter-added at the destinations. It is the same list
  of operations as the reference's, applied to the product array; so when the product array is the reference's
  matrix product, what it leaves in `main_v40` is the reference's aggregated array.
  The stretch after the two global sums S and Q turns them into the mean S / T and the reciprocal deviation
  1 / (sqrt (Q / T − mean · mean) + ε), T the number of entries.
-/
import proofs.«148545_j10282151707323_1_alg».proof.Proof.GenP.KernelIdeal.Regions
import proofs.«148545_j10282151707323_1_alg».proof.Proof.Gen.ReferenceIdeal.Read
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-! ## The statistics -/

/-- The mean: the sum of all entries over their number, 12 800 000. -/
def meanOf (s : (⟨S1x1, .f32⟩ : BufTy).Contents (Elt F)) : (⟨S_, .f32⟩ : BufTy).Contents (Elt F) :=
  Host.divf (shapeCast S_ s shapeCasts_S1x1_S_) (constant S_ .f32 0x4B435000#32)

/-- The reciprocal deviation 1 / (sqrt (Q / T − mean²) + ε) from the sum `s` and the sum of squares `q`. -/
def invDevOf (s q : (⟨S1x1, .f32⟩ : BufTy).Contents (Elt F)) : (⟨S_, .f32⟩ : BufTy).Contents (Elt F) :=
  Host.divf (constant S_ .f32 0x3F800000#32)
    (addf (Host.sqrt (subf (Host.divf (shapeCast S_ q shapeCasts_S1x1_S_) (constant S_ .f32 0x4B435000#32)) (mulf (meanOf s) (meanOf s))))
      (constant S_ .f32 0x3727C5AC#32))

/-- After the third stretch `main_v51` holds the mean of the two sums found in `main_v41_0`, as a 1×1 array, -/
theorem after2_v51 (W : Valuation τ sig (Elt F)) :
    StableHlo.after hostOps2 W (Proc.devRef .tc main_v51)
      = shapeCast S1x1 (meanOf (W (Proc.devRef .tc main_v41_0))) shapeCasts_S_S1x1 := by
  after_results
  rfl

/-- and `main_v52` the reciprocal deviation. -/
theorem after2_v52 (W : Valuation τ sig (Elt F)) :
    StableHlo.after hostOps2 W (Proc.devRef .tc main_v52)
      = shapeCast S1x1 (invDevOf (W (Proc.devRef .tc main_v41_0)) (W (Proc.devRef .tc main_v41_1))) shapeCasts_S_S1x1 := by
  after_results
  rfl

/-! ## The aggregation -/

/-- The first stretch splits the edge list into sources and destinations and appends the self loops to each:
    the extended lists are the reference's. -/
theorem after0_v5 (W : Valuation τ sig (Elt F)) :
    StableHlo.after hostOps0 W (Proc.devRef .tc main_v5) = Cert.ReferenceIdeal.Read.val_main_v5 (F := F) (W (Proc.devRef .tc main_arg1)) := by
  after_results
  rfl
theorem after0_v6 (W : Valuation τ sig (Elt F)) :
    StableHlo.after hostOps0 W (Proc.devRef .tc main_v6) = Cert.ReferenceIdeal.Read.val_main_v6 (F := F) (W (Proc.devRef .tc main_arg1)) := by
  after_results
  rfl

/-- The second stretch from contents in which `main_v7` is the reference's matrix product and the two extended
    index lists the reference's leaves in `main_v40` the reference's aggregated array. -/
theorem after1_v40 (W : Valuation τ sig (Elt F))
    (x0 : (⟨S50000x256, .f32⟩ : BufTy).Contents (Elt F)) (x1 : (⟨S2x800000, .i32⟩ : BufTy).Contents (Elt F)) (x3 : (⟨S256x256, .f32⟩ : BufTy).Contents (Elt F))
    (h7 : W (Proc.devRef .tc main_v7) = Cert.ReferenceIdeal.Read.val_main_v7 (F := F) x0 x3)
    (h5 : W (Proc.devRef .tc main_v5) = Cert.ReferenceIdeal.Read.val_main_v5 (F := F) x1)
    (h6 : W (Proc.devRef .tc main_v6) = Cert.ReferenceIdeal.Read.val_main_v6 (F := F) x1) :
    StableHlo.after hostOps1 W (Proc.devRef .tc main_v40) = Cert.ReferenceIdeal.Read.val_main_v40 (F := F) x0 x1 x3 := by
  after_results_simp
  rw [h7, h5, h6]
  rfl

end Cert.KernelIdeal.Hand

end
-- ==== Proof.Ideal.Entry.lean ====
/-
  What each kernel region finds when it is entered, on the extended reals.

  Region 0 finds x and W as launched. If what it leaves in `main_v7` is the reference's matrix product, region 1 and
  region 2 find in `main_v40` the reference's aggregated array (the host stretch between is the reference's own list of
  operations) and the bias, the scale, the shift and the slope as launched; region 2 finds in `main_v51` and
  `main_v52` the mean and the reciprocal deviation computed from the two sums region 1 left.
-/
import proofs.«148545_j10282151707323_1_alg».proof.Proof.Ideal.Regs
import proofs.«148545_j10282151707323_1_alg».proof.Proof.Ideal.HostStages

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-! ## Buffers no item before a region writes -/

/-- A buffer no host operation and no region writes holds its launch contents at every boundary. -/
theorem B1_of (c : Dev nD) (r : Ref sig .tc) (h : r ∉ hostOps0_W) : B1 m c r = m ((c : Thread nD τ).loc r) :=
  V1_of m c r h
theorem B3_of (c : Dev nD) (r : Ref sig .tc) (h0 : r ∉ hostOps0_W) (h1 : r ∉ ([main_v7] : List (Ref sig .tc))) (h2 : r ∉ hostOps1_W) :
    B3 m c r = m ((c : Thread nD τ).loc r) :=
  (V3_of m _ c r h2).trans ((V2_of m _ c r h1).trans (V1_of m c r h0))
theorem B5_of_B3 (c : Dev nD) (r : Ref sig .tc) (h3 : r ∉ ([main_v41_0, main_v41_1] : List (Ref sig .tc))) (h4 : r ∉ hostOps2_W) :
    B5 m c r = B3 m c r :=
  (V5_of m _ c r h4).trans (V4_of m _ c r h3)

/-! ## The aggregated array -/

/-- If region 0 leaves the reference's matrix product, the aggregation stretch leaves the reference's aggregated array. -/
theorem B3_v40 (c : Dev nD)
    (hprod : left0 m c = Cert.ReferenceIdeal.Read.val_main_v7 (F := F) (m ((c : Thread nD τ).loc main_arg0)) (m ((c : Thread nD τ).loc main_arg3))) :
    B3 m c main_v40 = Cert.ReferenceIdeal.Read.val_main_v40 (F := F) (m ((c : Thread nD τ).loc main_arg0)) (m ((c : Thread nD τ).loc main_arg1)) (m ((c : Thread nD τ).loc main_arg3)) := by
  refine after1_v40 (V2 m (fun _ => outs2 m) c) _ _ _ ?_ ?_ ?_
  · show Function.update (V1 m c) (Proc.devRef .tc main_v7) (outs2 m main_v7 c) (Proc.devRef .tc main_v7) = _
    rw [Function.update_self]; unfold outs2; rw [Function.update_self]; exact hprod
  · exact (V2_of m _ c main_v5 (by decide)).trans (after0_v5 (V0 m c))
  · exact (V2_of m _ c main_v6 (by decide)).trans (after0_v6 (V0 m c))

/-! ## The statistics -/

/-- After region 1 its two result buffers hold what it left. -/
theorem V4_sum (c : Dev nD) :
    V4 m (fun J => match J with | 2 => outs2 m | _ => outs4 m) c (Proc.devRef .tc main_v41_0) = left1s m c := rfl
theorem V4_sumsq (c : Dev nD) :
    V4 m (fun J => match J with | 2 => outs2 m | _ => outs4 m) c (Proc.devRef .tc main_v41_1) = left1q m c := rfl

/-- Region 2 finds the mean of region 1's sum in `main_v51`, -/
theorem B5_v51 (c : Dev nD) : B5 m c main_v51 = shapeCast S1x1 (meanOf (left1s m c)) shapeCasts_S_S1x1 := by
  refine (after2_v51 (V4 m (fun J => match J with | 2 => outs2 m | _ => outs4 m) c)).trans ?_
  rw [V4_sum]

/-- and the reciprocal deviation of region 1's two sums in `main_v52`. -/
theorem B5_v52 (c : Dev nD) : B5 m c main_v52 = shapeCast S1x1 (invDevOf (left1s m c) (left1q m c)) shapeCasts_S_S1x1 := by
  refine (after2_v52 (V4 m (fun J => match J with | 2 => outs2 m | _ => outs4 m) c)).trans ?_
  rw [V4_sum, V4_sumsq]

end Cert.KernelIdeal.Hand

end
-- ==== Proof.Ideal.Value0.lean ====
/- The matrix-product payload of region 0 read at one entry, at the ideal values: the sum over the contracted
   coordinate of the products of the entries. Rounding the operands to bf16 is the identity on extended reals and
   the accumulator is the zero splat, so nothing but the sum is left. -/
import proofs.«148545_j10282151707323_1_alg».proof.Proof.Gen.KernelIdeal.Skeleton
import Idealize.ShloMosaic.Lib.StackMember
import Idealize.ShloMosaic.Lib.KernelVsHost
import Idealize.ShloMosaic.Lib.ValueIdx

noncomputable section

namespace Cert.KernelIdeal.Hand

open Cert.KernelIdeal Cert.KernelIdeal.Gen
open Idealize.ShloMosaic Idealize.ShloMosaic.ValueIdx

/-- The program's contraction record is the plain one: the left operand's columns against the right operand's rows. -/
theorem dot_eq_plain : dot_S5000x256_S256x256_S5000x256_1_0_0_1_n_n = DotDims.plain 5000 256 256 := rfl

/-- Entry (p, q) of the product of a 5000×256 block by the 256×256 matrix: ∑ₖ x0 (p, k) · x1 (k, q). -/
theorem k0_pay1_apply (x0 : Vec Ideal S5000x256 .f32) (x1 : Vec Ideal S256x256 .f32) (p : Fin 5000) (q : Fin 256) :
    (k0_pay1 x0 x1 (ix2 p q) : EReal) = ∑ k : Fin 256, (x0 (ix2 p k) : EReal) * (x1 (ix2 k q) : EReal) := by
  unfold k0_pay1
  show matmul dot_S5000x256_S256x256_S5000x256_1_0_0_1_n_n none
      (truncf .bf16 (x0 : FVec Ideal S5000x256 .f32) bitsLt_bf16_f32) (truncf .bf16 (x1 : FVec Ideal S256x256 .f32) bitsLt_bf16_f32)
      (constant (F := Ideal) S5000x256 .f32 0x00000000#32) (ix2 p q) = _
  rw [matmul_zero_eq_dotGeneral, dot_eq_plain]
  exact (StackMember.dotGeneral_plain_apply none _ _ p q).trans (Finset.sum_congr rfl fun k _ => rfl)

end Cert.KernelIdeal.Hand

end
-- ==== Proof.Ideal.Array0.lean ====
/- The whole product array after region 0, at the ideal values: entry (p, q) of the 50000×256 output is
   ∑ₖ x (p, k) · W (k, q), for x and W as the region finds them. Each grid point writes back one 5000-row block;
   the block at point t is rows 5000·t … 5000·t + 4999 of that one function of x and W, and the ten blocks cover
   the array. -/
import proofs.«148545_j10282151707323_1_alg».proof.Proof.Ideal.Region0
import proofs.«148545_j10282151707323_1_alg».proof.Proof.Ideal.Value0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The two operand arrays as the region finds them, and the output array as it leaves it, at their index types. -/
abbrev xIn (c : Dev nD) : Vec Ideal S50000x256 .f32 := V c main_arg0
abbrev wIn (c : Dev nD) : Vec Ideal S256x256 .f32 := V c main_arg3
abbrev prodOut (c : Dev nD) : Vec Ideal S50000x256 .f32 := (dat0 V c).arrAt 2 cfg0.N

/-- The product of a 50000×256 array by a 256×256 one, entry by entry. -/
def prod0 (a0 : Vec Ideal S50000x256 .f32) (a3 : Vec Ideal S256x256 .f32) : Vec Ideal S50000x256 .f32 :=
  fun i => ∑ k : Fin 256, (a0 (ix2 (i 0) k) : EReal) * (a3 (ix2 k (i 1)) : EReal)

/-- The block index maps over the grid: the x window and the output window are at row block t and column block 0;
    the W window never moves. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem points0 : cfg0.N = 10 := by decide

/-- Entry (p, q) of what the body leaves at point t is entry (5000·t + p, q) of the product. -/
theorem block0_apply (c : Dev nD) (t : Fin cfg0.N) (p : Fin 5000) (q : Fin 256) :
    (k0_pay1 (iblk0 V c 0 t) (iblk0 V c 1 t) (ix2 p q) : EReal)
      = prod0 (xIn V c) (wIn V c) (((cfg0.win 2).blk t).view.emb (ix2 p q)) := by
  obtain ⟨e00, e01, e10, e11, e20, e21⟩ := index_facts0 t
  rw [k0_pay1_apply]
  unfold prod0
  refine Finset.sum_congr rfl fun k _ => ?_
  have h0 : iblk0 V c 0 t (ix2 p k) = xIn V c (ix2 ((((cfg0.win 2).blk t).view.emb (ix2 p q)) 0) k) := by
    show xIn V c (((cfg0.win 0).blk t).view.emb (ix2 p k)) = _
    congr 1
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have h1 : iblk0 V c 1 t (ix2 k q) = wIn V c (ix2 k ((((cfg0.win 2).blk t).view.emb (ix2 p q)) 1)) := by
    show wIn V c (((cfg0.win 1).blk t).view.emb (ix2 k q)) = _
    congr 1
    funext a; apply Fin.ext
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega
  rw [h0, h1]

/-- What point t writes back is block t of the product of the arrays as the region finds them. -/
theorem flushed0_eq (c : Dev nD) (t : Fin cfg0.N) :
    (dat0 V c).flushed 2 t = ((cfg0.win 2).blk t).view.read (Elt Ideal) (prod0 (xIn V c) (wIn V c)) := by
  show (cfg0.win 2).cut (grid0.coords t) ((dat0 V c).after 2 t) = _
  rw [after0_2]
  unfold out0_2
  rw [View.canon_unit_zero zeros2]
  simp only [View.ld_unit_zero (S := S5000x256) zeros2, View.ld_unit_zero (S := S256x256) zeros2]
  funext j
  obtain ⟨p, q, rfl⟩ : ∃ (p : Fin 5000) (q : Fin 256), j = ix2 p q := ⟨j 0, j 1, eq_ix2 j⟩
  exact block0_apply V c t p q

/-- An index of the array is in point t's block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v7).slice (win0_2.rect t)).set ↔ _
  rw [View.set_slice_whole, Rect.mem_set_unit]
  exact Iff.rfl

/-- Every index of the array is in the block of the point its row falls in. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN := points0
  refine ⟨⟨(i 0).val / 5000, by omega⟩, flush0_2 _, ?_⟩
  rw [mem_blk0]
  obtain ⟨-, -, -, -, e20, e21⟩ := index_facts0 ⟨(i 0).val / 5000, by omega⟩
  intro a
  match a with
  | ⟨0, _⟩ =>
    show win0_2.index _ (0 : Fin 2) * 5000 ≤ (i 0).val ∧ (i 0).val < win0_2.index _ (0 : Fin 2) * 5000 + 5000
    rw [e20]; show (i 0).val / 5000 * 5000 ≤ (i 0).val ∧ (i 0).val < (i 0).val / 5000 * 5000 + 5000; omega
  | ⟨1, _⟩ =>
    show win0_2.index _ (1 : Fin 2) * 256 ≤ (i 1).val ∧ (i 1).val < win0_2.index _ (1 : Fin 2) * 256 + 256
    rw [e21]; omega

/-- The output array after the region is the product. -/
theorem arr0_eq (c : Dev nD) : (dat0 V c).arrAt 2 cfg0.N = prod0 (xIn V c) (wIn V c) :=
  (dat0 V c).arrAt_eq_of_cover 2 (prod0 (xIn V c) (wIn V c)) (fun t _ => flushed0_eq V c t) cover0

/-- Entry (p, q) of the output array after the region. -/
theorem arr0_apply (c : Dev nD) (p : Fin 50000) (q : Fin 256) :
    (prodOut V c (ix2 p q) : EReal) = ∑ k : Fin 256, (xIn V c (ix2 p k) : EReal) * (wIn V c (ix2 k q) : EReal) := by
  show ((dat0 V c).arrAt 2 cfg0.N : Vec Ideal S50000x256 .f32) (ix2 p q) = _
  rw [arr0_eq]; rfl

end Cert.KernelIdeal.Hand

end
-- ==== Proof.Ideal.Bridge0.lean ====
/-
  The dense product the first region leaves is the reference's matrix product.

  Block t of the product array holds, at row r and column q, the sum over k of x[5000·t + r, k] · W[k, q] (the
  conversion to sixteen bits on the way into the matrix unit is the identity on the extended reals); the ten row
  blocks tile the array, so entry (p, q) is ∑ₖ x[p, k] · W[k, q], which is the reference's contraction of x's second
  axis with W's first.
-/
import proofs.«148545_j10282151707323_1_alg».proof.Proof.Ideal.Entry
import proofs.«148545_j10282151707323_1_alg».proof.Proof.Ideal.Array0

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The launch arrays x and W on core `c`, as arrays of extended reals. -/
abbrev xArg (c : Dev nD) : Vec Ideal S50000x256 .f32 := m ((c : Thread nD τ).loc main_arg0)
abbrev wArg (c : Dev nD) : Vec Ideal S256x256 .f32 := m ((c : Thread nD τ).loc main_arg3)

/-- Entry by entry the blockwise product is the host contraction. -/
theorem prod0_eq_ref (a0 : Vec Ideal S50000x256 .f32) (a3 : Vec Ideal S256x256 .f32) :
    prod0 a0 a3 = Cert.ReferenceIdeal.Read.val_main_v7 (F := Ideal) a0 a3 := by
  funext i
  obtain ⟨p, q, rfl⟩ : ∃ (p : Fin 50000) (q : Fin 256), i = ix2 p q := ⟨i 0, i 1, eq_ix2 i⟩
  rw [Cert.ReferenceIdeal.Read.val_main_v7_apply]
  unfold prod0
  refine Finset.sum_congr rfl fun k _ => ?_
  congr 2 <;> (funext a; match a with | ⟨0, _⟩ => rfl | ⟨1, _⟩ => rfl)

/-- What region 0 leaves in `main_v7` is the reference's matrix product of the launch arrays. -/
theorem left0_eq (c : Dev nD) :
    left0 (F := Ideal) m c = Cert.ReferenceIdeal.Read.val_main_v7 (F := Ideal) (xArg m c) (wArg m c) := by
  unfold left0
  rw [arr0_eq (B1 m) c,
    show xIn (B1 m) c = xArg m c from B1_of m c main_arg0 (by decide),
    show wIn (B1 m) c = wArg m c from B1_of m c main_arg3 (by decide)]
  exact prod0_eq_ref _ _

end Cert.KernelIdeal.Hand

end
-- ==== Proof.Ideal.SumBlocks.lean ====
/-
  A sum over the rows of a matrix taken block of rows by block of rows.

  A sum over all entries of an `(n·b) × c` array is the sum, over the `n` blocks of `b` consecutive
  rows, of the sums over each block: entry `(t·b + r, q)` is entry `(r, q)` of block `t`.  Only the
  commutativity and associativity of the sum are used, so the statements hold in any commutative
  additive monoid (the extended reals among them, with no finiteness asked of the entries).  The
  instance for fifty thousand rows in ten blocks of five thousand is stated with its literals; with
  it, the count of entries of such an array, and a sum over an array with a leading unit axis.
-/
import Idealize.ShloMosaic.Lib.ValueIdx
import Mathlib.Tactic

namespace Cert.GcnNorm

open Idealize.ShloMosaic Idealize.ShloMosaic.ValueIdx
open scoped BigOperators

/-- Row `r` of block `t` is a row of the whole array. -/
theorem block_row_lt {n b : ℕ} (t : Fin n) (r : Fin b) : t.val * b + r.val < n * b := by
  have h1 : t.val * b + r.val < (t.val + 1) * b := by
    rw [Nat.add_mul, Nat.one_mul]; exact Nat.add_lt_add_left r.isLt _
  exact lt_of_lt_of_le h1 (Nat.mul_le_mul_right b t.isLt)

/-- A sum over `n·b` consecutive positions, block by block. -/
theorem sum_fin_blocks {M : Type*} [AddCommMonoid M] (n b : ℕ) (h : Fin (n * b) → M) :
    ∑ i, h i = ∑ t : Fin n, ∑ r : Fin b, h ⟨t.val * b + r.val, block_row_lt t r⟩ := by
  rw [← Equiv.sum_comp finProdFinEquiv h, Fintype.sum_prod_type]
  refine Finset.sum_congr rfl fun t _ => Finset.sum_congr rfl fun r _ => congrArg h (Fin.ext ?_)
  show r.val + b * t.val = t.val * b + r.val
  rw [Nat.mul_comm, Nat.add_comm]

/-- A sum over an `(n·b) × c` array, block of rows by block of rows. -/
theorem sum_rows_blocks {M : Type*} [AddCommMonoid M] (n b c : ℕ)
    (g : (⟨2, ![n * b, c]⟩ : Shape).Idx → M) :
    ∑ i, g i
      = ∑ t : Fin n, ∑ r : Fin b, ∑ q : Fin c, g (ix2 ⟨t.val * b + r.val, block_row_lt t r⟩ q) := by
  rw [sum_idx2, sum_fin_blocks n b fun a => ∑ q : Fin c, g (ix2 a q)]

/-- The instance: fifty thousand rows of 256 entries in ten blocks of five thousand rows. -/
theorem sum_50000x256_blocks {M : Type*} [AddCommMonoid M]
    (g : (⟨2, ![50000, 256]⟩ : Shape).Idx → M) :
    ∑ i, g i
      = ∑ t : Fin 10, ∑ r : Fin 5000, ∑ q : Fin 256,
          g (ix2 (⟨t.val * 5000 + r.val, block_row_lt (n := 10) t r⟩ : Fin 50000) q) :=
  sum_rows_blocks 10 5000 256 g

/-- The same with each block summed over its own index set. -/
theorem sum_50000x256_blockIdx {M : Type*} [AddCommMonoid M]
    (g : (⟨2, ![50000, 256]⟩ : Shape).Idx → M) :
    ∑ i, g i
      = ∑ t : Fin 10, ∑ j : (⟨2, ![5000, 256]⟩ : Shape).Idx,
          g (ix2 (⟨t.val * 5000 + (j 0).val, block_row_lt (n := 10) (b := 5000) t (j 0)⟩ : Fin 50000)
            ((j 1 : Fin 256))) := by
  rw [sum_50000x256_blocks]
  refine Finset.sum_congr rfl fun t _ => ?_
  rw [sum_idx2]

/-- A sum over an array with a leading unit axis is the double sum over the other two. -/
theorem sum_idx3_unit {M : Type*} [AddCommMonoid M] {a b : ℕ}
    (g : (⟨3, ![1, a, b]⟩ : Shape).Idx → M) :
    ∑ i, g i = ∑ p : Fin a, ∑ q : Fin b, g (ix3 (0 : Fin 1) p q) := by
  let e : (⟨3, ![1, a, b]⟩ : Shape).Idx ≃ Fin a × Fin b :=
    { toFun := fun i => (i 1, i 2)
      invFun := fun p => ix3 (0 : Fin 1) p.1 p.2
      left_inv := fun i => by
        funext c
        match c with
        | ⟨0, h0⟩ =>
          have h : (i ⟨0, h0⟩).val < 1 := (i ⟨0, h0⟩).isLt
          exact Fin.ext (show (0 : ℕ) = (i ⟨0, h0⟩).val by omega)
        | ⟨1, _⟩ => rfl
        | ⟨2, _⟩ => rfl
      right_inv := fun _ => rfl }
  rw [← Equiv.sum_comp e.symm g, Fintype.sum_prod_type]
  rfl

/-- An `n0 × n1` array has `n0 · n1` entries. -/
theorem card_idx2 (n0 n1 : ℕ) : Fintype.card ((⟨2, ![n0, n1]⟩ : Shape).Idx) = n0 * n1 := by
  rw [Fintype.card_congr (idxEquiv2 (n0 := n0) (n1 := n1)), Fintype.card_prod, Fintype.card_fin,
    Fintype.card_fin]

/-- A `50000 × 256` array has `12800000` entries, as a real. -/
theorem card_50000x256 :
    (Fintype.card ((⟨2, ![50000, 256]⟩ : Shape).Idx) : ℝ) = 12800000 := by
  rw [card_idx2]; norm_num

end Cert.GcnNorm
-- ==== Proof.Ideal.Value1.lean ====
import proofs.«148545_j10282151707323_1_alg».proof.Proof.Gen.KernelIdeal.Skeleton
import proofs.«148545_j10282151707323_1_alg».proof.Proof.Ideal.SumBlocks
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! # The statistics kernel's arithmetic, over the extended reals

With exact arithmetic the kernel's per-point update is: add to the accumulator the sum over the block of `x + b`
(respectively of `(x + b)²`), where `b` is the bias broadcast along the rows. -/

/-- The biased block at an entry: `x + b`. -/
theorem pay3_apply (X : Vec Ideal S5000x256 .f32) (b : Vec Ideal S256 .f32) (r : Fin 5000) (q : Fin 256) :
    k1_pay3 X b (ix2 r q) = X (ix2 r q) + b (ix1 q) := by
  unfold k1_pay3
  rw [addf_apply, shapeCast_self, broadcastTo_1b_ab_apply, shapeCast_a_1a_apply]

/-- Summing a `5000 × 256` block laid out with a leading unit axis over its two long axes gives, at the one remaining
    index, the sum of all its entries. -/
theorem blockTotal (P : FVec Ideal S5000x256 .f32) (h1 : S5000x256.ShapeCasts S1x5000x256)
    (h2 : S1x5000x256.Reduces [1, 2] S1) (hφ : FKind.Formats .f32) (hacc : (0x00000000#32 : BitVec 32) = FKind.add.neutral .f32 hφ)
    (j : S1.Idx) :
    multiReduction .add [1, 2] S1 (shapeCast S1x5000x256 P h1) 0x00000000#32 h2 hφ hacc j
      = ∑ r : Fin 5000, ∑ q : Fin 256, P (ix2 r q) := by
  refine (Ideal.multiReduction_add_total _ _ h2 (fun b => by fin_cases b; rfl) hφ hacc j).trans ?_
  rw [Cert.GcnNorm.sum_idx3_unit]
  refine Finset.sum_congr rfl fun r _ => Finset.sum_congr rfl fun q _ => ?_
  exact shapeCast_ab_1ab_apply P h1 0 r q

/-- The sum accumulator's update: the old value plus the sum over the block of `x + b`. -/
theorem pay4_apply (X : Vec Ideal S5000x256 .f32) (b : Vec Ideal S256 .f32) (a : Vec Ideal S1x1 .f32) (i : S1x1.Idx) :
    k1_pay4 X b a i = a i + ∑ r : Fin 5000, ∑ q : Fin 256, (X (ix2 r q) + b (ix1 q)) := by
  unfold k1_pay4
  rw [shapeCast_self, addf_apply, broadcast_apply]
  refine congrArg (a i + ·) ?_
  show multiReduction .add [1, 2] S1 (shapeCast S1x5000x256 (k1_pay3 X b) shapeCasts_S5000x256_S1x5000x256) 0x00000000#32
    reduces_S1x5000x256_S1 (.inl rfl) rfl _ = _
  exact (blockTotal (k1_pay3 X b) shapeCasts_S5000x256_S1x5000x256 reduces_S1x5000x256_S1 (.inl rfl) rfl _).trans
    (Finset.sum_congr rfl fun r _ => Finset.sum_congr rfl fun q _ => pay3_apply X b r q)

/-- The sum-of-squares accumulator's update: the old value plus the sum over the block of `(x + b)²`. -/
theorem pay5_apply (X : Vec Ideal S5000x256 .f32) (b : Vec Ideal S256 .f32) (a : Vec Ideal S1x1 .f32) (i : S1x1.Idx) :
    k1_pay5 X b a i = a i + ∑ r : Fin 5000, ∑ q : Fin 256, (X (ix2 r q) + b (ix1 q)) * (X (ix2 r q) + b (ix1 q)) := by
  unfold k1_pay5
  rw [shapeCast_self, addf_apply, broadcast_apply]
  refine congrArg (a i + ·) ?_
  show multiReduction .add [1, 2] S1 (shapeCast S1x5000x256 (mulf (k1_pay3 X b) (k1_pay3 X b)) shapeCasts_S5000x256_S1x5000x256) 0x00000000#32
    reduces_S1x5000x256_S1 (.inl rfl) rfl _ = _
  refine (blockTotal (mulf (k1_pay3 X b) (k1_pay3 X b)) shapeCasts_S5000x256_S1x5000x256 reduces_S1x5000x256_S1 (.inl rfl) rfl _).trans ?_
  refine Finset.sum_congr rfl fun r _ => Finset.sum_congr rfl fun q _ => ?_
  rw [mulf_apply, pay3_apply X b r q]

/-- Both accumulators start from zero. -/
theorem pay1_apply (i : S1x1.Idx) : (k1_pay1 (F := Ideal)) i = 0 := by
  unfold k1_pay1
  rw [shapeCast_self, broadcast_apply]
  exact Ideal.ofBits_zero_f32
theorem pay2_apply (i : S1x1.Idx) : (k1_pay2 (F := Ideal)) i = 0 := by
  unfold k1_pay2
  rw [shapeCast_self, broadcast_apply]
  exact Ideal.ofBits_zero_f32

end Cert.KernelIdeal.Hand

end
-- ==== Proof.Ideal.Array1.lean ====
import proofs.«148545_j10282151707323_1_alg».proof.Proof.Ideal.Region1
import proofs.«148545_j10282151707323_1_alg».proof.Proof.Ideal.Value1
import proofs.«148545_j10282151707323_1_alg».proof.Proof.Ideal.SumBlocks
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! # The two statistics, as sums over the whole array

With exact arithmetic the first result of the statistics kernel is the sum of `x + b` over all fifty thousand rows,
the second the sum of `(x + b)²`: each of the ten grid points adds its block of five thousand rows. -/

variable (V : (c : Dev nD) → (b : Ref sig .tc) → Buf (Elt Ideal) ((c : Thread nD τ).loc b))

/-- The incoming array's entry in row `i`, column `q`, and the bias at column `q`, as extended reals. -/
abbrev rowAt (c : Dev nD) (i : Fin 50000) (q : Fin 256) : EReal := V c main_v40 (ix2 i q)
abbrev biasAt (c : Dev nD) (q : Fin 256) : EReal := V c main_arg4 (ix1 q)
/-- The same read off the kernel's blocks at grid point `t`. -/
abbrev rowBlk (c : Dev nD) (t : Fin cfg1.N) (r : Fin 5000) (q : Fin 256) : EReal := iblk1 V c 0 t (ix2 r q)
abbrev biasBlk (c : Dev nD) (t : Fin cfg1.N) (q : Fin 256) : EReal := iblk1 V c 1 t (ix1 q)

/-! ## Where the blocks sit -/

/-- Block `t` of the rows starts at row `5000 t`; the bias and both results are one block each. -/
theorem idx_facts1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- An entry of block `t` of the rows is the array's entry `5000 t + r` rows down. -/
theorem iblk1_0_apply (c : Dev nD) (t : Fin cfg1.N) (r : Fin 5000) (q : Fin 256) (h : t.val * 5000 + r.val < 50000) :
    rowBlk V c t r q = rowAt V c ⟨t.val * 5000 + r.val, h⟩ q := by
  obtain ⟨e0, e1, -⟩ := idx_facts1 t
  show V c main_v40 (((cfg1.win 0).blk t).view.emb (ix2 r q)) = V c main_v40 (ix2 (⟨t.val * 5000 + r.val, h⟩ : Fin 50000) q)
  refine congrArg (V c main_v40) ?_
  funext a; apply Fin.ext
  match a with
  | ⟨0, _⟩ => show win1_0.index t (0 : Fin 2) * 5000 + 1 * r.val = t.val * 5000 + r.val; omega
  | ⟨1, _⟩ => show win1_0.index t (1 : Fin 2) * 256 + 1 * q.val = q.val; omega

/-- The bias block is the bias. -/
theorem iblk1_1_apply (c : Dev nD) (t : Fin cfg1.N) (q : Fin 256) :
    biasBlk V c t q = biasAt V c q := by
  obtain ⟨-, -, e2, -⟩ := idx_facts1 t
  show V c main_arg4 (((cfg1.win 1).blk t).view.emb (ix1 q)) = V c main_arg4 (ix1 q)
  refine congrArg (V c main_arg4) ?_
  funext a; apply Fin.ext
  match a with
  | ⟨0, _⟩ => show win1_1.index t (0 : Fin 1) * 256 + 1 * q.val = q.val; omega

/-! ## The accumulators after `n` points -/

/-- What grid point `k` adds to the sum, -/
def addS (c : Dev nD) (k : ℕ) : EReal :=
  if h : k < cfg1.N then ∑ r : Fin 5000, ∑ q : Fin 256, (rowBlk V c ⟨k, h⟩ r q + biasBlk V c ⟨k, h⟩ q) else 0
/-- and to the sum of squares. -/
def addQ (c : Dev nD) (k : ℕ) : EReal :=
  if h : k < cfg1.N then ∑ r : Fin 5000, ∑ q : Fin 256,
    (rowBlk V c ⟨k, h⟩ r q + biasBlk V c ⟨k, h⟩ q) * (rowBlk V c ⟨k, h⟩ r q + biasBlk V c ⟨k, h⟩ q) else 0

/-- After `n` points the sum accumulator holds the first `n` blocks' contributions. -/
theorem accS_apply (c : Dev nD) (i : S1x1.Idx) : ∀ n : ℕ, accS V c n i = ∑ k ∈ Finset.range n, addS V c k
  | 0 => by rw [Finset.sum_range_zero]; exact pay1_apply i
  | n + 1 => by
    rw [Finset.sum_range_succ, ← accS_apply c i n, accS]
    unfold addS
    by_cases h : n < cfg1.N
    · rw [dif_pos h, dif_pos h]; exact pay4_apply _ _ _ i
    · rw [dif_neg h, dif_neg h, add_zero]

theorem accQ_apply (c : Dev nD) (i : S1x1.Idx) : ∀ n : ℕ, accQ V c n i = ∑ k ∈ Finset.range n, addQ V c k
  | 0 => by rw [Finset.sum_range_zero]; exact pay2_apply i
  | n + 1 => by
    rw [Finset.sum_range_succ, ← accQ_apply c i n, accQ]
    unfold addQ
    by_cases h : n < cfg1.N
    · rw [dif_pos h, dif_pos h]; exact pay5_apply _ _ _ i
    · rw [dif_neg h, dif_neg h, add_zero]

/-- The summand of the statistics at row `5000 t + r`, column `q`: `x + b`. -/
abbrev term1 (c : Dev nD) (t : Fin 10) (r : Fin 5000) (q : Fin 256) : EReal :=
  rowAt V c ⟨t.val * 5000 + r.val, Cert.GcnNorm.block_row_lt (n := 10) (b := 5000) t r⟩ q + biasAt V c q

theorem addS_eq (c : Dev nD) (t : Fin 10) : addS V c t.val = ∑ r : Fin 5000, ∑ q : Fin 256, term1 V c t r q := by
  have ht : t.val < cfg1.N := lt_of_lt_of_eq t.isLt (N_1).symm
  unfold addS; rw [dif_pos ht]
  refine Finset.sum_congr rfl fun r _ => Finset.sum_congr rfl fun q _ => ?_
  rw [iblk1_0_apply V c ⟨t.val, ht⟩ r q (Cert.GcnNorm.block_row_lt (n := 10) (b := 5000) t r), iblk1_1_apply]

theorem addQ_eq (c : Dev nD) (t : Fin 10) : addQ V c t.val = ∑ r : Fin 5000, ∑ q : Fin 256, term1 V c t r q * term1 V c t r q := by
  have ht : t.val < cfg1.N := lt_of_lt_of_eq t.isLt (N_1).symm
  unfold addQ; rw [dif_pos ht]
  refine Finset.sum_congr rfl fun r _ => Finset.sum_congr rfl fun q _ => ?_
  rw [iblk1_0_apply V c ⟨t.val, ht⟩ r q (Cert.GcnNorm.block_row_lt (n := 10) (b := 5000) t r), iblk1_1_apply]

/-- After all ten points: the sums over the whole array, block by block. -/
theorem accS_ten (c : Dev nD) (i : S1x1.Idx) :
    accS V c 10 i = ∑ t : Fin 10, ∑ r : Fin 5000, ∑ q : Fin 256, term1 V c t r q := by
  rw [accS_apply, Finset.sum_range]
  exact Finset.sum_congr rfl fun t _ => addS_eq V c t

theorem accQ_ten (c : Dev nD) (i : S1x1.Idx) :
    accQ V c 10 i = ∑ t : Fin 10, ∑ r : Fin 5000, ∑ q : Fin 256, term1 V c t r q * term1 V c t r q := by
  rw [accQ_apply, Finset.sum_range]
  exact Finset.sum_congr rfl fun t _ => addQ_eq V c t

/-! ## From the result buffers to the result arrays

Each result array is one element, written back once, after the last point. -/

/-- The one index of a `1 × 1` array. -/
theorem idx11_eq (j j' : S1x1.Idx) : j = j' := by
  funext a; apply Fin.ext
  have h : (j a).val < 1 ∧ (j' a).val < 1 := by
    match a with
    | ⟨0, _⟩ => exact ⟨(j 0).isLt, (j' 0).isLt⟩
    | ⟨1, _⟩ => exact ⟨(j 1).isLt, (j' 1).isLt⟩
  omega

theorem arr1s_eq (c : Dev nD) (i : S1x1.Idx) : (dat1 (F := Ideal) V c).arrAt 2 cfg1.N i = accS V c 10 i := by
  have ht : 9 < cfg1.N := by rw [show cfg1.N = 10 from N_1]; omega
  refine (dat1 (F := Ideal) V c).arrAt_apply_of_mem 2 (accS V c 10) (fun t _ => ?_) cfg1.N ⟨9, ht⟩ i ht ((flush1_2 ⟨9, ht⟩).mpr rfl) ?_
  · show (cfg1.win 2).cut (grid1.coords t) ((dat1 (F := Ideal) V c).after 2 t) = _
    rw [after1_2]
    funext j
    exact congrArg (accS V c 10) (idx11_eq _ _)
  · obtain ⟨y, rfl⟩ : ∃ y, ((cfg1.win 2).blk ⟨9, ht⟩).view.emb y = i := ⟨i, idx11_eq _ _⟩
    exact ((cfg1.win 2).blk ⟨9, ht⟩).view.emb_mem_set y

theorem arr1q_eq (c : Dev nD) (i : S1x1.Idx) : (dat1 (F := Ideal) V c).arrAt 3 cfg1.N i = accQ V c 10 i := by
  have ht : 9 < cfg1.N := by rw [show cfg1.N = 10 from N_1]; omega
  refine (dat1 (F := Ideal) V c).arrAt_apply_of_mem 3 (accQ V c 10) (fun t _ => ?_) cfg1.N ⟨9, ht⟩ i ht ((flush1_3 ⟨9, ht⟩).mpr rfl) ?_
  · show (cfg1.win 3).cut (grid1.coords t) ((dat1 (F := Ideal) V c).after 3 t) = _
    rw [after1_3]
    funext j
    exact congrArg (accQ V c 10) (idx11_eq _ _)
  · obtain ⟨y, rfl⟩ : ∃ y, ((cfg1.win 3).blk ⟨9, ht⟩).view.emb y = i := ⟨i, idx11_eq _ _⟩
    exact ((cfg1.win 3).blk ⟨9, ht⟩).view.emb_mem_set y

/-- The two results, read as extended reals at their one index. -/
abbrev stat1s (c : Dev nD) : EReal := (dat1 (F := Ideal) V c).arrAt 2 cfg1.N (ix2 (0 : Fin 1) (0 : Fin 1))
abbrev stat1q (c : Dev nD) : EReal := (dat1 (F := Ideal) V c).arrAt 3 cfg1.N (ix2 (0 : Fin 1) (0 : Fin 1))

/-- THE FIRST STATISTIC: the sum of `x + b` over the whole array, block by block. -/
theorem arr1s_blocks (c : Dev nD) :
    stat1s V c = ∑ t : Fin 10, ∑ r : Fin 5000, ∑ q : Fin 256, term1 V c t r q :=
  (arr1s_eq V c _).trans (accS_ten V c _)

/-- THE SECOND STATISTIC: the sum of `(x + b)²` over the whole array, block by block. -/
theorem arr1q_blocks (c : Dev nD) :
    stat1q V c = ∑ t : Fin 10, ∑ r : Fin 5000, ∑ q : Fin 256, term1 V c t r q * term1 V c t r q :=
  (arr1q_eq V c _).trans (accQ_ten V c _)

/-- The same with each block summed over its own index set. -/
theorem arr1s_apply (c : Dev nD) :
    stat1s V c = ∑ t : Fin 10, ∑ j : (⟨2, ![5000, 256]⟩ : Shape).Idx,
        (rowAt V c ⟨t.val * 5000 + (j 0).val, Cert.GcnNorm.block_row_lt (n := 10) (b := 5000) t (j 0)⟩ (j 1) + biasAt V c (j 1)) :=
  (arr1s_blocks V c).trans (Finset.sum_congr rfl fun t _ =>
    (sum_idx2 (fun j : (⟨2, ![5000, 256]⟩ : Shape).Idx =>
      rowAt V c ⟨t.val * 5000 + (j 0).val, Cert.GcnNorm.block_row_lt (n := 10) (b := 5000) t (j 0)⟩ (j 1) + biasAt V c (j 1))).symm)

theorem arr1q_apply (c : Dev nD) :
    stat1q V c = ∑ t : Fin 10, ∑ j : (⟨2, ![5000, 256]⟩ : Shape).Idx,
        (rowAt V c ⟨t.val * 5000 + (j 0).val, Cert.GcnNorm.block_row_lt (n := 10) (b := 5000) t (j 0)⟩ (j 1) + biasAt V c (j 1))
          * (rowAt V c ⟨t.val * 5000 + (j 0).val, Cert.GcnNorm.block_row_lt (n := 10) (b := 5000) t (j 0)⟩ (j 1) + biasAt V c (j 1)) :=
  (arr1q_blocks V c).trans (Finset.sum_congr rfl fun t _ =>
    (sum_idx2 (fun j : (⟨2, ![5000, 256]⟩ : Shape).Idx =>
      (rowAt V c ⟨t.val * 5000 + (j 0).val, Cert.GcnNorm.block_row_lt (n := 10) (b := 5000) t (j 0)⟩ (j 1) + biasAt V c (j 1))
        * (rowAt V c ⟨t.val * 5000 + (j 0).val, Cert.GcnNorm.block_row_lt (n := 10) (b := 5000) t (j 0)⟩ (j 1) + biasAt V c (j 1)))).symm)

end Cert.KernelIdeal.Hand

end
-- ==== Proof.Ideal.SumAll.lean ====
/- The sum, and the sum of squares, of the biased activations over the whole 50000×256 array, taken block of rows
   by block of rows: the ten block sums add up to the sum over all entries. The biased activation at entry (p, q)
   is the aggregated feature at (p, q) plus the bias entry of column q; the reference program's value of that stage,
   read at an entry, is exactly this. Only the commutativity and associativity of the sum on the extended reals
   are used. -/
import proofs.«148545_j10282151707323_1_alg».proof.Proof.Gen.ReferenceIdeal.Read
import proofs.«148545_j10282151707323_1_alg».proof.Proof.Ideal.SumBlocks

noncomputable section

namespace Cert.GcnNorm

open Idealize.ShloMosaic Idealize.ShloMosaic.ValueIdx
open scoped BigOperators

/-- The reference's biased activations at entry i: the aggregated features at i plus the bias of i's column. The bias
    vector is laid along a unit row, then along every row; reading back through both gives the entry of the column. -/
theorem val43_at (x0 : FVec Ideal ⟨2, ![50000, 256]⟩ .f32) (x1 : IVec ⟨2, ![2, 800000]⟩ 32)
    (x3 : FVec Ideal ⟨2, ![256, 256]⟩ .f32) (x4 : FVec Ideal ⟨1, ![256]⟩ .f32) (i : (⟨2, ![50000, 256]⟩ : Shape).Idx) :
    Cert.ReferenceIdeal.Read.val_main_v43 (F := Ideal) x0 x1 x3 x4 i
      = Cert.ReferenceIdeal.Read.val_main_v40 (F := Ideal) x0 x1 x3 i + x4 (ix1 (i 1)) := by
  rw [Cert.ReferenceIdeal.Read.val_main_v43_apply, Cert.ReferenceIdeal.Read.val_main_v42_apply,
    Cert.ReferenceIdeal.Read.val_main_v41_apply]
  show (Cert.ReferenceIdeal.Read.val_main_v40 (F := Ideal) x0 x1 x3 i : EReal)
      + x4 (Cert.ReferenceIdeal.Read.idx_main_v41 (Cert.ReferenceIdeal.Read.idx_main_v42 i)) = _
  congr 2
  funext a
  match a with
  | ⟨0, _⟩ => rfl

/-- The ten block sums of h + b add up to the sum over all entries. -/
theorem blocks_sum_all (h : FVec Ideal ⟨2, ![50000, 256]⟩ .f32) (b : FVec Ideal ⟨1, ![256]⟩ .f32) :
    (∑ t : Fin 10, ∑ j : (⟨2, ![5000, 256]⟩ : Shape).Idx,
        (h (ix2 (⟨t.val * 5000 + (j 0).val, block_row_lt (n := 10) (b := 5000) t (j 0)⟩ : Fin 50000) (j 1 : Fin 256))
          + b (ix1 (j 1 : Fin 256))))
      = ∑ i : (⟨2, ![50000, 256]⟩ : Shape).Idx, (h i + b (ix1 (i 1))) :=
  (sum_50000x256_blockIdx (fun i => h i + b (ix1 (i 1)))).symm

/-- The same of the squares. -/
theorem blocks_sumsq_all (h : FVec Ideal ⟨2, ![50000, 256]⟩ .f32) (b : FVec Ideal ⟨1, ![256]⟩ .f32) :
    (∑ t : Fin 10, ∑ j : (⟨2, ![5000, 256]⟩ : Shape).Idx,
        (h (ix2 (⟨t.val * 5000 + (j 0).val, block_row_lt (n := 10) (b := 5000) t (j 0)⟩ : Fin 50000) (j 1 : Fin 256))
          + b (ix1 (j 1 : Fin 256)))
        * (h (ix2 (⟨t.val * 5000 + (j 0).val, block_row_lt (n := 10) (b := 5000) t (j 0)⟩ : Fin 50000) (j 1 : Fin 256))
          + b (ix1 (j 1 : Fin 256))))
      = ∑ i : (⟨2, ![50000, 256]⟩ : Shape).Idx, (h i + b (ix1 (i 1))) * (h i + b (ix1 (i 1))) :=
  (sum_50000x256_blockIdx (fun i => (h i + b (ix1 (i 1))) * (h i + b (ix1 (i 1))))).symm

/-- The ten block sums of the aggregated features plus bias are the sum of the reference's biased activations. -/
theorem blocks_sum_ref (x0 : FVec Ideal ⟨2, ![50000, 256]⟩ .f32) (x1 : IVec ⟨2, ![2, 800000]⟩ 32)
    (x3 : FVec Ideal ⟨2, ![256, 256]⟩ .f32) (x4 : FVec Ideal ⟨1, ![256]⟩ .f32) :
    (∑ t : Fin 10, ∑ j : (⟨2, ![5000, 256]⟩ : Shape).Idx,
        ((Cert.ReferenceIdeal.Read.val_main_v40 (F := Ideal) x0 x1 x3 : FVec Ideal ⟨2, ![50000, 256]⟩ .f32)
            (ix2 (⟨t.val * 5000 + (j 0).val, block_row_lt (n := 10) (b := 5000) t (j 0)⟩ : Fin 50000) (j 1 : Fin 256))
          + x4 (ix1 (j 1 : Fin 256))))
      = ∑ i : (⟨2, ![50000, 256]⟩ : Shape).Idx, Cert.ReferenceIdeal.Read.val_main_v43 (F := Ideal) x0 x1 x3 x4 i :=
  (blocks_sum_all (Cert.ReferenceIdeal.Read.val_main_v40 (F := Ideal) x0 x1 x3) x4).trans
    (Finset.sum_congr rfl fun i _ => (val43_at x0 x1 x3 x4 i).symm)

/-- The same of the squares. -/
theorem blocks_sumsq_ref (x0 : FVec Ideal ⟨2, ![50000, 256]⟩ .f32) (x1 : IVec ⟨2, ![2, 800000]⟩ 32)
    (x3 : FVec Ideal ⟨2, ![256, 256]⟩ .f32) (x4 : FVec Ideal ⟨1, ![256]⟩ .f32) :
    (∑ t : Fin 10, ∑ j : (⟨2, ![5000, 256]⟩ : Shape).Idx,
        ((Cert.ReferenceIdeal.Read.val_main_v40 (F := Ideal) x0 x1 x3 : FVec Ideal ⟨2, ![50000, 256]⟩ .f32)
            (ix2 (⟨t.val * 5000 + (j 0).val, block_row_lt (n := 10) (b := 5000) t (j 0)⟩ : Fin 50000) (j 1 : Fin 256))
          + x4 (ix1 (j 1 : Fin 256)))
        * ((Cert.ReferenceIdeal.Read.val_main_v40 (F := Ideal) x0 x1 x3 : FVec Ideal ⟨2, ![50000, 256]⟩ .f32)
            (ix2 (⟨t.val * 5000 + (j 0).val, block_row_lt (n := 10) (b := 5000) t (j 0)⟩ : Fin 50000) (j 1 : Fin 256))
          + x4 (ix1 (j 1 : Fin 256))))
      = ∑ i : (⟨2, ![50000, 256]⟩ : Shape).Idx,
          Cert.ReferenceIdeal.Read.val_main_v43 (F := Ideal) x0 x1 x3 x4 i * Cert.ReferenceIdeal.Read.val_main_v43 (F := Ideal) x0 x1 x3 x4 i :=
  (blocks_sumsq_all (Cert.ReferenceIdeal.Read.val_main_v40 (F := Ideal) x0 x1 x3) x4).trans
    (Finset.sum_congr rfl fun i _ => by rw [val43_at])

end Cert.GcnNorm

end
-- ==== Proof.Ideal.Bridge1.lean ====
import proofs.«148545_j10282151707323_1_alg».proof.Proof.Ideal.Entry
import proofs.«148545_j10282151707323_1_alg».proof.Proof.Ideal.Bridge0
import proofs.«148545_j10282151707323_1_alg».proof.Proof.Ideal.Array1
import proofs.«148545_j10282151707323_1_alg».proof.Proof.Ideal.SumAll

noncomputable section

namespace Cert.KernelIdeal.Hand

open Idealize.ShloMosaic Idealize.ShloMosaic.TcCoe Idealize.SL.Sem Idealize.ShloMosaic.ValueIdx
open Cert.KernelIdeal Cert.KernelIdeal.Gen
open scoped BigOperators

/-! # The two statistics are the reference's two sums

The statistics kernel is entered with the aggregated array `A` (the reference's, once the matrix product before it
is the reference's) and the launch bias `b`; it leaves `∑ (A + b)` and `∑ (A + b)²` over all rows and columns,
which are the sums the reference takes of its biased array. -/

variable (m : (ℓ : Loc nD τ sig) → Buf (Elt Ideal) ℓ)

/-- The launch edge list and bias on core `c`. -/
abbrev eArg (c : Dev nD) : (⟨S2x800000, .i32⟩ : BufTy).Contents (Elt Ideal) := m ((c : Thread nD τ).loc main_arg1)
abbrev bArg (c : Dev nD) : Vec Ideal S256 .f32 := m ((c : Thread nD τ).loc main_arg4)

/-- The reference's aggregated array at row `i`, column `q`, as an extended real. -/
abbrev aggAt (c : Dev nD) (i : Fin 50000) (q : Fin 256) : EReal :=
  Cert.ReferenceIdeal.Read.val_main_v40 (F := Ideal) (xArg m c) (eArg m c) (wArg m c) (ix2 i q)

/-- The statistics kernel reads the reference's aggregated array, -/
theorem rowAt_B3 (c : Dev nD) (i : Fin 50000) (q : Fin 256) : rowAt (B3 m) c i q = aggAt m c i q := by
  unfold rowAt aggAt
  rw [B3_v40 m c (left0_eq m c)]

/-- and the launch bias. -/
theorem biasAt_B3 (c : Dev nD) (q : Fin 256) : biasAt (B3 m) c q = bArg m c (ix1 q) := by
  unfold biasAt bArg
  rw [B3_of m c main_arg4 (by decide) (by decide) (by decide)]

/-- The two results the statistics kernel leaves, as extended reals. -/
abbrev sum1 (c : Dev nD) : EReal := left1s (F := Ideal) m c (ix2 (0 : Fin 1) (0 : Fin 1))
abbrev sumsq1 (c : Dev nD) : EReal := left1q (F := Ideal) m c (ix2 (0 : Fin 1) (0 : Fin 1))

/-- Block by block, over the reference's aggregated array: the sum of `A + b`, -/
theorem sum1_blocks (c : Dev nD) :
    sum1 m c = ∑ t : Fin 10, ∑ j : (⟨2, ![5000, 256]⟩ : Shape).Idx,
        (aggAt m c ⟨t.val * 5000 + (j 0).val, Cert.GcnNorm.block_row_lt (n := 10) (b := 5000) t (j 0)⟩ (j 1) + bArg m c (ix1 (j 1))) :=
  (arr1s_apply (B3 m) c).trans
    (Finset.sum_congr rfl fun t _ => Finset.sum_congr rfl fun j _ =>
      congrArg₂ (· + ·) (rowAt_B3 m c _ _) (biasAt_B3 m c _))

/-- and the sum of `(A + b)²`. -/
theorem sumsq1_blocks (c : Dev nD) :
    sumsq1 m c = ∑ t : Fin 10, ∑ j : (⟨2, ![5000, 256]⟩ : Shape).Idx,
        (aggAt m c ⟨t.val * 5000 + (j 0).val, Cert.GcnNorm.block_row_lt (n := 10) (b := 5000) t (j 0)⟩ (j 1) + bArg m c (ix1 (j 1)))
          * (aggAt m c ⟨t.val * 5000 + (j 0).val, Cert.GcnNorm.block_row_lt (n := 10) (b := 5000) t (j 0)⟩ (j 1) + bArg m c (ix1 (j 1))) :=
  (arr1q_apply (B3 m) c).trans
    (Finset.sum_congr rfl fun t _ => Finset.sum_congr rfl fun j _ =>
      congrArg₂ (· * ·) (congrArg₂ (· + ·) (rowAt_B3 m c _ _) (biasAt_B3 m c _))
        (congrArg₂ (· + ·) (rowAt_B3 m c _ _) (biasAt_B3 m c _)))

/-- THE FIRST STATISTIC is the reference's sum of its biased array. -/
theorem left1s_eq (c : Dev nD) :
    sum1 m c = ∑ i : S50000x256.Idx, Cert.ReferenceIdeal.Read.val_main_v43 (F := Ideal) (xArg m c) (eArg m c) (wArg m c) (bArg m c) i :=
  (sum1_blocks m c).trans (Cert.GcnNorm.blocks_sum_ref (xArg m c) (eArg m c) (wArg m c) (bArg m c))

/-- THE SECOND STATISTIC is the reference's sum of the squares. -/
theorem left1q_eq (c : Dev nD) :
    sumsq1 m c = ∑ i : S50000x256.Idx,
        Cert.ReferenceIdeal.Read.val_main_v43 (F := Ideal) (xArg m c) (eArg m c) (wArg m c) (bArg m c) i
          * Cert.ReferenceIdeal.Read.val_main_v43 (F := Ideal) (xArg m c) (eArg m c) (wArg m c) (bArg m c) i :=
  (sumsq1_blocks m c).trans (Cert.GcnNorm.blocks_sumsq_ref (xArg m c) (eArg m c) (wArg m c) (bArg m c))

end Cert.KernelIdeal.Hand

end
-- ==== Proof.Ideal.Value2.lean ====
/- The normalise-and-activate payload of region 2 read at one entry, at the ideal values: with
   y = ((h + b − μ) · ρ) · γ + β formed from the entry h of the block, the entries b, γ, β of the three row vectors
   in the entry's column and the 1×1 values μ, ρ, the payload's entry is y where 0 ≤ y and a · y elsewhere. -/
import proofs.«148545_j10282151707323_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-- The affine normalisation of one entry h: ((h + b − μ) · ρ) · γ + β. -/
abbrev lnAffine (h b μ ρ γ β : EReal) : EReal := (h + b - μ) * ρ * γ + β

/-- Selecting y where it compares ≥ the zero word and a · y elsewhere is the one-slope activation. -/
theorem select_oge_zero (a y : EReal) :
    Scalar.select (FloatOps.cmpf (F := Ideal) (φ := .f32) .oge y (FloatOps.ofBits .f32 0x00000000#32)) y (a * y)
      = if 0 ≤ y then y else a * y := by
  show Scalar.select (Ideal.cmp .oge y (Ideal.ofBits .f32 0x00000000#32)) y (a * y) = _
  rw [Ideal.ofBits_zero_f32]
  unfold Scalar.select Ideal.cmp
  by_cases h : (0 : EReal) ≤ y <;> simp [h]

/-- A 256-vector laid along every row of the 5000×256 block reads, at (p, q), its entry q. -/
theorem row_apply (v : FVec Ideal S256 .f32) (p : Fin 5000) (q : Fin 256) :
    broadcastTo S5000x256 (shapeCast S1x256 v shapeCasts_S256_S1x256) broadcasts_S1x256_S5000x256 (ix2 p q) = v (ix1 q) := by
  rw [broadcastTo_1b_ab_apply, shapeCast_a_1a_apply]

/-- A 1×1 value spread over the 5000×256 block reads its one entry everywhere. -/
theorem splat_apply (m : FVec Ideal S1x1 .f32) (p : Fin 5000) (q : Fin 256) :
    broadcastTo S5000x256 m broadcasts_S1x1_S5000x256 (ix2 p q) = m (ix2 (0 : Fin 1) (0 : Fin 1)) := by
  refine broadcastTo_apply m broadcasts_S1x1_S5000x256 (ix2 p q) (ix2 (0 : Fin 1) (0 : Fin 1)) fun ax => ?_
  match ax with
  | ⟨0, _⟩ => rfl
  | ⟨1, _⟩ => rfl

/-- The one entry of a one-element vector. -/
theorem extract_one (a : FVec Ideal S1 .f32) : extractAt ![0] a inpos_S1_p0 = a (ix1 (0 : Fin 1)) :=
  congrArg a (funext fun d => match d with | ⟨0, _⟩ => rfl)

/-- Entry (p, q) of the payload: with y the affine normalisation of the entry, y where y compares ≥ the zero word,
    a · y elsewhere. -/
theorem k2_pay1_apply (x0 : Vec Ideal S5000x256 .f32) (b : Vec Ideal S256 .f32) (μ ρ : Vec Ideal S1x1 .f32)
    (γ β : Vec Ideal S256 .f32) (a : Vec Ideal S1 .f32) (p : Fin 5000) (q : Fin 256) :
    (k2_pay1 x0 b μ ρ γ β a (ix2 p q) : EReal)
      = Scalar.select
          (FloatOps.cmpf (F := Ideal) (φ := .f32) .oge
            (lnAffine (x0 (ix2 p q)) (b (ix1 q)) (μ (ix2 (0 : Fin 1) (0 : Fin 1))) (ρ (ix2 (0 : Fin 1) (0 : Fin 1))) (γ (ix1 q)) (β (ix1 q)))
            (FloatOps.ofBits .f32 0x00000000#32))
          (lnAffine (x0 (ix2 p q)) (b (ix1 q)) (μ (ix2 (0 : Fin 1) (0 : Fin 1))) (ρ (ix2 (0 : Fin 1) (0 : Fin 1))) (γ (ix1 q)) (β (ix1 q)))
          (a (ix1 (0 : Fin 1)) * lnAffine (x0 (ix2 p q)) (b (ix1 q)) (μ (ix2 (0 : Fin 1) (0 : Fin 1))) (ρ (ix2 (0 : Fin 1) (0 : Fin 1))) (γ (ix1 q)) (β (ix1 q))) := by
  unfold k2_pay1
  simp only [select_apply, cmpf_apply, mulf_apply, addf_apply, subf_apply, broadcast_apply, shapeCast_self, row_apply, splat_apply,
    extract_one] <;> rfl

/-- The same entry as a case split on the sign of y. -/
theorem k2_pay1_apply_ite (x0 : Vec Ideal S5000x256 .f32) (b : Vec Ideal S256 .f32) (μ ρ : Vec Ideal S1x1 .f32)
    (γ β : Vec Ideal S256 .f32) (a : Vec Ideal S1 .f32) (p : Fin 5000) (q : Fin 256) :
    (k2_pay1 x0 b μ ρ γ β a (ix2 p q) : EReal)
      = if 0 ≤ lnAffine (x0 (ix2 p q)) (b (ix1 q)) (μ (ix2 (0 : Fin 1) (0 : Fin 1))) (ρ (ix2 (0 : Fin 1) (0 : Fin 1))) (γ (ix1 q)) (β (ix1 q))
        then lnAffine (x0 (ix2 p q)) (b (ix1 q)) (μ (ix2 (0 : Fin 1) (0 : Fin 1))) (ρ (ix2 (0 : Fin 1) (0 : Fin 1))) (γ (ix1 q)) (β (ix1 q))
        else a (ix1 (0 : Fin 1)) * lnAffine (x0 (ix2 p q)) (b (ix1 q)) (μ (ix2 (0 : Fin 1) (0 : Fin 1))) (ρ (ix2 (0 : Fin 1) (0 : Fin 1))) (γ (ix1 q)) (β (ix1 q)) := by
  rw [k2_pay1_apply, select_oge_zero]

end Cert.KernelIdeal.Hand

end
-- ==== Proof.Ideal.Array2.lean ====
/- The whole output array after region 2, at the ideal values: entry (p, q) of the 50000×256 output is the
   one-slope activation of the affine normalisation of entry (p, q) of the activations, with the bias, scale and
   shift entries of column q and the 1×1 mean and reciprocal deviation, all as the region finds them. Each grid
   point writes back one 5000-row block of that one function of the arrays, and the ten blocks cover the array. -/
import proofs.«148545_j10282151707323_1_alg».proof.Proof.Ideal.Region2
import proofs.«148545_j10282151707323_1_alg».proof.Proof.Ideal.Value2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2' : (![0, 0] : Fin 2 → Nat) = fun _ => 0 := funext fun a => by fin_cases a <;> rfl
theorem zeros1 : (![0] : Fin 1 → Nat) = fun _ => 0 := funext fun a => by fin_cases a; rfl

/-- The seven operand arrays as the region finds them, and the output array as it leaves it, at their index types:
    the activations, the bias, scale and shift vectors, the slope, the 1×1 mean and reciprocal deviation. -/
abbrev hIn (c : Dev nD) : Vec Ideal S50000x256 .f32 := V c main_v40
abbrev biasIn (c : Dev nD) : Vec Ideal S256 .f32 := V c main_arg4
abbrev scaleIn (c : Dev nD) : Vec Ideal S256 .f32 := V c main_arg5
abbrev shiftIn (c : Dev nD) : Vec Ideal S256 .f32 := V c main_arg6
abbrev slopeIn (c : Dev nD) : Vec Ideal S1 .f32 := V c main_arg7
abbrev meanIn (c : Dev nD) : Vec Ideal S1x1 .f32 := V c main_v51
abbrev rdevIn (c : Dev nD) : Vec Ideal S1x1 .f32 := V c main_v52
abbrev actOut (c : Dev nD) : Vec Ideal S50000x256 .f32 := (dat2 V c).arrAt 7 cfg2.N

/-- The normalised and activated array, entry by entry, from the activations a0, the bias b, scale γ and shift β
    vectors, the slope a, and the 1×1 mean μ and reciprocal deviation ρ. -/
def act2 (a0 : Vec Ideal S50000x256 .f32) (b γ β : Vec Ideal S256 .f32) (a : Vec Ideal S1 .f32) (μ ρ : Vec Ideal S1x1 .f32) :
    Vec Ideal S50000x256 .f32 :=
  fun i => Scalar.select (FloatOps.cmpf (F := Ideal) (φ := .f32) .oge (lnAffine (a0 (ix2 (i 0) (i 1))) (b (ix1 (i 1))) (μ (ix2 (0 : Fin 1) (0 : Fin 1))) (ρ (ix2 (0 : Fin 1) (0 : Fin 1))) (γ (ix1 (i 1))) (β (ix1 (i 1)))) (FloatOps.ofBits .f32 0x00000000#32)) (lnAffine (a0 (ix2 (i 0) (i 1))) (b (ix1 (i 1))) (μ (ix2 (0 : Fin 1) (0 : Fin 1))) (ρ (ix2 (0 : Fin 1) (0 : Fin 1))) (γ (ix1 (i 1))) (β (ix1 (i 1)))) (a (ix1 (0 : Fin 1)) * (lnAffine (a0 (ix2 (i 0) (i 1))) (b (ix1 (i 1))) (μ (ix2 (0 : Fin 1) (0 : Fin 1))) (ρ (ix2 (0 : Fin 1) (0 : Fin 1))) (γ (ix1 (i 1))) (β (ix1 (i 1)))))

/-- The block index maps over the grid: the activation window and the output window are at row block t and column
    block 0; no parameter window ever moves. -/
theorem index_facts2 : ∀ t : Fin cfg2.N, win2_0.index t (0 : Fin 2) = t.val ∧ win2_0.index t (1 : Fin 2) = 0
    ∧ win2_1.index t (0 : Fin 1) = 0 ∧ win2_2.index t (0 : Fin 1) = 0 ∧ win2_3.index t (0 : Fin 1) = 0
    ∧ win2_4.index t (0 : Fin 1) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem points2 : cfg2.N = 10 := by decide

/-- Entry (p, q) of what the body leaves at point t is entry (5000·t + p, q) of that function of the arrays. -/
theorem block2_apply (c : Dev nD) (t : Fin cfg2.N) (p : Fin 5000) (q : Fin 256) :
    (k2_pay1 (iblk2 V c 0 t) (iblk2 V c 1 t) (iblk2 V c 5 t) (iblk2 V c 6 t) (iblk2 V c 2 t) (iblk2 V c 3 t) (iblk2 V c 4 t) (ix2 p q) : EReal)
      = act2 (hIn V c) (biasIn V c) (scaleIn V c) (shiftIn V c) (slopeIn V c) (meanIn V c) (rdevIn V c) (((cfg2.win 7).blk t).view.emb (ix2 p q)) := by
  obtain ⟨e00, e01, e1, e2, e3, e4, e50, e51, e60, e61, e70, e71⟩ := index_facts2 t
  rw [k2_pay1_apply]
  unfold act2
  have hq : ((((cfg2.win 7).blk t).view.emb (ix2 p q)) 1 : Fin 256) = q := by
    apply Fin.ext
    show win2_7.index t (1 : Fin 2) * 256 + 1 * q.val = q.val; omega
  have h0 : iblk2 V c 0 t (ix2 p q)
      = hIn V c (ix2 ((((cfg2.win 7).blk t).view.emb (ix2 p q)) 0) ((((cfg2.win 7).blk t).view.emb (ix2 p q)) 1)) := by
    show hIn V c (((cfg2.win 0).blk t).view.emb (ix2 p q)) = _
    congr 1
    funext a; apply Fin.ext
    match a with
    | ⟨0, _⟩ => show win2_0.index t (0 : Fin 2) * 5000 + 1 * p.val = win2_7.index t (0 : Fin 2) * 5000 + 1 * p.val; omega
    | ⟨1, _⟩ => show win2_0.index t (1 : Fin 2) * 256 + 1 * q.val = win2_7.index t (1 : Fin 2) * 256 + 1 * q.val; omega
  have h1 : iblk2 V c 1 t (ix1 q) = biasIn V c (ix1 q) := by
    show biasIn V c (((cfg2.win 1).blk t).view.emb (ix1 q)) = _
    congr 1
    funext a; apply Fin.ext
    match a with
      | ⟨0, _⟩ => show win2_1.index t (0 : Fin 1) * 256 + 1 * q.val = q.val; omega
  have h2 : iblk2 V c 2 t (ix1 q) = scaleIn V c (ix1 q) := by
    show scaleIn V c (((cfg2.win 2).blk t).view.emb (ix1 q)) = _
    congr 1
    funext a; apply Fin.ext
    match a with
      | ⟨0, _⟩ => show win2_2.index t (0 : Fin 1) * 256 + 1 * q.val = q.val; omega
  have h3 : iblk2 V c 3 t (ix1 q) = shiftIn V c (ix1 q) := by
    show shiftIn V c (((cfg2.win 3).blk t).view.emb (ix1 q)) = _
    congr 1
    funext a; apply Fin.ext
    match a with
      | ⟨0, _⟩ => show win2_3.index t (0 : Fin 1) * 256 + 1 * q.val = q.val; omega
  have h4 : iblk2 V c 4 t (ix1 (0 : Fin 1)) = slopeIn V c (ix1 (0 : Fin 1)) := by
    show slopeIn V c (((cfg2.win 4).blk t).view.emb (ix1 (0 : Fin 1))) = _
    congr 1
    funext a; apply Fin.ext
    match a with
      | ⟨0, _⟩ => show win2_4.index t (0 : Fin 1) * 1 + 1 * 0 = 0; omega
  have h5 : iblk2 V c 5 t (ix2 (0 : Fin 1) (0 : Fin 1)) = meanIn V c (ix2 (0 : Fin 1) (0 : Fin 1)) := by
    show meanIn V c (((cfg2.win 5).blk t).view.emb (ix2 (0 : Fin 1) (0 : Fin 1))) = _
    congr 1
    funext a; apply Fin.ext
    match a with
      | ⟨0, _⟩ => show win2_5.index t (0 : Fin 2) * 1 + 1 * 0 = 0; omega
      | ⟨1, _⟩ => show win2_5.index t (1 : Fin 2) * 1 + 1 * 0 = 0; omega
  have h6 : iblk2 V c 6 t (ix2 (0 : Fin 1) (0 : Fin 1)) = rdevIn V c (ix2 (0 : Fin 1) (0 : Fin 1)) := by
    show rdevIn V c (((cfg2.win 6).blk t).view.emb (ix2 (0 : Fin 1) (0 : Fin 1))) = _
    congr 1
    funext a; apply Fin.ext
    match a with
      | ⟨0, _⟩ => show win2_6.index t (0 : Fin 2) * 1 + 1 * 0 = 0; omega
      | ⟨1, _⟩ => show win2_6.index t (1 : Fin 2) * 1 + 1 * 0 = 0; omega
  rw [h0, h1, h2, h3, h4, h5, h6, hq]

/-- What point t writes back is block t of that function of the arrays as the region finds them. -/
theorem flushed2_eq (c : Dev nD) (t : Fin cfg2.N) :
    (dat2 V c).flushed 7 t = ((cfg2.win 7).blk t).view.read (Elt Ideal) (act2 (hIn V c) (biasIn V c) (scaleIn V c) (shiftIn V c) (slopeIn V c) (meanIn V c) (rdevIn V c)) := by
  show (cfg2.win 7).cut (grid2.coords t) ((dat2 V c).after 7 t) = _
  rw [after2_7]
  unfold out2_7
  rw [View.canon_unit_zero zeros2']
  simp only [View.ld_unit_zero (S := S5000x256) zeros2', View.ld_unit_zero (S := S1x1) zeros2',
    View.ld_unit_zero (S := S256) zeros1, View.ld_unit_zero (S := S1) zeros1]
  funext j
  obtain ⟨p, q, rfl⟩ : ∃ (p : Fin 5000) (q : Fin 256), j = ix2 p q := ⟨j 0, j 1, eq_ix2 j⟩
  exact block2_apply V c t p q

/-- An index of the array is in point t's block iff each coordinate is in the block's range on its axis. -/
theorem mem_blk2 (t : Fin cfg2.N) (i : S50000x256.Idx) :
    i ∈ ((cfg2.win 7).blk t).view.set ↔ ∀ a : Fin 2, win2_7.index t a * S5000x256.size a ≤ (i a).val ∧ (i a).val < win2_7.index t a * S5000x256.size a + S5000x256.size a := by
  show i ∈ ((View.whole main_v53).slice (win2_7.rect t)).set ↔ _
  rw [View.set_slice_whole, Rect.mem_set_unit]
  exact Iff.rfl

/-- Every index of the array is in the block of the point its row falls in. -/
theorem cover2 (i : S50000x256.Idx) : ∃ t : Fin cfg2.N, (cfg2.win 7).flush t = true ∧ i ∈ ((cfg2.win 7).blk t).view.set := by
  have hi0 : (i 0).val < 50000 := (i 0).isLt
  have hi1 : (i 1).val < 256 := (i 1).isLt
  have hN := points2
  refine ⟨⟨(i 0).val / 5000, by omega⟩, flush2_7 _, ?_⟩
  rw [mem_blk2]
  obtain ⟨-, -, -, -, -, -, -, -, -, -, e70, e71⟩ := index_facts2 ⟨(i 0).val / 5000, by omega⟩
  intro a
  match a with
  | ⟨0, _⟩ =>
    show win2_7.index _ (0 : Fin 2) * 5000 ≤ (i 0).val ∧ (i 0).val < win2_7.index _ (0 : Fin 2) * 5000 + 5000
    rw [e70]; show (i 0).val / 5000 * 5000 ≤ (i 0).val ∧ (i 0).val < (i 0).val / 5000 * 5000 + 5000; omega
  | ⟨1, _⟩ =>
    show win2_7.index _ (1 : Fin 2) * 256 ≤ (i 1).val ∧ (i 1).val < win2_7.index _ (1 : Fin 2) * 256 + 256
    rw [e71]; omega

/-- The output array after the region. -/
theorem arr2_eq (c : Dev nD) : (dat2 V c).arrAt 7 cfg2.N = act2 (hIn V c) (biasIn V c) (scaleIn V c) (shiftIn V c) (slopeIn V c) (meanIn V c) (rdevIn V c) :=
  (dat2 V c).arrAt_eq_of_cover 7 (act2 (hIn V c) (biasIn V c) (scaleIn V c) (shiftIn V c) (slopeIn V c) (meanIn V c) (rdevIn V c)) (fun t _ => flushed2_eq V c t) cover2

/-- Entry (p, q) of the output array after the region. -/
theorem arr2_apply (c : Dev nD) (p : Fin 50000) (q : Fin 256) :
    (actOut V c (ix2 p q) : EReal)
      = Scalar.select
          (FloatOps.cmpf (F := Ideal) (φ := .f32) .oge
            (lnAffine (hIn V c (ix2 p q)) (biasIn V c (ix1 q)) (meanIn V c (ix2 (0 : Fin 1) (0 : Fin 1))) (rdevIn V c (ix2 (0 : Fin 1) (0 : Fin 1))) (scaleIn V c (ix1 q)) (shiftIn V c (ix1 q)))
            (FloatOps.ofBits .f32 0x00000000#32))
          (lnAffine (hIn V c (ix2 p q)) (biasIn V c (ix1 q)) (meanIn V c (ix2 (0 : Fin 1) (0 : Fin 1))) (rdevIn V c (ix2 (0 : Fin 1) (0 : Fin 1))) (scaleIn V c (ix1 q)) (shiftIn V c (ix1 q)))
          (slopeIn V c (ix1 (0 : Fin 1)) *
            (lnAffine (hIn V c (ix2 p q)) (biasIn V c (ix1 q)) (meanIn V c (ix2 (0 : Fin 1) (0 : Fin 1))) (rdevIn V c (ix2 (0 : Fin 1) (0 : Fin 1))) (scaleIn V c (ix1 q)) (shiftIn V c (ix1 q)))) := by
  show ((dat2 V c).arrAt 7 cfg2.N : Vec Ideal S50000x256 .f32) (ix2 p q) = _
  rw [arr2_eq]; rfl

end Cert.KernelIdeal.Hand

end
-- ==== Proof.Ideal.VarianceLaw.lean ====
/-
  The variance law behind a whole-array layer normalisation, over the extended reals.

  For a finite family `v` of REAL numbers with `T` members and mean `μ = (∑ v) / T`,

      (∑ (v i - μ)²) / T  =  (∑ v i²) / T - μ²,

  the centred second moment against the raw second moment.  The same identity holds for a family of
  extended reals every member of which is a real number, written with the ideal quotient `Ideal.div`
  and the extended reals' own `+`, `-`, `*`; it fails as soon as a member is infinite, which is why
  the hypothesis is there.  With it come the facts a normalisation by `√variance + ε` needs: the
  mean and the variance are real, the variance is not negative, its square root is a real that is
  not negative, and dividing by a positive real is multiplying by its reciprocal.
-/
import Idealize.ShloMosaic.PureOps.Ideal
import Mathlib.Tactic

namespace Cert.GcnNorm

open Idealize.ShloMosaic
open scoped BigOperators

/-- The inclusion of the reals in the extended reals commutes with a finite sum. -/
theorem coe_finset_sum {ι : Type*} (s : Finset ι) (v : ι → ℝ) :
    (∑ i ∈ s, ((v i : ℝ) : EReal)) = ((∑ i ∈ s, v i : ℝ) : EReal) := by
  classical
  induction s using Finset.induction_on with
  | empty => simp
  | insert a s ha ih => rw [Finset.sum_insert ha, Finset.sum_insert ha, ih, EReal.coe_add]

/-- A finite sum of extended reals that are all real is real. -/
theorem sum_real {ι : Type*} (s : Finset ι) (f : ι → EReal) (hf : ∀ i ∈ s, ∃ r : ℝ, f i = r) :
    ∃ r : ℝ, ∑ i ∈ s, f i = r := by
  classical
  induction s using Finset.induction_on with
  | empty => exact ⟨0, by simp⟩
  | insert a s ha ih =>
    obtain ⟨x, hx⟩ := hf a (Finset.mem_insert_self a s)
    obtain ⟨y, hy⟩ := ih fun i hi => hf i (Finset.mem_insert_of_mem hi)
    exact ⟨x + y, by rw [Finset.sum_insert ha, hx, hy, EReal.coe_add]⟩

/-- The variance law over the reals: `T` is the number of members, as a real. -/
theorem variance_law_real {ι : Type*} [Fintype ι] (v : ι → ℝ) (T : ℝ) (hT : T ≠ 0)
    (hcard : (Fintype.card ι : ℝ) = T) :
    (∑ i, (v i - (∑ j, v j) / T) * (v i - (∑ j, v j) / T)) / T
      = (∑ i, v i * v i) / T - (∑ j, v j) / T * ((∑ j, v j) / T) := by
  set S : ℝ := ∑ j, v j with hS
  have h1 : ∑ i, (v i - S / T) * (v i - S / T)
      = ∑ i, v i * v i - 2 * (S / T) * S + T * (S / T * (S / T)) := by
    have : ∀ i, (v i - S / T) * (v i - S / T) = v i * v i - 2 * (S / T) * v i + S / T * (S / T) :=
      fun i => by ring
    simp only [this, Finset.sum_add_distrib, Finset.sum_sub_distrib, Finset.sum_const,
      Finset.card_univ, nsmul_eq_mul, hcard, ← Finset.mul_sum, ← hS]
  rw [h1]
  field_simp
  ring

/-- Division of a real by a nonzero real, in the ideal quotient, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The mean of a real-valued family is real. -/
theorem mean_real {ι : Type*} [Fintype ι] (f : ι → EReal) (hf : ∀ i, ∃ r : ℝ, f i = r)
    (T : ℝ) (hT : T ≠ 0) : ∃ m : ℝ, Ideal.div (∑ j, f j) (T : EReal) = m := by
  obtain ⟨s, hs⟩ := sum_real Finset.univ f fun i _ => hf i
  exact ⟨s / T, by rw [hs, div_coe_coe s hT]⟩

/-- The variance law over the extended reals, for a family whose members are all real, in the
    spelling of the ideal operations: quotient `Ideal.div`, and `+`, `-`, `*` of `EReal`. -/
theorem variance_law {ι : Type*} [Fintype ι] (f : ι → EReal) (hf : ∀ i, ∃ r : ℝ, f i = r)
    (T : ℝ) (hT : T ≠ 0) (hcard : (Fintype.card ι : ℝ) = T) :
    Ideal.div (∑ i, (f i - Ideal.div (∑ j, f j) (T : EReal)) * (f i - Ideal.div (∑ j, f j) (T : EReal)))
        (T : EReal)
      = Ideal.div (∑ i, f i * f i) (T : EReal)
          - Ideal.div (∑ j, f j) (T : EReal) * Ideal.div (∑ j, f j) (T : EReal) := by
  choose v hv using hf
  obtain rfl : f = fun i => ((v i : ℝ) : EReal) := funext hv
  simp only [coe_finset_sum, div_coe_coe _ hT, ← EReal.coe_sub, ← EReal.coe_mul]
  exact congrArg _ (variance_law_real v T hT hcard)

/-- The centred second moment of a real-valued family over a positive count is a real that is not
    negative. -/
theorem variance_real_nonneg {ι : Type*} [Fintype ι] (f : ι → EReal) (hf : ∀ i, ∃ r : ℝ, f i = r)
    (T : ℝ) (hT : 0 < T) :
    ∃ r : ℝ, 0 ≤ r ∧
      Ideal.div (∑ i, (f i - Ideal.div (∑ j, f j) (T : EReal)) * (f i - Ideal.div (∑ j, f j) (T : EReal)))
        (T : EReal) = r := by
  choose v hv using hf
  obtain rfl : f = fun i => ((v i : ℝ) : EReal) := funext hv
  refine ⟨(∑ i, (v i - (∑ j, v j) / T) * (v i - (∑ j, v j) / T)) / T, ?_, ?_⟩
  · exact div_nonneg (Finset.sum_nonneg fun i _ => mul_self_nonneg _) hT.le
  · simp only [coe_finset_sum, div_coe_coe _ hT.ne', ← EReal.coe_sub, ← EReal.coe_mul]

/-- The ideal square root of a real that is not negative is the real square root. -/
theorem sqrt_coe_of_nonneg {r : ℝ} (hr : 0 ≤ r) :
    Ideal.sqrt (r : EReal) = ((Real.sqrt r : ℝ) : EReal) := by
  rw [Ideal.sqrt_coe, if_neg (not_lt.mpr hr)]

/-- … so with a positive real added it is a positive real. -/
theorem sqrt_add_pos {r e : ℝ} (hr : 0 ≤ r) (he : 0 < e) :
    ∃ d : ℝ, 0 < d ∧ Ideal.sqrt (r : EReal) + (e : EReal) = d :=
  ⟨Real.sqrt r + e, add_pos_of_nonneg_of_pos (Real.sqrt_nonneg r) he, by
    rw [sqrt_coe_of_nonneg hr, EReal.coe_add]⟩

/-- Dividing by a nonzero real is multiplying by its reciprocal, whatever the dividend (an
    infinity included). -/
theorem div_eq_mul_one_div {d : ℝ} (hd : d ≠ 0) (x : EReal) :
    Ideal.div x (d : EReal) = x * Ideal.div 1 (d : EReal) := by
  rw [Ideal.div_coe hd x, Ideal.div_coe hd 1, one_mul]

/-- The normalising step: a quotient by `√r + e` (`r ≥ 0`, `e > 0` real) is the product with the
    reciprocal `1 / (√r + e)`. -/
theorem div_sqrt_add_eq_mul {r e : ℝ} (hr : 0 ≤ r) (he : 0 < e) (x : EReal) :
    Ideal.div x (Ideal.sqrt (r : EReal) + (e : EReal))
      = x * Ideal.div 1 (Ideal.sqrt (r : EReal) + (e : EReal)) := by
  obtain ⟨d, hd, h⟩ := sqrt_add_pos hr he
  rw [h]; exact div_eq_mul_one_div hd.ne' x

/-- The two normalisations of one member agree.  Over a real-valued family `f` with `T` members,
    mean `μ`, and a positive real `e`: a dividend over `√(centred second moment) + e` is the
    dividend times the reciprocal of `√(raw second moment - μ²) + e`. -/
theorem normalize_eq {ι : Type*} [Fintype ι] (f : ι → EReal) (hf : ∀ i, ∃ r : ℝ, f i = r)
    (T : ℝ) (hT : 0 < T) (hcard : (Fintype.card ι : ℝ) = T) {e : ℝ} (he : 0 < e) (x : EReal) :
    Ideal.div x
        (Ideal.sqrt (Ideal.div
            (∑ i, (f i - Ideal.div (∑ j, f j) (T : EReal)) * (f i - Ideal.div (∑ j, f j) (T : EReal)))
            (T : EReal)) + (e : EReal))
      = x * Ideal.div 1
        (Ideal.sqrt (Ideal.div (∑ i, f i * f i) (T : EReal)
            - Ideal.div (∑ j, f j) (T : EReal) * Ideal.div (∑ j, f j) (T : EReal)) + (e : EReal)) := by
  rw [← variance_law f hf T hT.ne' hcard]
  obtain ⟨r, hr, h⟩ := variance_real_nonneg f hf T hT
  rw [h]; exact div_sqrt_add_eq_mul hr he x

/-- The binary32 word `0x4B435000` denotes the real `12800000`. -/
theorem ofBits_count : Ideal.ofBits .f32 0x4B435000#32 = ((12800000 : ℝ) : EReal) := by
  simp [Ideal.ofBits, Ideal.ieee]

/-- The binary32 word `0x3727C5AC` (the nearest to `1e-5`) denotes a positive real. -/
theorem ofBits_eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee]

end Cert.GcnNorm
-- ==== Proof.Ideal.DegreePositive.lean ====
/-
  Degrees with self-loops are at least one, and what stays real along a message-passing step.

  A segment sum of ones — `zeros([N]).at[idx].add(ones([E]))` for a column `idx : [E, 1]` of signed
  integers — gives at node `n` the number of entries `e` with `idx[e, 0] = n`: the accumulating scatter
  on the extended reals adds to the operand's element the updates whose index lands on it, and update
  `e` lands on `n` exactly when `idx[e, 0]`, read signed and not clamped, is `n`.  If some entry holds
  `n` (a self-loop), that number is a real that is at least one, so its reciprocal square root is a
  positive real.

  With it, the closure facts the rest of the step needs: sums, differences and products of reals are
  real; an accumulating scatter of real updates into a real operand is real everywhere; a gather of a
  real array is real; a contraction of real operands is real.
-/
import Idealize.ShloMosaic.Lib.ValueIdx
import Idealize.ShloMosaic.PureOps.ShapeOps
import Idealize.ShloMosaic.PureOps.Ideal.Laws
import proofs.«148545_j10282151707323_1_alg».proof.Proof.Ideal.VarianceLaw

namespace Cert.GcnNorm

open Idealize.ShloMosaic Idealize.ShloMosaic.ValueIdx
open scoped BigOperators

/-! ## Where an update of a flat segment sum lands -/

/-- The dimension numbers of `zeros([N]).at[idx].add(upd)` for `idx : [E, 1]`, `upd : [E]`: no window
    axis, the operand's one axis inserted and indexed, the index vector along axis 1. -/
abbrev flatScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on node `n` when `idx[e, 0]`, read signed, is `n`. -/
theorem resultIdx_flat {N E w : Nat}
    (wf : ScatterDims.WF ⟨1, ![N]⟩ ⟨2, ![E, 1]⟩ ⟨1, ![E]⟩ [] [0] [0] 1)
    (idx : IVec ⟨2, ![E, 1]⟩ w) (e : Fin E) (n : Fin N)
    (h : (idx (ix2 e (0 : Fin 1))).toInt = (n.val : Int)) :
    (flatScatterDims N E wf).resultIdx? (ix1 e) idx = some (ix1 n) := by
  have hs0 : ∀ a, (flatScatterDims N E wf).start (ix1 e) idx a = (n.val : Int) := by
    intro a
    obtain rfl : a = 0 := Subsingleton.elim _ _
    unfold ScatterDims.start
    rw [dif_pos (show (0 : Fin 1) ∈ (flatScatterDims N E wf).scatterDimsToOperandDims from
      List.mem_singleton.mpr rfl)]
    have hsi : (flatScatterDims N E wf).siIdx (ix1 e)
        ⟨List.idxOf (0 : Fin 1) (flatScatterDims N E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi, h]
  have hw0 : ∀ a, (flatScatterDims N E wf).window (ix1 e) a = 0 := by
    intro a
    obtain rfl : a = 0 := Subsingleton.elim _ _
    unfold ScatterDims.window
    have hmem : (0 : Fin 1) ∉ (flatScatterDims N E wf).sKept := by
      show (0 : Fin 1) ∉ (List.finRange 1).filter (· ∉ ([0] : List (Fin 1))); decide
    rw [dif_neg hmem]
  have hsz : ∀ a : Fin 1, (⟨1, ![N]⟩ : Shape).size a = N := by
    intro a; obtain rfl : a = 0 := Subsingleton.elim _ _; rfl
  unfold ScatterDims.resultIdx?
  have hall : ∀ a, 0 ≤ (flatScatterDims N E wf).start (ix1 e) idx a
        + ((flatScatterDims N E wf).window (ix1 e) a : Int)
      ∧ (flatScatterDims N E wf).start (ix1 e) idx a + ((flatScatterDims N E wf).window (ix1 e) a : Int)
        < ((⟨1, ![N]⟩ : Shape).size a : Int) := by
    intro a
    rw [hs0 a, hw0 a, hsz a]
    have := n.isLt
    omega
  rw [dif_pos hall]
  congr 1
  funext a
  obtain rfl : a = 0 := Subsingleton.elim _ _
  refine Fin.ext ?_
  show ((flatScatterDims N E wf).start (ix1 e) idx 0
    + ((flatScatterDims N E wf).window (ix1 e) 0 : Int)).toNat = n.val
  rw [hs0 0, hw0 0]
  omega

/-- The same over any record of scatter dimension numbers with those field values. -/
theorem resultIdx_flat_of_fields {N E w : Nat} (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) (n : Fin N)
    (h : (idx (ix2 e (0 : Fin 1))).toInt = (n.val : Int)) :
    d.resultIdx? (ix1 e) idx = some (ix1 n) := by
  obtain ⟨uw, iw, sd, iv, wf⟩ := d
  simp only at h1 h2 h3 h4
  subst h1 h2 h3 h4
  exact resultIdx_flat wf idx e n h

/-! ## The degree -/

/-- Ones scattered into zeros at a column of indices in which some entry `e` holds `n`: the value at
    `n` is a real that is at least one. -/
theorem degree_ge_one {N E w : Nat} (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (x : (⟨1, ![N]⟩ : Shape).Idx → EReal) (idx : IVec ⟨2, ![E, 1]⟩ w)
    (upd : (⟨1, ![E]⟩ : Shape).Idx → EReal) (hx : ∀ i, x i = 0) (hu : ∀ j, upd j = 1)
    (n : Fin N) (e : Fin E) (he : (idx (ix2 e (0 : Fin 1))).toInt = (n.val : Int)) :
    ∃ r : ℝ, 1 ≤ r ∧ Ideal.hostScatterAdd d x idx upd (ix1 n) = r := by
  classical
  unfold Ideal.hostScatterAdd
  set S := Finset.univ.filter (fun j => d.resultIdx? j idx = some (ix1 n)) with hS
  have hmem : ix1 e ∈ S :=
    Finset.mem_filter.mpr ⟨Finset.mem_univ _, resultIdx_flat_of_fields d h1 h2 h3 h4 idx e n he⟩
  refine ⟨(S.card : ℝ), Nat.one_le_cast.mpr (Finset.card_pos.mpr ⟨_, hmem⟩), ?_⟩
  have hsum : ∑ j ∈ S, upd j = ∑ j ∈ S, (((1 : ℝ)) : EReal) :=
    Finset.sum_congr rfl fun j _ => by rw [hu j, EReal.coe_one]
  rw [hx, zero_add, hsum, coe_finset_sum]
  simp

/-- The binary32 word `0x3F800000` denotes the real `1` (the ones that are scattered). -/
theorem ofBits_one_f32 : Ideal.ofBits .f32 0x3F800000#32 = 1 := by
  simp [Ideal.ofBits, Ideal.ieee]
  exact_mod_cast (by norm_num : (8388608 : ℝ) * (2 ^ 23 : ℝ)⁻¹ = 1)

/-- The reciprocal square root of a real that is at least one is a positive real. -/
theorem rsqrt_of_one_le {r : ℝ} (hr : 1 ≤ r) : ∃ s : ℝ, 0 < s ∧ Ideal.rsqrt (r : EReal) = s := by
  have hpos : 0 < r := by linarith
  refine ⟨(Real.sqrt r)⁻¹, inv_pos.mpr (Real.sqrt_pos.mpr hpos), ?_⟩
  rw [Ideal.rsqrt_coe, if_neg (not_lt.mpr hpos.le), if_neg hpos.ne']

/-! ## What stays real -/

theorem add_real {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem sub_real {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩

theorem mul_real {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- A real is an extended real that is neither infinity, and conversely. -/
theorem real_iff_ne (x : EReal) : (∃ r : ℝ, x = r) ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | top => exact absurd rfl ht
    | coe r => exact ⟨r, rfl⟩

/-- An accumulating scatter of real updates into a real operand is real at every element, whatever
    the indices. -/
theorem scatterAdd_real {s si su : Shape} (d : ScatterDims s si su) {w : Nat} (x : s.Idx → EReal)
    (idx : IVec si w) (upd : su.Idx → EReal) (hx : ∀ i, ∃ r : ℝ, x i = r)
    (hu : ∀ j, ∃ r : ℝ, upd j = r) (i : s.Idx) :
    ∃ r : ℝ, Ideal.hostScatterAdd d x idx upd i = r := by
  classical
  unfold Ideal.hostScatterAdd
  exact add_real (hx i) (sum_real _ _ fun j _ => hu j)

/-- A gather of a real array is real at every element, whatever the indices. -/
theorem gather_real {s si t : Shape} {w : Nat} (d : GatherDims s si t) (x : s.Idx → EReal)
    (idx : IVec si w) (hx : ∀ i, ∃ r : ℝ, x i = r) (j : t.Idx) :
    ∃ r : ℝ, Host.gather d x idx j = r :=
  hx _

/-- A contraction of real operands — the host's product — is real at every element. -/
theorem dotGeneral_real {sl sr so : Shape} {φ₁ φ₂ : FTy} (d : DotDims sl sr so)
    (prec : Option ContractPrecision) (sched : HostSchedule)
    (lhs : FVec Ideal sl φ₁) (rhs : FVec Ideal sr φ₂)
    (hl : ∀ i, ∃ r : ℝ, lhs i = r) (hr : ∀ i, ∃ r : ℝ, rhs i = r) (j : so.Idx) :
    ∃ r : ℝ, FloatOps.dotGeneral d prec sched lhs rhs j = r := by
  rw [Ideal.dotGeneral_apply]
  exact sum_real _ _ fun k _ => mul_real (hl _) (hr _)

/-- A kernel's matrix product of real operands into a zero accumulator is real at every element. -/
theorem matmul_zero_real {sl sr so : Shape} {φ₁ φ₂ : FTy} (d : DotDims sl sr so)
    (prec : Option ContractPrecision) (lhs : FVec Ideal sl φ₁) (rhs : FVec Ideal sr φ₂)
    (hl : ∀ i, ∃ r : ℝ, lhs i = r) (hr : ∀ i, ∃ r : ℝ, rhs i = r) (j : so.Idx) :
    ∃ r : ℝ, FloatOps.matmul d prec lhs rhs (constant so .f32 0x00000000#32) j = r := by
  rw [Ideal.matmul_constant_zero_apply]
  exact sum_real _ _ fun k _ => mul_real (hl _) (hr _)

end Cert.GcnNorm
-- ==== Proof.Ideal.Stats.lean ====
/-
  The two statistics between the global sums and the normalisation, read at their one entry.

  From the sum `S` and the sum of squares `Q` of all entries (each a `1 × 1` array) the host computes the
  mean `S / T` and the reciprocal deviation `1 / (√(Q / T - (S / T) · (S / T)) + ε)`, `T` the word of the
  entry count and `ε` the offset's word, and hands both on as `1 × 1` arrays.  On the extended reals the
  one entry of each is that expression in the ideal quotient, root, difference and product.
-/
import proofs.«148545_j10282151707323_1_alg».proof.Proof.Ideal.HostStages
import proofs.«148545_j10282151707323_1_alg».proof.Proof.Ideal.DegreePositive
import Idealize.ShloMosaic.Lib.ValueIdx
import Idealize.ShloMosaic.Lib.Pipeline.Value

noncomputable section

namespace Cert.KernelIdeal.Hand

open Idealize.ShloMosaic Idealize.ShloMosaic.ValueIdx
open Cert.KernelIdeal Cert.KernelIdeal.Gen

/-! ## A one-entry array and a scalar -/

/-- The scalar shape has one position. -/
theorem scalar_pos (i : S_.Idx) : (S_.rowMajor i).val = 0 := by
  have h := (S_.rowMajor i).isLt
  have h1 : S_.numel = 1 := by decide
  omega

/-- A `1 × 1` array cast to a scalar reads its one entry. -/
theorem cast_to_scalar {α : Type} (y : S1x1.Idx → α) (i : S_.Idx) :
    shapeCast S_ y shapeCasts_S1x1_S_ i = y (ix2 (0 : Fin 1) (0 : Fin 1)) :=
  shapeCast_apply y shapeCasts_S1x1_S_ i (ix2 (0 : Fin 1) (0 : Fin 1)) (by
    rw [Shape.rowMajor_val_two, scalar_pos]
    rfl)

/-- A scalar cast to a `1 × 1` array holds it at the one entry. -/
theorem cast_from_scalar {α : Type} (y : S_.Idx → α) :
    shapeCast S1x1 y shapeCasts_S_S1x1 (ix2 (0 : Fin 1) (0 : Fin 1)) = y ix0 :=
  shapeCast_apply y shapeCasts_S_S1x1 (ix2 (0 : Fin 1) (0 : Fin 1)) ix0 (by
    rw [Shape.rowMajor_val_two, scalar_pos]
    rfl)

/-! ## The two statistics at an index, for every float instance -/

section Generic
variable {F : FTy → Type} [FloatOps F]

theorem meanOf_apply (s : (⟨S1x1, .f32⟩ : BufTy).Contents (Elt F)) (i : S_.Idx) :
    meanOf (F := F) s i
      = FloatOps.hostDivf (shapeCast S_ s shapeCasts_S1x1_S_ i) (FloatOps.ofBits .f32 0x4B435000#32) := rfl

theorem invDevOf_apply (s q : (⟨S1x1, .f32⟩ : BufTy).Contents (Elt F)) (i : S_.Idx) :
    invDevOf (F := F) s q i
      = FloatOps.hostDivf (FloatOps.ofBits .f32 0x3F800000#32)
          (FloatOps.addf
            (FloatOps.hostUnary .sqrt
              (FloatOps.subf
                (FloatOps.hostDivf (shapeCast S_ q shapeCasts_S1x1_S_ i) (FloatOps.ofBits .f32 0x4B435000#32))
                (FloatOps.mulf (meanOf (F := F) s i) (meanOf (F := F) s i))))
            (FloatOps.ofBits .f32 0x3727C5AC#32)) := rfl

end Generic

/-! ## On the extended reals -/

/-- The mean handed on: the sum's entry over the count. -/
theorem meanOf_at (s : (⟨S1x1, .f32⟩ : BufTy).Contents (Elt Ideal)) :
    shapeCast S1x1 (meanOf (F := Ideal) s) shapeCasts_S_S1x1 (ix2 (0 : Fin 1) (0 : Fin 1))
      = Ideal.div (s (ix2 (0 : Fin 1) (0 : Fin 1))) (Ideal.ofBits .f32 0x4B435000#32) := by
  rw [cast_from_scalar, meanOf_apply, cast_to_scalar]
  simp only [Ideal.hostDivf_def, Ideal.ofBits_def]

/-- The reciprocal deviation handed on. -/
theorem invDevOf_at (s q : (⟨S1x1, .f32⟩ : BufTy).Contents (Elt Ideal)) :
    shapeCast S1x1 (invDevOf (F := Ideal) s q) shapeCasts_S_S1x1 (ix2 (0 : Fin 1) (0 : Fin 1))
      = Ideal.div 1
          (Ideal.sqrt
              (Ideal.div (q (ix2 (0 : Fin 1) (0 : Fin 1))) (Ideal.ofBits .f32 0x4B435000#32)
                - Ideal.div (s (ix2 (0 : Fin 1) (0 : Fin 1))) (Ideal.ofBits .f32 0x4B435000#32)
                  * Ideal.div (s (ix2 (0 : Fin 1) (0 : Fin 1))) (Ideal.ofBits .f32 0x4B435000#32))
            + Ideal.ofBits .f32 0x3727C5AC#32) := by
  rw [cast_from_scalar, invDevOf_apply, meanOf_apply, cast_to_scalar, cast_to_scalar]
  simp only [Ideal.hostDivf_def, Ideal.ofBits_def, Ideal.hostUnary_sqrt_def, Ideal.addf_def,
    Ideal.subf_def, Ideal.mulf_def, Cert.GcnNorm.ofBits_one_f32]

end Cert.KernelIdeal.Hand

end
-- ==== Proof.Ideal.RefValue.lean ====
/-
  The reference's result, read at one entry.

  Write `v` for the array the reference normalises (the aggregated messages plus the bias, `[50000, 256]`),
  `T` for the word of the entry count and `ε` for the word added to the deviation.  The reference computes

      μ   = (∑ v) / T,
      σ²  = (∑ (v - μ)·(v - μ)) / T,
      y   = (v[p, q] - μ) / (√σ² + ε) · w[q] + b[q],
      out = y  if  y ≥ 0  else  a · y.

  Each intermediate array is read at an index below, with `v` left as it is; then, for an array `v` all of
  whose entries are real numbers, the same entry in the second spelling — the raw second moment minus the
  squared mean under the root, and a product with the reciprocal instead of the quotient.
-/
import proofs.«148545_j10282151707323_1_alg».proof.Proof.Gen.ReferenceIdeal.Read
import proofs.«148545_j10282151707323_1_alg».proof.Proof.Ideal.VarianceLaw
import proofs.«148545_j10282151707323_1_alg».proof.Proof.Ideal.SumBlocks

noncomputable section

namespace Cert.ReferenceIdeal.RefValue

open Cert.ReferenceIdeal Cert.ReferenceIdeal.Gen Cert.ReferenceIdeal.Read Idealize.ShloMosaic
  Idealize.ShloMosaic.ValueIdx Cert.GcnNorm
open scoped BigOperators

variable (x0 : (⟨S50000x256, .f32⟩ : BufTy).Contents (Elt Ideal))
  (x1 : (⟨S2x800000, .i32⟩ : BufTy).Contents (Elt Ideal))
  (x3 : (⟨S256x256, .f32⟩ : BufTy).Contents (Elt Ideal))
  (x4 x5 x6 : (⟨S256, .f32⟩ : BufTy).Contents (Elt Ideal))
  (x7 : (⟨S1, .f32⟩ : BufTy).Contents (Elt Ideal))

/-- The array that is normalised. -/
local notation "𝐯" => val_main_v43 (F := Ideal) x0 x1 x3 x4
/-- The entry count's word and the deviation's offset word. -/
local notation "𝐓" => Ideal.ofBits FTy.f32 0x4B435000#32
local notation "𝛆" => Ideal.ofBits FTy.f32 0x3727C5AC#32

/-- The first reduction: the sum of all entries. -/
theorem sum_at (i : S_.Idx) :
    val_main_v44 (F := Ideal) x0 x1 x3 x4 i = ∑ j : S50000x256.Idx, 𝐯 j := by
  rw [val_main_v44_apply, val_main_cst_7_apply, Ideal.ofBits_def, Ideal.ofBits_zero_f32]
  exact zero_add _

/-- The mean. -/
theorem mean_at (i : S_.Idx) :
    val_main_v45 (F := Ideal) x0 x1 x3 x4 i = Ideal.div (∑ j : S50000x256.Idx, 𝐯 j) 𝐓 := by
  rw [val_main_v45_apply, sum_at, val_main_cst_8_apply, Ideal.hostDivf_def, Ideal.ofBits_def]

/-- An entry less the mean. -/
theorem centred_at (i : S50000x256.Idx) :
    val_main_v47 (F := Ideal) x0 x1 x3 x4 i = 𝐯 i - Ideal.div (∑ j : S50000x256.Idx, 𝐯 j) 𝐓 := by
  rw [val_main_v47_apply, val_main_v46_apply, mean_at, Ideal.subf_def]

/-- The second reduction: the sum of the squared centred entries. -/
theorem sqsum_at (i : S_.Idx) :
    val_main_v49 (F := Ideal) x0 x1 x3 x4 i
      = ∑ j : S50000x256.Idx, (𝐯 j - Ideal.div (∑ j : S50000x256.Idx, 𝐯 j) 𝐓)
          * (𝐯 j - Ideal.div (∑ j : S50000x256.Idx, 𝐯 j) 𝐓) := by
  rw [val_main_v49_apply, val_main_cst_9_apply, Ideal.ofBits_def, Ideal.ofBits_zero_f32]
  refine (zero_add _).trans (Finset.sum_congr rfl fun j _ => ?_)
  rw [val_main_v48_apply, Ideal.mulf_def, centred_at]

/-- The deviation plus the offset: the divisor. -/
theorem divisor_at (i : S_.Idx) :
    val_main_v52 (F := Ideal) x0 x1 x3 x4 i
      = Ideal.sqrt (Ideal.div (∑ j : S50000x256.Idx, (𝐯 j - Ideal.div (∑ j : S50000x256.Idx, 𝐯 j) 𝐓)
          * (𝐯 j - Ideal.div (∑ j : S50000x256.Idx, 𝐯 j) 𝐓)) 𝐓) + 𝛆 := by
  rw [val_main_v52_apply, val_main_v51_apply, val_main_v50_apply, sqsum_at, val_main_cst_10_apply,
    val_main_cst_11_apply, Ideal.hostDivf_def, Ideal.ofBits_def, Ideal.ofBits_def,
    Ideal.hostUnary_sqrt_def, Ideal.addf_def]

/-- A row vector spread over the rows reads its own entry at the column. -/
theorem scale_at (p : Fin 50000) (q : Fin 256) :
    val_main_v56 (F := Ideal) x5 (ix2 p q) = x5 (ix1 q) := by
  rw [val_main_v56_apply, val_main_v55_apply]
  congr 1
  funext a
  match a with
  | ⟨0, _⟩ => rfl

theorem shift_at (p : Fin 50000) (q : Fin 256) :
    val_main_v59 (F := Ideal) x6 (ix2 p q) = x6 (ix1 q) := by
  rw [val_main_v59_apply, val_main_v58_apply]
  congr 1
  funext a
  match a with
  | ⟨0, _⟩ => rfl

/-- The one slope spread over the whole array. -/
theorem slope_at (i : S50000x256.Idx) :
    val_main_v64 (F := Ideal) x7 i = x7 (ix1 (0 : Fin 1)) := by
  rw [val_main_v64_apply, val_main_v63_apply]
  congr 1
  funext a
  match a with
  | ⟨0, _⟩ => rfl

/-- The normalised, scaled and shifted entry. -/
theorem affine_at (p : Fin 50000) (q : Fin 256) :
    val_main_v60 (F := Ideal) x0 x1 x3 x4 x5 x6 (ix2 p q)
      = Ideal.div (𝐯 (ix2 p q) - Ideal.div (∑ j : S50000x256.Idx, 𝐯 j) 𝐓)
          (Ideal.sqrt (Ideal.div (∑ j : S50000x256.Idx, (𝐯 j - Ideal.div (∑ j : S50000x256.Idx, 𝐯 j) 𝐓)
            * (𝐯 j - Ideal.div (∑ j : S50000x256.Idx, 𝐯 j) 𝐓)) 𝐓) + 𝛆)
          * x5 (ix1 q) + x6 (ix1 q) := by
  rw [val_main_v60_apply, val_main_v57_apply, val_main_v54_apply, val_main_v53_apply, centred_at,
    divisor_at, scale_at, shift_at, Ideal.hostDivf_def, Ideal.mulf_def, Ideal.addf_def]

/-- The result at an entry: the affine value where it is not negative, else the slope times it. -/
theorem result_at (p : Fin 50000) (q : Fin 256) :
    val_main_v66 (F := Ideal) x0 x1 x3 x4 x5 x6 x7 (ix2 p q)
      = Scalar.select
          (FloatOps.cmpf (F := Ideal) (φ := .f32) .oge
            (val_main_v60 (F := Ideal) x0 x1 x3 x4 x5 x6 (ix2 p q)) (0 : EReal))
          (val_main_v60 (F := Ideal) x0 x1 x3 x4 x5 x6 (ix2 p q))
          (x7 (ix1 (0 : Fin 1)) * val_main_v60 (F := Ideal) x0 x1 x3 x4 x5 x6 (ix2 p q)) := by
  rw [val_main_v66_apply, val_main_v62_apply, val_main_v65_apply, val_main_v61_apply,
    val_main_cst_12_apply, slope_at, Ideal.ofBits_def, Ideal.ofBits_zero_f32, Ideal.mulf_def]

/-- The second spelling of the affine value, for an array of real numbers: the root is taken of the raw
    second moment less the squared mean, and the centred entry is multiplied by the reciprocal. -/
theorem affine_at_of_real (hf : ∀ i, ∃ r : ℝ, 𝐯 i = r) (p : Fin 50000) (q : Fin 256) :
    val_main_v60 (F := Ideal) x0 x1 x3 x4 x5 x6 (ix2 p q)
      = (𝐯 (ix2 p q) - Ideal.div (∑ j : S50000x256.Idx, 𝐯 j) 𝐓)
          * Ideal.div 1 (Ideal.sqrt (Ideal.div (∑ j : S50000x256.Idx, 𝐯 j * 𝐯 j) 𝐓
              - Ideal.div (∑ j : S50000x256.Idx, 𝐯 j) 𝐓 * Ideal.div (∑ j : S50000x256.Idx, 𝐯 j) 𝐓) + 𝛆)
          * x5 (ix1 q) + x6 (ix1 q) := by
  rw [affine_at]
  obtain ⟨e, he, hE⟩ := ofBits_eps_pos
  rw [hE, ofBits_count]
  rw [normalize_eq (ι := S50000x256.Idx) 𝐯 hf 12800000 (by norm_num) card_50000x256 he]

end Cert.ReferenceIdeal.RefValue

end
-- ==== Proof.Ideal.RefFinite.lean ====
/-
  The array the reference normalises is real-valued when the inputs are.

  The normalised array is `v = Agg(h) + bias` with `h = x · W`.  `h` is a finite sum of products of reals.
  The degree of node `n` is a segment sum of ones over a column of indices whose row `800000 + n` (the
  self-loop rows, an `iota`) holds `n`, so it is a real at least one and its reciprocal square root is
  a positive real; the edge weights are products of two such, gathered.  A message is a gathered entry
  of `h` times an edge weight, and the aggregate is an accumulating scatter of messages into zeros: a
  finite sum of reals.  Adding a real bias keeps it real.
-/
import proofs.«148545_j10282151707323_1_alg».proof.Proof.Gen.ReferenceIdeal.Read
import proofs.«148545_j10282151707323_1_alg».proof.Proof.Ideal.DegreePositive

noncomputable section

namespace Cert.ReferenceIdeal.RefValue

open Cert.ReferenceIdeal Cert.ReferenceIdeal.Gen Cert.ReferenceIdeal.Read Idealize.ShloMosaic
  Idealize.ShloMosaic.ValueIdx Cert.GcnNorm
open scoped BigOperators

/-! Each aggregating operation of the reference, as the operation applied to the values before it; stated
    for every float instance, where both sides are the same term. -/
section Generic
variable {F : FTy → Type} [FloatOps F]

theorem features_eq (x0 : (⟨S50000x256, .f32⟩ : BufTy).Contents (Elt F))
    (x3 : (⟨S256x256, .f32⟩ : BufTy).Contents (Elt F)) :
    val_main_v7 (F := F) x0 x3
      = FloatOps.dotGeneral dot_S50000x256_S256x256_S50000x256_1_0_0_1_n_n none .single x0 x3 := rfl

theorem degree_eq (x1 : (⟨S2x800000, .i32⟩ : BufTy).Contents (Elt F)) :
    val_main_v11 (F := F) x1
      = FloatOps.hostScatterAdd scatter_S50000_S850000x1_S850000_n_0_0_1 .single (val_main_v9 (F := F))
          (val_main_v10 (F := F) x1) (val_main_v8 (F := F)) := rfl

theorem srcWeight_eq (x1 : (⟨S2x800000, .i32⟩ : BufTy).Contents (Elt F)) :
    val_main_v19 (F := F) x1
      = Host.gather gather_S50000_S850000x1_S850000_n_0_n_n_0_1_1 (val_main_v12 (F := F) x1)
          (val_main_v18 (F := F) x1) := rfl

theorem dstWeight_eq (x1 : (⟨S2x800000, .i32⟩ : BufTy).Contents (Elt F)) :
    val_main_v26 (F := F) x1
      = Host.gather gather_S50000_S850000x1_S850000_n_0_n_n_0_1_1 (val_main_v12 (F := F) x1)
          (val_main_v25 (F := F) x1) := rfl

theorem srcRows_eq (x0 : (⟨S50000x256, .f32⟩ : BufTy).Contents (Elt F))
    (x1 : (⟨S2x800000, .i32⟩ : BufTy).Contents (Elt F)) (x3 : (⟨S256x256, .f32⟩ : BufTy).Contents (Elt F)) :
    val_main_v34 (F := F) x0 x1 x3
      = Host.gather gather_S50000x256_S850000x1_S850000x256_1_0_n_n_0_1_1256 (val_main_v7 (F := F) x0 x3)
          (val_main_v33 (F := F) x1) := rfl

theorem aggregate_eq (x0 : (⟨S50000x256, .f32⟩ : BufTy).Contents (Elt F))
    (x1 : (⟨S2x800000, .i32⟩ : BufTy).Contents (Elt F)) (x3 : (⟨S256x256, .f32⟩ : BufTy).Contents (Elt F)) :
    val_main_v40 (F := F) x0 x1 x3
      = FloatOps.hostScatterAdd scatter_S50000x256_S850000x1_S850000x256_1_0_0_1 .single (val_main_v38 (F := F))
          (val_main_v39 (F := F) x1) (val_main_v37 (F := F) x0 x1 x3) := rfl

end Generic

variable (x0 : (⟨S50000x256, .f32⟩ : BufTy).Contents (Elt Ideal))
  (x1 : (⟨S2x800000, .i32⟩ : BufTy).Contents (Elt Ideal))
  (x3 : (⟨S256x256, .f32⟩ : BufTy).Contents (Elt Ideal))
  (x4 : (⟨S256, .f32⟩ : BufTy).Contents (Elt Ideal))

/-- A word below `50000` read as a signed 32-bit integer is itself. -/
theorem toInt_ofNat_small (n : Nat) (h : n < 50000) : (BitVec.ofNat 32 n).toInt = (n : Int) := by
  rw [BitVec.toInt_ofNat', Int.bmod_def]
  have : ((2 ^ 32 : Nat) : Int) = 4294967296 := by norm_num
  rw [this]
  split <;> omega

/-- Row `800000 + n` of the destination column is a self-loop: it holds `n`. -/
theorem selfloop_index (n : Fin 50000) :
    (val_main_v10 (F := Ideal) x1
        (ix2 (⟨800000 + n.val, by have := n.isLt; omega⟩ : Fin 850000) (0 : Fin 1))).toInt
      = (n.val : Int) := by
  have hn := n.isLt
  rw [val_main_v10_apply]
  have hidx : idx_main_v10 (ix2 (⟨800000 + n.val, by omega⟩ : Fin 850000) (0 : Fin 1))
      = ix1 (⟨800000 + n.val, by omega⟩ : Fin 850000) := by
    funext a
    match a with
    | ⟨0, _⟩ => rfl
  rw [hidx]
  unfold val_main_v6
  refine (congrArg BitVec.toInt (concatenate_pair_apply_right (t := S850000) (s₁ := S800000) (s₂ := S50000)
    0 _ _ concatenates_S800000_S50000_S850000_d0 (ix1 (⟨800000 + n.val, by omega⟩ : Fin 850000)) rfl rfl
    (ix1 n) ?_ ?_)).trans ?_
  · intro b hb
    exact absurd (Fin.ext (by have hb1 : b.val < 1 := b.isLt; show b.val = 0; omega)) hb
  · show n.val + 800000 = 800000 + n.val
    omega
  · rw [val_main_v4_apply]
    exact toInt_ofNat_small n.val hn

/-- The degree of every node is a real that is at least one. -/
theorem degree_real (n : Fin 50000) :
    ∃ r : ℝ, 1 ≤ r ∧ val_main_v11 (F := Ideal) x1 (ix1 n) = r := by
  have hx : ∀ i, val_main_v9 (F := Ideal) i = 0 := fun i => by
    rw [val_main_v9_apply, val_main_cst_0_apply]; exact Ideal.ofBits_zero_f32
  have hu : ∀ j, val_main_v8 (F := Ideal) j = 1 := fun j => by
    rw [val_main_v8_apply, val_main_cst_apply]; exact ofBits_one_f32
  obtain ⟨r, hr, h⟩ := degree_ge_one scatter_S50000_S850000x1_S850000_n_0_0_1 rfl rfl rfl rfl
    (val_main_v9 (F := Ideal)) (val_main_v10 (F := Ideal) x1) (val_main_v8 (F := Ideal)) hx hu n
    (⟨800000 + n.val, by have := n.isLt; omega⟩ : Fin 850000) (selfloop_index x1 n)
  refine ⟨r, hr, ?_⟩
  rw [degree_eq, Ideal.hostScatterAdd_def]
  exact h

/-- The reciprocal square root of every degree is real. -/
theorem dinv_real (i : S50000.Idx) : ∃ r : ℝ, val_main_v12 (F := Ideal) x1 i = r := by
  obtain ⟨n, rfl⟩ : ∃ n : Fin 50000, i = ix1 n := ⟨i 0, eq_ix1 i⟩
  obtain ⟨r, hr, h⟩ := degree_real x1 n
  obtain ⟨s, _, hs⟩ := rsqrt_of_one_le hr
  exact ⟨s, by rw [val_main_v12_apply, h, Ideal.hostUnary_rsqrt_def, hs]⟩

/-- Every edge weight is real. -/
theorem weight_real (i : S850000.Idx) : ∃ r : ℝ, val_main_v27 (F := Ideal) x1 i = r := by
  rw [val_main_v27_apply, Ideal.mulf_def, srcWeight_eq, dstWeight_eq]
  exact mul_real
    (gather_real gather_S50000_S850000x1_S850000_n_0_n_n_0_1_1 (val_main_v12 (F := Ideal) x1)
      (val_main_v18 (F := Ideal) x1) (dinv_real x1) i)
    (gather_real gather_S50000_S850000x1_S850000_n_0_n_n_0_1_1 (val_main_v12 (F := Ideal) x1)
      (val_main_v25 (F := Ideal) x1) (dinv_real x1) i)

/-- The transformed features `x · W` are real. -/
theorem features_real (hx0 : ∀ i, ∃ r : ℝ, x0 i = r) (hx3 : ∀ i, ∃ r : ℝ, x3 i = r)
    (i : S50000x256.Idx) : ∃ r : ℝ, val_main_v7 (F := Ideal) x0 x3 i = r := by
  rw [features_eq]
  exact dotGeneral_real dot_S50000x256_S256x256_S50000x256_1_0_0_1_n_n none .single x0 x3 hx0 hx3 i

/-- Every message is real. -/
theorem message_real (hx0 : ∀ i, ∃ r : ℝ, x0 i = r) (hx3 : ∀ i, ∃ r : ℝ, x3 i = r)
    (i : S850000x256.Idx) : ∃ r : ℝ, val_main_v37 (F := Ideal) x0 x1 x3 i = r := by
  rw [val_main_v37_apply, Ideal.mulf_def, val_main_v36_apply, val_main_v35_apply, srcRows_eq]
  exact mul_real
    (gather_real gather_S50000x256_S850000x1_S850000x256_1_0_n_n_0_1_1256 (val_main_v7 (F := Ideal) x0 x3)
      (val_main_v33 (F := Ideal) x1) (features_real x0 x3 hx0 hx3) i)
    (weight_real x1 _)

/-- The aggregate is real. -/
theorem aggregate_real (hx0 : ∀ i, ∃ r : ℝ, x0 i = r) (hx3 : ∀ i, ∃ r : ℝ, x3 i = r)
    (i : S50000x256.Idx) : ∃ r : ℝ, val_main_v40 (F := Ideal) x0 x1 x3 i = r := by
  have hz : ∀ j, ∃ r : ℝ, val_main_v38 (F := Ideal) j = r := fun j =>
    ⟨0, by rw [val_main_v38_apply, val_main_cst_6_apply]; exact Ideal.ofBits_zero_f32.trans EReal.coe_zero.symm⟩
  obtain ⟨r, h⟩ := scatterAdd_real scatter_S50000x256_S850000x1_S850000x256_1_0_0_1
    (val_main_v38 (F := Ideal)) (val_main_v39 (F := Ideal) x1) (val_main_v37 (F := Ideal) x0 x1 x3) hz
    (message_real x0 x1 x3 hx0 hx3) i
  refine ⟨r, ?_⟩
  rw [aggregate_eq, Ideal.hostScatterAdd_def]
  exact h

/-- The normalised array is real. -/
theorem val_real (hx0 : ∀ i, ∃ r : ℝ, x0 i = r) (hx3 : ∀ i, ∃ r : ℝ, x3 i = r)
    (hx4 : ∀ i, ∃ r : ℝ, x4 i = r) (i : S50000x256.Idx) :
    ∃ r : ℝ, val_main_v43 (F := Ideal) x0 x1 x3 x4 i = r := by
  rw [val_main_v43_apply, Ideal.addf_def, val_main_v42_apply, val_main_v41_apply]
  exact add_real (aggregate_real x0 x1 x3 hx0 hx3 i) (hx4 _)

end Cert.ReferenceIdeal.RefValue

end
-- ==== Proof.Ideal.FiniteInputs.lean ====
/-
  Finite inputs are real inputs.

  The precondition tests every float argument `x` elementwise by `|x| < +∞`, takes the conjunction of
  each test over the whole array, and the conjunction of those.  On the extended reals `|x|` is
  `max x (-x)` and the binary32 word `0x7F800000` is `+∞`, so an entry passes exactly when it is a real
  number: from the precondition, every entry of every float argument is real.
-/
import proofs.«148545_j10282151707323_1_alg».proof.Pre_finite_inputs
import Idealize.ShloMosaic.Lib.ReduceAll
import Idealize.ShloMosaic.Lib.ValueIdx
import Idealize.ShloMosaic.PureOps.Ideal.Laws

namespace Cert.GcnNorm

open Idealize.ShloMosaic Idealize.ShloMosaic.ValueIdx Cert.Pre_finite_inputs

/-- The binary32 word `0x7F800000` is `+∞`. -/
theorem ofBits_inf_f32 : Ideal.ofBits .f32 0x7F800000#32 = ⊤ := by simp [Ideal.ofBits, Ideal.ieee]

/-- One entry's test: an extended real whose absolute value compares below `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = r := by
  rw [Ideal.hostAbsf_def, Ideal.absf_def, Ideal.cmpf_def, ofBits_inf_f32] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => simp at h'
  | top => simp at h'
  | coe r => exact ⟨r, rfl⟩

instance : Subsingleton S_.Idx := ⟨fun a b => funext fun d => d.elim0⟩

variable [Facts]
open Facts

/-- A whole array's test: if the conjunction over all entries of `|x| < +∞` is true, every entry is real. -/
theorem real_of_all {s : Shape} {axes : List (Fin s.rank)} (hb : S_.BroadcastsInDim s (![] : Fin 0 → Fin s.rank))
    (hr : s.ReducesTo axes S_) (hu : 0 < S_.numel) (x : FVec Ideal s .f32)
    (h : Host.reduce IntOp.andi
        (cmpf .olt (Host.absf x) (broadcastInDim s ![] hb (constant S_ .f32 0x7F800000#32)))
        (constantI S_ 1 1#1) hr hu ix0 = 1#1) (i : s.Idx) : ∃ r : ℝ, x i = r :=
  real_of_abs_lt_inf (x i) (Host.reduce_andi_all _ _ hr hu ix0 h i)

/-- From the precondition: every entry of each float argument is a real number. -/
theorem real_of_pre (x0 : FVec Ideal S50000x256 .f32) (x1 : IVec S2x800000 32) (x2 : IVec S50000 32)
    (x3 : FVec Ideal S256x256 .f32) (x4 x5 x6 : FVec Ideal S256 .f32) (x7 : FVec Ideal S1 .f32)
    (h : fn (F := Ideal) x0 x1 x2 x3 x4 x5 x6 x7 = fun _ => 1#1) :
    (∀ i, ∃ r : ℝ, x0 i = r) ∧ (∀ i, ∃ r : ℝ, x3 i = r) ∧ (∀ i, ∃ r : ℝ, x4 i = r)
      ∧ (∀ i, ∃ r : ℝ, x5 i = r) ∧ (∀ i, ∃ r : ℝ, x6 i = r) ∧ (∀ i, ∃ r : ℝ, x7 i = r) := by
  have h0 := congrFun h ix0
  dsimp only [fn, fn_part1] at h0
  obtain ⟨h5, e7⟩ := IntOp.andi_eq_one.1 h0
  obtain ⟨h4, e6⟩ := IntOp.andi_eq_one.1 h5
  obtain ⟨h3, e5⟩ := IntOp.andi_eq_one.1 h4
  obtain ⟨h2, e4⟩ := IntOp.andi_eq_one.1 h3
  obtain ⟨e0, e3⟩ := IntOp.andi_eq_one.1 h2
  exact ⟨real_of_all _ _ _ x0 e0, real_of_all _ _ _ x3 e3, real_of_all _ _ _ x4 e4,
    real_of_all _ _ _ x5 e5, real_of_all _ _ _ x6 e6, real_of_all _ _ _ x7 e7⟩

end Cert.GcnNorm
-- ==== Proof.Ideal.Bridge.lean ====
/-
  The two programs end with equal results on the extended reals, from finite inputs.

  Entry (p, q) of the kernel's result is the rectifier applied to
      (v + b − μ) · ρ · w + β,
  v the aggregated array's entry, b, w, β the bias, the scale and the shift at column q, μ = S / T and
  ρ = 1 / (sqrt (Q / T − μ·μ) + ε) from the sums S, Q of all entries of 𝐯 = v + b and of their squares. The
  reference's is the same rectifier applied to (𝐯 − μ) / (sqrt ((∑ (𝐯 − μ)²) / T) + ε) · w + β. Every entry of 𝐯 is
  a real number when the inputs are finite, so the two agree: the mean of the squared deviations is the mean of
  the squares less the squared mean, and a quotient by a positive real is the product with its reciprocal.
-/
import proofs.«148545_j10282151707323_1_alg».proof.Defs
import proofs.«148545_j10282151707323_1_alg».proof.Proof.Gen.KernelIdeal
import proofs.«148545_j10282151707323_1_alg».proof.Proof.Gen.ReferenceIdeal
import proofs.«148545_j10282151707323_1_alg».proof.Proof.Gen.Pre_finite_inputs
import proofs.«148545_j10282151707323_1_alg».proof.Proof.Ideal.Entry
import proofs.«148545_j10282151707323_1_alg».proof.Proof.Ideal.Bridge0
import proofs.«148545_j10282151707323_1_alg».proof.Proof.Ideal.Bridge1
import proofs.«148545_j10282151707323_1_alg».proof.Proof.Ideal.Array2
import proofs.«148545_j10282151707323_1_alg».proof.Proof.Ideal.Stats
import proofs.«148545_j10282151707323_1_alg».proof.Proof.Ideal.SumAll
import proofs.«148545_j10282151707323_1_alg».proof.Proof.Ideal.RefValue
import proofs.«148545_j10282151707323_1_alg».proof.Proof.Ideal.RefFinite
import proofs.«148545_j10282151707323_1_alg».proof.Proof.Ideal.FiniteInputs

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The other launch arrays on core `c`: the edge list, the bias, the scale, the shift, the slope. -/
abbrev gArg (c : Dev nD) : Vec Ideal S256 .f32 := m ((c : Thread nD τ).loc main_arg5)
abbrev sArg (c : Dev nD) : Vec Ideal S256 .f32 := m ((c : Thread nD τ).loc main_arg6)
abbrev aArg (c : Dev nD) : Vec Ideal S1 .f32 := m ((c : Thread nD τ).loc main_arg7)

/-- The kernel's result array is the reference's, when every entry before the normalisation is a real number. -/
theorem result_eq (c : Dev nD)
    (hv : ∀ i, ∃ r : ℝ, Cert.ReferenceIdeal.Read.val_main_v43 (F := Ideal) (xArg m c) (eArg m c) (wArg m c) (bArg m c) i = r) :
    left2 (F := Ideal) m c
      = Cert.ReferenceIdeal.Read.val_main_v66 (F := Ideal) (xArg m c) (eArg m c) (wArg m c) (bArg m c) (gArg m c) (sArg m c) (aArg m c) := by
  have hH : hIn (B5 m) c = Cert.ReferenceIdeal.Read.val_main_v40 (F := Ideal) (xArg m c) (eArg m c) (wArg m c) :=
    (B5_of_B3 m c main_v40 (by decide) (by decide)).trans (B3_v40 m c (left0_eq m c))
  have hb : biasIn (B5 m) c = bArg m c :=
    (B5_of_B3 m c main_arg4 (by decide) (by decide)).trans (B3_of m c main_arg4 (by decide) (by decide) (by decide))
  have hg : scaleIn (B5 m) c = gArg m c :=
    (B5_of_B3 m c main_arg5 (by decide) (by decide)).trans (B3_of m c main_arg5 (by decide) (by decide) (by decide))
  have hs : shiftIn (B5 m) c = sArg m c :=
    (B5_of_B3 m c main_arg6 (by decide) (by decide)).trans (B3_of m c main_arg6 (by decide) (by decide) (by decide))
  have ha : slopeIn (B5 m) c = aArg m c :=
    (B5_of_B3 m c main_arg7 (by decide) (by decide)).trans (B3_of m c main_arg7 (by decide) (by decide) (by decide))
  have e1 : left1s (F := Ideal) m c (ix2 (0 : Fin 1) (0 : Fin 1))
      = ∑ i, Cert.ReferenceIdeal.Read.val_main_v43 (F := Ideal) (xArg m c) (eArg m c) (wArg m c) (bArg m c) i := left1s_eq m c
  have e2 : left1q (F := Ideal) m c (ix2 (0 : Fin 1) (0 : Fin 1))
      = ∑ i, Cert.ReferenceIdeal.Read.val_main_v43 (F := Ideal) (xArg m c) (eArg m c) (wArg m c) (bArg m c) i
          * Cert.ReferenceIdeal.Read.val_main_v43 (F := Ideal) (xArg m c) (eArg m c) (wArg m c) (bArg m c) i := left1q_eq m c
  have hμ : meanIn (B5 m) c (ix2 (0 : Fin 1) (0 : Fin 1))
      = Ideal.div (∑ i, Cert.ReferenceIdeal.Read.val_main_v43 (F := Ideal) (xArg m c) (eArg m c) (wArg m c) (bArg m c) i) (Ideal.ofBits .f32 0x4B435000#32) := by
    rw [show meanIn (B5 m) c = _ from B5_v51 m c, meanOf_at, e1]
  have hρ : rdevIn (B5 m) c (ix2 (0 : Fin 1) (0 : Fin 1))
      = Ideal.div 1 (Ideal.sqrt (Ideal.div (∑ i, Cert.ReferenceIdeal.Read.val_main_v43 (F := Ideal) (xArg m c) (eArg m c) (wArg m c) (bArg m c) i
            * Cert.ReferenceIdeal.Read.val_main_v43 (F := Ideal) (xArg m c) (eArg m c) (wArg m c) (bArg m c) i) (Ideal.ofBits .f32 0x4B435000#32)
          - Ideal.div (∑ i, Cert.ReferenceIdeal.Read.val_main_v43 (F := Ideal) (xArg m c) (eArg m c) (wArg m c) (bArg m c) i) (Ideal.ofBits .f32 0x4B435000#32)
            * Ideal.div (∑ i, Cert.ReferenceIdeal.Read.val_main_v43 (F := Ideal) (xArg m c) (eArg m c) (wArg m c) (bArg m c) i) (Ideal.ofBits .f32 0x4B435000#32))
          + Ideal.ofBits .f32 0x3727C5AC#32) := by
    rw [show rdevIn (B5 m) c = _ from B5_v52 m c, invDevOf_at, e1, e2]
  unfold left2
  rw [arr2_eq (B5 m) c, hH, hb, hg, hs, ha]
  funext i
  obtain ⟨p, q, rfl⟩ : ∃ (p : Fin 50000) (q : Fin 256), i = ix2 p q := ⟨i 0, i 1, eq_ix2 i⟩
  rw [Cert.ReferenceIdeal.RefValue.result_at, Cert.ReferenceIdeal.RefValue.affine_at_of_real _ _ _ _ _ _ hv,
    Cert.GcnNorm.val43_at]
  unfold act2
  dsimp only
  rw [hμ, hρ]
  simp only [lnAffine, Ideal.ofBits_def, Ideal.ofBits_zero_f32]

end Cert.KernelIdeal.Hand

namespace Cert.Proof.Bridge

open Idealize.ShloMosaic Idealize.ShloMosaic.TcCoe Idealize.SL.Sem
open Cert.KernelIdeal.Hand

/-- From memories agreeing on the arguments both programs run to the end; the kernel's result array is region 2's
    write-backs, the reference's its last operation's value, and the two are one array. -/
theorem algebraic : Cert.algebraic_KernelIdeal_ReferenceIdeal := by
  intro m ρ m' ρ' hpre hagree
  refine ⟨fun c => left2 (F := Ideal) m c, run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, (hagree c).1, (hagree c).2.1, (hagree c).2.2.2.1, (hagree c).2.2.2.2.1,
    (hagree c).2.2.2.2.2.1, (hagree c).2.2.2.2.2.2.1, (hagree c).2.2.2.2.2.2.2]
  obtain ⟨h0, h3, h4, -, -, -⟩ := Cert.GcnNorm.real_of_pre _ _ _ _ _ _ _ _ (hpre c)
  exact (result_eq m c (Cert.ReferenceIdeal.RefValue.val_real _ _ _ _ h0 h3 h4)).symm

end Cert.Proof.Bridge

end
-- ==== Proof.lean ====
/-
  The certificate of a graph-convolution block: a dense product x·W, the symmetric-normalised aggregation over the
  edges and the self loops, a layer normalisation over ALL entries, and a one-slope rectifier.

  The kernel program runs the dense product, the two global sums of the normalisation and the normalisation itself
  as three pipelined regions, with the aggregation and the statistics on the host between them; the reference is
  one straight line of host operations. Five claims:
  * each of the three programs runs to the end without a fault and leaves its argument arrays as launched — the
    kernel program at the word level and at the extended reals from one proof generic in the float instance
    (Bits/Regs.lean, Ideal/Regs.lean: one segment record per region, the carried accumulators of the sums in the
    middle region's own invariant), the reference from its run (Ideal/RefFrame.lean);
  * the idealisation rewrote nothing, so the kernel's idealised program is its own text read at the extended reals;
  * at the extended reals, from finite inputs, the two programs end with equal results (Ideal/Bridge.lean): every
    entry before the normalisation is a real number (every node has its self loop, so every degree is at least
    one), and on real numbers the mean of the squared deviations is the mean of the squares less the squared mean,
    and dividing by a positive real is multiplying by its reciprocal.
-/
import proofs.«148545_j10282151707323_1_alg».proof.Defs
import proofs.«148545_j10282151707323_1_alg».proof.Proof.Gen.Kernel
import proofs.«148545_j10282151707323_1_alg».proof.Proof.Gen.KernelIdeal
import proofs.«148545_j10282151707323_1_alg».proof.Proof.Gen.ReferenceIdeal
import proofs.«148545_j10282151707323_1_alg».proof.Proof.Gen.Pre_finite_inputs
import proofs.«148545_j10282151707323_1_alg».proof.Proof.Bits.Regs
import proofs.«148545_j10282151707323_1_alg».proof.Proof.Ideal.Regs
import proofs.«148545_j10282151707323_1_alg».proof.Proof.Ideal.RefFrame
import proofs.«148545_j10282151707323_1_alg».proof.Proof.Ideal.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame_all (F := Bits) m ρ,
    fun m ρ _ => Cert.KernelIdeal.Hand.frame_all (F := Ideal) m ρ,
    Cert.Proof.Reference.frame_reference,
    trivial,
    Cert.Proof.Bridge.algebraic⟩

end Cert.Proof

end
